-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x256 .f32 .bf16
  ∧ IdealRules.truncf_extf.Statement Cert.KernelIdeal.S512x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S256x2 .f32) (main_arg5 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x2 .f32 := Host.absf main_arg4
  let main_cst_6 : FVec F S_ .f32 := constant S_ .f32 0x7F800000#32
  let main_v20 : FVec F S256x2 .f32 := broadcastInDim S256x2 ![] bcast_S_S256x2 main_cst_6
  let main_v21 : IVec S256x2 1 := cmpf .olt main_v19 main_v20
  let main_c_7 : IVec S_ 1 := constantI S_ 1 1#1
  let main_v22 : IVec S_ 1 := (fun x v => Host.reduce IntOp.andi x v reducesTo_S256x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S512x256 .f32) (main_arg3 : FVec F S256 .f32) (main_arg4 : FVec F S256x2 .f32) (main_arg5 : FVec F S2 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x2 : Shape := ⟨2, ![256, 2]⟩
abbrev S2 : Shape := ⟨1, ![2]⟩
abbrev S4096x1 : Shape := ⟨2, ![4096, 1]⟩
abbrev S4096x256 : Shape := ⟨2, ![4096, 256]⟩
abbrev S_ : Shape := ⟨0, ![]⟩
abbrev S256x128 : Shape := ⟨2, ![256, 128]⟩
abbrev S1 : Shape := ⟨1, ![1]⟩
abbrev S1x128 : Shape := ⟨2, ![1, 128]⟩
abbrev S1x256 : Shape := ⟨2, ![1, 256]⟩
abbrev S4096x128 : Shape := ⟨2, ![4096, 128]⟩
abbrev S4096x2 : Shape := ⟨2, ![4096, 2]⟩
abbrev S512x512 : Shape := ⟨2, ![512, 512]⟩
abbrev S512x1 : Shape := ⟨2, ![512, 1]⟩
abbrev S512 : Shape := ⟨1, ![512]⟩
abbrev S512x4096 : Shape := ⟨2, ![512, 4096]⟩
abbrev S512x128 : Shape := ⟨2, ![512, 128]⟩

abbrev nBuf : Space → Nat
  | .hbm => 28
  | .vmem => 39
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S4096x4096, .bf16⟩
  | .hbm, ⟨7, _⟩ => ⟨S4096x1, .f32⟩
  | .hbm, ⟨8, _⟩ => ⟨S4096x256, .bf16⟩
  | .hbm, ⟨9, _⟩ => ⟨S4096x256, .bf16⟩
  | .hbm, ⟨10, _⟩ => ⟨S_, .f32⟩
  | .hbm, ⟨11, _⟩ => ⟨S256x128, .f32⟩
  | .hbm, ⟨12, _⟩ => ⟨S_, .i32⟩
  | .hbm, ⟨13, _⟩ => ⟨S1, .i32⟩
  | .hbm, ⟨14, _⟩ => ⟨S256x128, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S1x256, .f32⟩
  | .hbm, ⟨24, _⟩ => ⟨S4096x128, .bf16⟩
  | .hbm, ⟨25, _⟩ => ⟨S4096x128, .bf16⟩
  | .hbm, ⟨26, _⟩ => ⟨S4096x128, .f32⟩
  | .hbm, ⟨27, _⟩ => ⟨S4096x2, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x512, .f32⟩
  | .local _ .vmem, ⟨10, _⟩ => ⟨S512x512, .f32⟩
  | .local _ .vmem, ⟨11, _⟩ => ⟨S512x256, .f32⟩
  | .local _ .vmem, ⟨12, _⟩ => ⟨S512x1, .f32⟩
  | .local _ .vmem, ⟨13, _⟩ => ⟨S512x1, .f32⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x4096, .bf16⟩
  | .local _ .vmem, ⟨19, _⟩ => ⟨S512x4096, .bf16⟩
  | .local _ .vmem, ⟨20, _⟩ => ⟨S4096x256, .bf16⟩
  | .local _ .vmem, ⟨21, _⟩ => ⟨S4096x256, .bf16⟩
  | .local _ .vmem, ⟨22, _⟩ => ⟨S512x1, .f32⟩
  | .local _ .vmem, ⟨23, _⟩ => ⟨S512x1, .f32⟩
  | .local _ .vmem, ⟨24, _⟩ => ⟨S1x256, .f32⟩
  | .local _ .vmem, ⟨25, _⟩ => ⟨S256x128, .f32⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S512x128, .bf16⟩
  | .local _ .vmem, ⟨30, _⟩ => ⟨S512x4096, .bf16⟩
  | .local _ .vmem, ⟨31, _⟩ => ⟨S512x4096, .bf16⟩
  | .local _ .vmem, ⟨32, _⟩ => ⟨S4096x128, .bf16⟩
  | .local _ .vmem, ⟨33, _⟩ => ⟨S4096x128, .bf16⟩
  | .local _ .vmem, ⟨34, _⟩ => ⟨S512x1, .f32⟩
  | .local _ .vmem, ⟨35, _⟩ => ⟨S512x1, .f32⟩
  | .local _ .vmem, ⟨36, _⟩ => ⟨S1x128, .f32⟩
  | .local _ .vmem, ⟨37, _⟩ => ⟨S512x128, .f32⟩
  | .local _ .vmem, ⟨38, _⟩ => ⟨S512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0_0 : Ref sig .tc := ⟨.hbm, 6, rfl⟩
abbrev main_call0_v0_1 : Ref sig .tc := ⟨.hbm, 7, rfl⟩
abbrev main_call0_v1_0 : Ref sig .tc := ⟨.hbm, 8, rfl⟩
abbrev main_call0_v1_1 : Ref sig .tc := ⟨.hbm, 9, rfl⟩
abbrev main_call0_cst : Ref sig .tc := ⟨.hbm, 10, rfl⟩
abbrev main_call0_v2 : Ref sig .tc := ⟨.hbm, 11, rfl⟩
abbrev main_call0_c : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_c_1 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11_0 : Ref sig .tc := ⟨.hbm, 24, rfl⟩
abbrev main_call0_v11_1 : Ref sig .tc := ⟨.hbm, 25, rfl⟩
abbrev main_call0_v12 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem3_1 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S256x128 : S_.BroadcastsInDim S256x128 (![] : Fin 0 → Fin S256x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  shapeCasts_S256_S1x256 : S256.ShapeCasts S1x256
  slices_S4096x128_S4096x2_0_0 : S4096x128.Slices ![0, 0] S4096x2
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  reduces_S512x512_S512 : S512x512.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  broadcasts_S512x1_S512x256 : S512x1.Broadcasts S512x256
  packedbf16_S512x256_S512x256_0_0 : (Rect.unit (s := S512x256) ![0, 0] S512x256.size inb_S512x256_S512x256_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S512x1_S512x128 : S512x1.Broadcasts S512x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  iota_S512x128_d1_w32 : S512x128.Iotas .tc 32 [1]
  reduces_S512x128_S512 : S512x128.Reduces [1] S512
  scatter_S256x128_S1_S256x2_01_n_1_0_wf : ScatterDims.WF S256x128 S1 S256x2 [0, 1] [] [1] 0
  scatter_S1x128_S2_S2_0_0_01_0_wf : ScatterDims.WF S1x128 S2 S2 [0] [0] [0, 1] 0
  dot_S512x512_S512x256_S512x256_1_0_0_1_n_n_wf : DotDims.WF S512x512 S512x256 S512x256 [1] [0] [0] [1] [] []
  dot_S512x4096_S4096x256_S512x256_1_0_0_1_n_n_wf : DotDims.WF S512x4096 S4096x256 S512x256 [1] [0] [0] [1] [] []
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .bf16 = 32 ∨ (Rect.block (s := S4096x4096) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .bf16 = 32 ∨ (Rect.block (s := S4096x256) S512x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .bf16 = 32 ∨ (Rect.block (s := S4096x256) S512x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .bf16 = 32 ∨ (Rect.block (s := S4096x256) S4096x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S4096x256.size a
  hwx2_2 : ∀ i : grid2.Coords, EltTy.bits .bf16 = 32 ∨ (Rect.block (s := S4096x256) S4096x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .f32 = 32 ∨ (Rect.block (s := S4096x1) S512x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x128.size a ≤ S4096x128.size a
  hwx2_6 : ∀ i : grid2.Coords, EltTy.bits .bf16 = 32 ∨ (Rect.block (s := S4096x128) S512x128.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x128.size a ≤ S4096x128.size a
  hwx2_7 : ∀ i : grid2.Coords, EltTy.bits .bf16 = 32 ∨ (Rect.block (s := S4096x128) S512x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .bf16 = 32 ∨ (Rect.block (s := S4096x4096) S512x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .bf16 = 32 ∨ (Rect.block (s := S4096x128) S4096x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S4096x128.size a
  hwx3_2 : ∀ i : grid3.Coords, EltTy.bits .bf16 = 32 ∨ (Rect.block (s := S4096x128) S4096x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S4096x1.size a
  hwx3_3 : ∀ i : grid3.Coords, EltTy.bits .f32 = 32 ∨ (Rect.block (s := S4096x1) S512x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x128.size a ≤ S4096x128.size a
  hwx3_5 : ∀ i : grid3.Coords, EltTy.bits .f32 = 32 ∨ (Rect.block (s := S4096x128) S512x128.size (cc3_transform_5 i) (hinb3_5 i)).WholeWords (EltTy.packing .f32)

variable [Facts₀]

def scatter_S256x128_S1_S256x2_01_n_1_0 : ScatterDims S256x128 S1 S256x2 where
  updateWindowDims := [0, 1]
  insertedWindowDims := []
  scatterDimsToOperandDims := [1]
  indexVectorDim := 0
  wf := scatter_S256x128_S1_S256x2_01_n_1_0_wf
def scatter_S1x128_S2_S2_0_0_01_0 : ScatterDims S1x128 S2 S2 where
  updateWindowDims := [0]
  insertedWindowDims := [0]
  scatterDimsToOperandDims := [0, 1]
  indexVectorDim := 0
  wf := scatter_S1x128_S2_S2_0_0_01_0_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0_1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1_0) S512x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1_1) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v0_0) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1_0) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1_1) S4096x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v0_1) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v10) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v4) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v11_0) S512x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_call0_v11_1) S512x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v0_0) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v11_0) S4096x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v11_1) S4096x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v0_1) S512x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_call0_v9) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v12) S512x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩
abbrev S4096 : Shape := ⟨1, ![4096]⟩
abbrev S4096x256 : Shape := ⟨2, ![4096, 256]⟩
abbrev S4096x1 : Shape := ⟨2, ![4096, 1]⟩
abbrev S1x256 : Shape := ⟨2, ![1, 256]⟩
abbrev S4096x2 : Shape := ⟨2, ![4096, 2]⟩
abbrev S1x2 : Shape := ⟨2, ![1, 2]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S4096x4096, .i1⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x256, .f32⟩
  | .hbm, ⟨25, _⟩ => ⟨S4096x1, .f32⟩
  | .hbm, ⟨26, _⟩ => ⟨S4096x1, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S1x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096x256, .f32⟩
  | .hbm, ⟨37, _⟩ => ⟨S4096x256, .f32⟩
  | .hbm, ⟨38, _⟩ => ⟨S4096x2, .f32⟩
  | .hbm, ⟨39, _⟩ => ⟨S4096x1, .f32⟩
  | .hbm, ⟨40, _⟩ => ⟨S4096x1, .f32⟩
  | .hbm, ⟨41, _⟩ => ⟨S4096x2, .f32⟩
  | .hbm, ⟨42, _⟩ => ⟨S4096x2, .f32⟩
  | .hbm, ⟨43, _⟩ => ⟨S4096x2, .f32⟩
  | .hbm, ⟨44, _⟩ => ⟨S4096x2, .f32⟩
  | .hbm, ⟨45, _⟩ => ⟨S4096x2, .f32⟩
  | .hbm, ⟨46, _⟩ => ⟨S1x2, .f32⟩
  | .hbm, ⟨47, _⟩ => ⟨S4096x2, .f32⟩
  | .hbm, ⟨48, _⟩ => ⟨S4096x2, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x1, .f32⟩
  | .hbm, ⟨55, _⟩ => ⟨S4096x2, .f32⟩
  | .hbm, ⟨56, _⟩ => ⟨S4096x2, .f32⟩
  | .hbm, ⟨57, _⟩ => ⟨S4096x2, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1, .f32⟩
  | .hbm, ⟨62, _⟩ => ⟨S4096x2, .f32⟩
  | .hbm, ⟨63, _⟩ => ⟨S4096x2, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_cst : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call2_cst : Ref sig .tc := ⟨.hbm, 49, rfl⟩
abbrev main_call2_v0 : Ref sig .tc := ⟨.hbm, 50, rfl⟩
abbrev main_call2_cst_0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_cst_1 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_v34 : Ref sig .tc := ⟨.hbm, 63, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S4096x1_S4096x2_0_1 : S4096x1.BroadcastsInDim S4096x2 (![0, 1] : Fin 2 → Fin S4096x2.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  reducesTo_S4096x2_S4096_d1 : S4096x2.ReducesTo [1] S4096
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x2_S4096x2_1_0_0_1_n_n_wf : DotDims.WF S4096x256 S256x2 S4096x2 [1] [0] [0] [1] [] []
  dot_S4096x4096_S4096x2_S4096x2_1_0_0_1_n_n_wf : DotDims.WF S4096x4096 S4096x2 S4096x2 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf
def dot_S4096x4096_S4096x2_S4096x2_1_0_0_1_n_n : DotDims S4096x4096 S4096x2 S4096x2 where
  lhsContracting := [1]
  rhsContracting := [0]
  lhsNonContracting := [0]
  rhsNonContracting := [1]
  lhsBatch := []
  rhsBatch := []
  wf := dot_S4096x4096_S4096x2_S4096x2_1_0_0_1_n_n_wf

class Facts : Prop extends Facts₀ where

variable [Facts]
-- ==== Proof.KR0Runs.lean ====
/-
  Pallas call 0 (symmetrise, binarise, row degrees): what its frame proof shares between the three ways the body can run.

  The grid is 8 x 8, point t = 8 i + j. Windows 0 and 1 are two blocks of ONE array (the adjacency): block (i, j) and
  block (j, i). Window 2 is block (i, j) of the 0/1 matrix, written at every point. Window 3 is block (i, 0) of the
  column of inverse square-root degrees: the body stores it only at j = 7, and only there is it written back; at the
  other points its staging buffer is handed back as found. A scratch column carries the partial row sums from one j
  to the next: set at j = 0, added to at j > 0, read at j = 7.
-/
import proofs.«167793_g47029891891200_fold_wed_c4_674_5_alg».proof.Proof.Gen.Kernel.Launch
import proofs.«167793_g47029891891200_fold_wed_c4_674_5_alg».proof.Proof.Gen.Kernel.Skeleton
import proofs.«167793_g47029891891200_fold_wed_c4_674_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Block (i, j) of the adjacency is what the first input's staging buffer holds when the body runs: it is fetched
    at every point and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for block (j, i), the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end Blocks

/-! ## The three conditions on the column-block index j, in closed form -/

/-- j = 0: the partial sums are set. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- j > 0: the partial sums are added to. -/
abbrev cond0_1 (i : grid0.Coords) : Prop := (Scalar.cmpi .ne (Scalar.extui (Scalar.cmpi .sgt (BitVec.ofNat 32 (i 1).val) 0#32)) 0#32) = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)
/-- j = 7: the row sums are complete and the inverse square roots are stored. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the column of inverse square roots is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from j = 7 the body stores nothing into window 3, -/
theorem idleAt0_3 : ∀ t : Fin cfg0.N, ¬cond0_2 (grid0.coords t) → cfg0.idle 3 (grid0.coords t) = true := by decide +kernel
/-- and the block is not written back there; -/
theorem noFlush0_3 : ∀ t : Fin cfg0.N, ¬cond0_2 (grid0.coords t) → (cfg0.win 3).flush t = false := by decide +kernel
/-- at j = 7 it does. -/
theorem liveAt0_3 : ∀ t : Fin cfg0.N, cond0_2 (grid0.coords t) → cfg0.idle 3 (grid0.coords t) = false := by decide +kernel

/-! ## The staging memrefs at a point, and the scratch -/

abbrev VO0_2 : View sig .tc .vmem S512x512 .bf16 := (Memref.whole cc0_stg2_0 : Memref sig .tc .vmem S512x512 .bf16).view
abbrev VO0_3 : View sig .tc .vmem S512x1 .f32 := (Memref.whole cc0_stg3_0 : Memref sig .tc .vmem S512x1 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The scratch column of partial row sums. -/
abbrev scM0_0 : Memref sig .tc .vmem S512x1 .f32 := Memref.whole cc0_scratch0
abbrev VS0_0 : View sig .tc .vmem S512x1 .f32 := scM0_0.view

/-- The scoped buffers no window stages, with the scratch column split off as a memref owned at some contents, and the
    generator register: what the body may use and need not describe. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.KR0RunA.lean ====
/-
  Pallas call 0, the body run whole at a point with j = 0: the partial row sums are SET to this block's row sums.
  Block (i, j) of the 0/1 matrix is stored at every point. What each buffer ends with, as the list of its stores, is
  found by running the body's memory operations symbolically.
-/
import proofs.«167793_g47029891891200_fold_wed_c4_674_5_alg».proof.Proof.KR0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — both adjacency blocks at their contents, the 0/1 block's buffer at anything, the
    inverse-square-root column's handed back untouched, the scratch column at anything — the body runs to the
    continuation holding the inputs as they were and each buffer it stored into with its stores written. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole)
    (hc0 : cond0_0 i) (hc1 : ¬cond0_1 i) (hc2 : ¬cond0_2 i)
    (x0 : Vec F S512x512 .f32) (x1 : Vec F S512x512 .f32) :
    Σ' (L2 : List (View.Piece (Elt F) S512x512 .bf16)) (L3 : List (View.Piece (Elt F) S512x1 .f32)), { LS0 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sym_deg_kernel i arg2 harg2 arg3 harg3 arg4 harg4 arg5 harg5 arg6 harg6) K } := by
  refine ⟨?_, [], ?_, fun xi3 E K => ?run⟩
  case run =>
    simp only [cc0__sym_deg_kernel_eq_skeleton]; unfold cc0__sym_deg_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Hand

end
-- ==== Proof.KR0RunB.lean ====
/-
  Pallas call 0, the body run whole at a point with 0 < j < 7: this block's row sums are ADDED to the partial sums.
  Block (i, j) of the 0/1 matrix is stored at every point. What each buffer ends with, as the list of its stores, is
  found by running the body's memory operations symbolically.
-/
import proofs.«167793_g47029891891200_fold_wed_c4_674_5_alg».proof.Proof.KR0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — both adjacency blocks at their contents, the 0/1 block's buffer at anything, the
    inverse-square-root column's handed back untouched, the scratch column at what the point before left — the body runs to the
    continuation holding the inputs as they were and each buffer it stored into with its stores written. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole)
    (hc0 : ¬cond0_0 i) (hc1 : cond0_1 i) (hc2 : ¬cond0_2 i)
    (x0 : Vec F S512x512 .f32) (x1 : Vec F S512x512 .f32) (xs0 : Vec F S512x1 .f32) :
    Σ' (L2 : List (View.Piece (Elt F) S512x512 .bf16)) (L3 : List (View.Piece (Elt F) S512x1 .f32)), { LS0 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sym_deg_kernel i arg2 harg2 arg3 harg3 arg4 harg4 arg5 harg5 arg6 harg6) K } := by
  refine ⟨?_, [], ?_, fun xi3 E K => ?run⟩
  case run =>
    simp only [cc0__sym_deg_kernel_eq_skeleton]; unfold cc0__sym_deg_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Hand

end
-- ==== Proof.KR0RunC.lean ====
/-
  Pallas call 0, the body run whole at a point with j = 7: the last block's row sums are added, and the inverse square root of the larger of the total and one is stored.
  Block (i, j) of the 0/1 matrix is stored at every point. What each buffer ends with, as the list of its stores, is
  found by running the body's memory operations symbolically.
-/
import proofs.«167793_g47029891891200_fold_wed_c4_674_5_alg».proof.Proof.KR0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — both adjacency blocks at their contents, the 0/1 block's buffer at anything, the
    inverse-square-root column's at anything, the scratch column at what the point before left — the body runs to the
    continuation holding the inputs as they were and each buffer it stored into with its stores written. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole)
    (hc0 : ¬cond0_0 i) (hc1 : cond0_1 i) (hc2 : cond0_2 i)
    (x0 : Vec F S512x512 .f32) (x1 : Vec F S512x512 .f32) (xs0 : Vec F S512x1 .f32) :
    Σ' (L2 : List (View.Piece (Elt F) S512x512 .bf16)) (L3 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sym_deg_kernel i arg2 harg2 arg3 harg3 arg4 harg4 arg5 harg5 arg6 harg6) K } := by
  refine ⟨?_, ?_, ?_, fun E K => ?run⟩
  case run =>
    simp only [cc0__sym_deg_kernel_eq_skeleton]; unfold cc0__sym_deg_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Hand

end
-- ==== Proof.KRegion0.lean ====
/-
  Pallas call 0: what its buffers hold point by point, its proof data, and the body obligation.

  At point t = 8 i + j the 0/1 block (i, j) is stored whole; the scratch column holds, after the point, the sum over the
  column blocks 0..j of the rows' sums; at j = 7 the column of inverse square roots of max(row sum, 1) is stored and
  written back. The adjacency is read through two windows, so each holds half of its share.
-/
import proofs.«167793_g47029891891200_fold_wed_c4_674_5_alg».proof.Proof.KR0RunA
import proofs.«167793_g47029891891200_fold_wed_c4_674_5_alg».proof.Proof.KR0RunB
import proofs.«167793_g47029891891200_fold_wed_c4_674_5_alg».proof.Proof.KR0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which case a point is in -/

theorem cA0 (t : Fin cfg0.N) (h0 : t.val % 8 = 0) : cond0_0 (grid0.coords t) := (hcond0_0 t).mpr h0
theorem cA1 (t : Fin cfg0.N) (h0 : t.val % 8 = 0) : ¬cond0_1 (grid0.coords t) := fun h => (hcond0_1 t).mp h h0
theorem cA2 (t : Fin cfg0.N) (h0 : t.val % 8 = 0) : ¬cond0_2 (grid0.coords t) := fun h => by have := (hcond0_2 t).mp h; omega
theorem cB0 (t : Fin cfg0.N) (h0 : ¬t.val % 8 = 0) : ¬cond0_0 (grid0.coords t) := fun h => h0 ((hcond0_0 t).mp h)
theorem cB1 (t : Fin cfg0.N) (h0 : ¬t.val % 8 = 0) : cond0_1 (grid0.coords t) := (hcond0_1 t).mpr h0
theorem cB2 (t : Fin cfg0.N) (h2 : ¬t.val % 8 = 7) : ¬cond0_2 (grid0.coords t) := fun h => h2 ((hcond0_2 t).mp h)
theorem cC2 (t : Fin cfg0.N) (h2 : t.val % 8 = 7) : cond0_2 (grid0.coords t) := (hcond0_2 t).mpr h2

/-- The body's run at point `t` when j = 0, on the point's staging memrefs. -/
abbrev runA (c : Dev nD) (t : Fin cfg0.N) (h0 : t.val % 8 = 0) (x0 x1 : Vec F S512x512 .f32) :=
  kernelRun0_A (F := F) c (grid0.coords t) (ms0_0 t) (hs0_0 t) (ms0_1 t) (hs0_1 t) (ms0_2 t) (hs0_2 t) (ms0_3 t) (hs0_3 t) scM0_0 (Memref.isWhole_whole _) (cA0 t h0) (cA1 t h0) (cA2 t h0) x0 x1
/-- when 0 < j < 7, -/
abbrev runB (c : Dev nD) (t : Fin cfg0.N) (h0 : ¬t.val % 8 = 0) (h2 : ¬t.val % 8 = 7) (x0 x1 : Vec F S512x512 .f32) (xs0 : Vec F S512x1 .f32) :=
  kernelRun0_B (F := F) c (grid0.coords t) (ms0_0 t) (hs0_0 t) (ms0_1 t) (hs0_1 t) (ms0_2 t) (hs0_2 t) (ms0_3 t) (hs0_3 t) scM0_0 (Memref.isWhole_whole _) (cB0 t h0) (cB1 t h0) (cB2 t h2) x0 x1 xs0
/-- when j = 7. -/
abbrev runC (c : Dev nD) (t : Fin cfg0.N) (h0 : ¬t.val % 8 = 0) (h2 : t.val % 8 = 7) (x0 x1 : Vec F S512x512 .f32) (xs0 : Vec F S512x1 .f32) :=
  kernelRun0_C (F := F) c (grid0.coords t) (ms0_0 t) (hs0_0 t) (ms0_1 t) (hs0_1 t) (ms0_2 t) (hs0_2 t) (ms0_3 t) (hs0_3 t) scM0_0 (Memref.isWhole_whole _) (cB0 t h0) (cB1 t h0) (cC2 t h2) x0 x1 xs0

/-! ## What each case leaves in the 0/1 block's buffer, the inverse-square-root column's and the scratch column -/

def out0_A_2 (c : Dev nD) (t : Fin cfg0.N) (h0 : t.val % 8 = 0) (x0 x1 : Vec F S512x512 .f32) : Vec F S512x512 .bf16 :=
  VO0_2.read (Elt F) (VO0_2.writes (Elt F) VO0_2.junk (runA c t h0 x0 x1).1)
theorem cover0_A_2 (c : Dev nD) (t : Fin cfg0.N) (h0 : t.val % 8 = 0) (x0 x1 : Vec F S512x512 .f32) (y : S512x512.Idx) :
    ∃ pc ∈ (runA (F := F) c t h0 x0 x1).1, y ∈ pc.1.set :=
  View.cover_of_tiledL (runA c t h0 x0 x1).1 S512x512.size (by sl_kernel_rfl) y
/-- Nothing is stored into the column at j = 0: a placeholder nothing consults. -/
def out0_A_3 (c : Dev nD) (t : Fin cfg0.N) (h0 : t.val % 8 = 0) (x0 x1 : Vec F S512x512 .f32) : Vec F S512x1 .f32 :=
  VO0_3.read (Elt F) (VO0_3.writes (Elt F) VO0_3.junk (runA c t h0 x0 x1).2.1)
def sout0_A_0 (c : Dev nD) (t : Fin cfg0.N) (h0 : t.val % 8 = 0) (x0 x1 : Vec F S512x512 .f32) : Vec F S512x1 .f32 :=
  VS0_0.read (Elt F) (VS0_0.writes (Elt F) VS0_0.junk (runA c t h0 x0 x1).2.2.1)
theorem scover0_A_0 (c : Dev nD) (t : Fin cfg0.N) (h0 : t.val % 8 = 0) (x0 x1 : Vec F S512x512 .f32) (y : S512x1.Idx) :
    ∃ pc ∈ (runA (F := F) c t h0 x0 x1).2.2.1, y ∈ pc.1.set :=
  View.cover_of_tiledL (runA c t h0 x0 x1).2.2.1 S512x1.size (by sl_kernel_rfl) y

def out0_B_2 (c : Dev nD) (t : Fin cfg0.N) (h0 : ¬t.val % 8 = 0) (h2 : ¬t.val % 8 = 7) (x0 x1 : Vec F S512x512 .f32) (xs0 : Vec F S512x1 .f32) : Vec F S512x512 .bf16 :=
  VO0_2.read (Elt F) (VO0_2.writes (Elt F) VO0_2.junk (runB c t h0 h2 x0 x1 xs0).1)
theorem cover0_B_2 (c : Dev nD) (t : Fin cfg0.N) (h0 : ¬t.val % 8 = 0) (h2 : ¬t.val % 8 = 7) (x0 x1 : Vec F S512x512 .f32) (xs0 : Vec F S512x1 .f32) (y : S512x512.Idx) :
    ∃ pc ∈ (runB (F := F) c t h0 h2 x0 x1 xs0).1, y ∈ pc.1.set :=
  View.cover_of_tiledL (runB c t h0 h2 x0 x1 xs0).1 S512x512.size (by sl_kernel_rfl) y
def out0_B_3 (c : Dev nD) (t : Fin cfg0.N) (h0 : ¬t.val % 8 = 0) (h2 : ¬t.val % 8 = 7) (x0 x1 : Vec F S512x512 .f32) (xs0 : Vec F S512x1 .f32) : Vec F S512x1 .f32 :=
  VO0_3.read (Elt F) (VO0_3.writes (Elt F) VO0_3.junk (runB c t h0 h2 x0 x1 xs0).2.1)
def sout0_B_0 (c : Dev nD) (t : Fin cfg0.N) (h0 : ¬t.val % 8 = 0) (h2 : ¬t.val % 8 = 7) (x0 x1 : Vec F S512x512 .f32) (xs0 : Vec F S512x1 .f32) : Vec F S512x1 .f32 :=
  VS0_0.read (Elt F) (VS0_0.writes (Elt F) VS0_0.junk (runB c t h0 h2 x0 x1 xs0).2.2.1)
theorem scover0_B_0 (c : Dev nD) (t : Fin cfg0.N) (h0 : ¬t.val % 8 = 0) (h2 : ¬t.val % 8 = 7) (x0 x1 : Vec F S512x512 .f32) (xs0 : Vec F S512x1 .f32) (y : S512x1.Idx) :
    ∃ pc ∈ (runB (F := F) c t h0 h2 x0 x1 xs0).2.2.1, y ∈ pc.1.set :=
  View.cover_of_tiledL (runB c t h0 h2 x0 x1 xs0).2.2.1 S512x1.size (by sl_kernel_rfl) y

def out0_C_2 (c : Dev nD) (t : Fin cfg0.N) (h0 : ¬t.val % 8 = 0) (h2 : t.val % 8 = 7) (x0 x1 : Vec F S512x512 .f32) (xs0 : Vec F S512x1 .f32) : Vec F S512x512 .bf16 :=
  VO0_2.read (Elt F) (VO0_2.writes (Elt F) VO0_2.junk (runC c t h0 h2 x0 x1 xs0).1)
theorem cover0_C_2 (c : Dev nD) (t : Fin cfg0.N) (h0 : ¬t.val % 8 = 0) (h2 : t.val % 8 = 7) (x0 x1 : Vec F S512x512 .f32) (xs0 : Vec F S512x1 .f32) (y : S512x512.Idx) :
    ∃ pc ∈ (runC (F := F) c t h0 h2 x0 x1 xs0).1, y ∈ pc.1.set :=
  View.cover_of_tiledL (runC c t h0 h2 x0 x1 xs0).1 S512x512.size (by sl_kernel_rfl) y
def out0_C_3 (c : Dev nD) (t : Fin cfg0.N) (h0 : ¬t.val % 8 = 0) (h2 : t.val % 8 = 7) (x0 x1 : Vec F S512x512 .f32) (xs0 : Vec F S512x1 .f32) : Vec F S512x1 .f32 :=
  VO0_3.read (Elt F) (VO0_3.writes (Elt F) VO0_3.junk (runC c t h0 h2 x0 x1 xs0).2.1)
theorem cover0_C_3 (c : Dev nD) (t : Fin cfg0.N) (h0 : ¬t.val % 8 = 0) (h2 : t.val % 8 = 7) (x0 x1 : Vec F S512x512 .f32) (xs0 : Vec F S512x1 .f32) (y : S512x1.Idx) :
    ∃ pc ∈ (runC (F := F) c t h0 h2 x0 x1 xs0).2.1, y ∈ pc.1.set :=
  View.cover_of_tiledL (runC c t h0 h2 x0 x1 xs0).2.1 S512x1.size (by sl_kernel_rfl) y
def sout0_C_0 (c : Dev nD) (t : Fin cfg0.N) (h0 : ¬t.val % 8 = 0) (h2 : t.val % 8 = 7) (x0 x1 : Vec F S512x512 .f32) (xs0 : Vec F S512x1 .f32) : Vec F S512x1 .f32 :=
  VS0_0.read (Elt F) (VS0_0.writes (Elt F) VS0_0.junk (runC c t h0 h2 x0 x1 xs0).2.2.1)
theorem scover0_C_0 (c : Dev nD) (t : Fin cfg0.N) (h0 : ¬t.val % 8 = 0) (h2 : t.val % 8 = 7) (x0 x1 : Vec F S512x512 .f32) (xs0 : Vec F S512x1 .f32) (y : S512x1.Idx) :
    ∃ pc ∈ (runC (F := F) c t h0 h2 x0 x1 xs0).2.2.1, y ∈ pc.1.set :=
  View.cover_of_tiledL (runC c t h0 h2 x0 x1 xs0).2.2.1 S512x1.size (by sl_kernel_rfl) y

section Data
variable (V : (c : Dev nD) → (b : Ref sig .tc) → Buf (Elt F) ((c : Thread nD τ).loc b))

/-! ## Point by point -/

/-- What the 0/1 block's buffer, the inverse-square-root column's buffer and the scratch column hold after the body at
    position `n`: the case of `n` run at the point's two adjacency blocks, the scratch taken from the point before. -/
def outsAt0 (c : Dev nD) : (n : ℕ) → n < cfg0.N → Vec F S512x512 .bf16 × Vec F S512x1 .f32 × Vec F S512x1 .f32
  | 0, hn => (out0_A_2 c ⟨0, hn⟩ (Nat.zero_mod _) (iblk0 V c 0 ⟨0, hn⟩) (iblk0 V c 1 ⟨0, hn⟩), out0_A_3 c ⟨0, hn⟩ (Nat.zero_mod _) (iblk0 V c 0 ⟨0, hn⟩) (iblk0 V c 1 ⟨0, hn⟩), sout0_A_0 c ⟨0, hn⟩ (Nat.zero_mod _) (iblk0 V c 0 ⟨0, hn⟩) (iblk0 V c 1 ⟨0, hn⟩))
  | n + 1, hn =>
    if h0 : (n + 1) % 8 = 0 then
      (out0_A_2 c ⟨n + 1, hn⟩ h0 (iblk0 V c 0 ⟨n + 1, hn⟩) (iblk0 V c 1 ⟨n + 1, hn⟩), out0_A_3 c ⟨n + 1, hn⟩ h0 (iblk0 V c 0 ⟨n + 1, hn⟩) (iblk0 V c 1 ⟨n + 1, hn⟩), sout0_A_0 c ⟨n + 1, hn⟩ h0 (iblk0 V c 0 ⟨n + 1, hn⟩) (iblk0 V c 1 ⟨n + 1, hn⟩))
    else if h2 : (n + 1) % 8 = 7 then
      (out0_C_2 c ⟨n + 1, hn⟩ h0 h2 (iblk0 V c 0 ⟨n + 1, hn⟩) (iblk0 V c 1 ⟨n + 1, hn⟩) (outsAt0 c n (Nat.lt_of_succ_lt hn)).2.2, out0_C_3 c ⟨n + 1, hn⟩ h0 h2 (iblk0 V c 0 ⟨n + 1, hn⟩) (iblk0 V c 1 ⟨n + 1, hn⟩) (outsAt0 c n (Nat.lt_of_succ_lt hn)).2.2, sout0_C_0 c ⟨n + 1, hn⟩ h0 h2 (iblk0 V c 0 ⟨n + 1, hn⟩) (iblk0 V c 1 ⟨n + 1, hn⟩) (outsAt0 c n (Nat.lt_of_succ_lt hn)).2.2)
    else
      (out0_B_2 c ⟨n + 1, hn⟩ h0 h2 (iblk0 V c 0 ⟨n + 1, hn⟩) (iblk0 V c 1 ⟨n + 1, hn⟩) (outsAt0 c n (Nat.lt_of_succ_lt hn)).2.2, out0_B_3 c ⟨n + 1, hn⟩ h0 h2 (iblk0 V c 0 ⟨n + 1, hn⟩) (iblk0 V c 1 ⟨n + 1, hn⟩) (outsAt0 c n (Nat.lt_of_succ_lt hn)).2.2, sout0_B_0 c ⟨n + 1, hn⟩ h0 h2 (iblk0 V c 0 ⟨n + 1, hn⟩) (iblk0 V c 1 ⟨n + 1, hn⟩) (outsAt0 c n (Nat.lt_of_succ_lt hn)).2.2)

theorem outsAt0_A (c : Dev nD) (t : Fin cfg0.N) (h0 : t.val % 8 = 0) :
    outsAt0 V c t.val t.isLt = (out0_A_2 c t h0 (iblk0 V c 0 t) (iblk0 V c 1 t), out0_A_3 c t h0 (iblk0 V c 0 t) (iblk0 V c 1 t), sout0_A_0 c t h0 (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) (h2 : ¬t.val % 8 = 7) :
    outsAt0 V c t.val t.isLt = (out0_B_2 c t h0 h2 (iblk0 V c 0 t) (iblk0 V c 1 t) (outsAt0 V c (t.val - 1) (Nat.lt_of_le_of_lt (Nat.sub_le _ _) t.isLt)).2.2, out0_B_3 c t h0 h2 (iblk0 V c 0 t) (iblk0 V c 1 t) (outsAt0 V c (t.val - 1) (Nat.lt_of_le_of_lt (Nat.sub_le _ _) t.isLt)).2.2, sout0_B_0 c t h0 h2 (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h2).trans rfl)

theorem outsAt0_C (c : Dev nD) (t : Fin cfg0.N) (h0 : ¬t.val % 8 = 0) (h2 : t.val % 8 = 7) :
    outsAt0 V c t.val t.isLt = (out0_C_2 c t h0 h2 (iblk0 V c 0 t) (iblk0 V c 1 t) (outsAt0 V c (t.val - 1) (Nat.lt_of_le_of_lt (Nat.sub_le _ _) t.isLt)).2.2, out0_C_3 c t h0 h2 (iblk0 V c 0 t) (iblk0 V c 1 t) (outsAt0 V c (t.val - 1) (Nat.lt_of_le_of_lt (Nat.sub_le _ _) t.isLt)).2.2, sout0_C_0 c t h0 h2 (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h2).trans rfl)

/-! ## The invariant: the scratch column at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the call finds them; after the body the inputs' buffers at their blocks and the outputs' at
    `outsAt0`; the adjacency's share halved between its two windows; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The three windows that are never idle end at what the proof data names. -/
theorem leaves0_0 (c : Dev nD) (t : Fin cfg0.N) : (dat0 V c).leavesExact 0 t = owns (c : Thread nD τ) (ms0_0 t) fullShare ((dat0 V c).after 0 t) := by
  unfold Dat.leavesExact; rw [liveAt0_0 t]
theorem leaves0_1 (c : Dev nD) (t : Fin cfg0.N) : (dat0 V c).leavesExact 1 t = owns (c : Thread nD τ) (ms0_1 t) fullShare ((dat0 V c).after 1 t) := by
  unfold Dat.leavesExact; rw [liveAt0_1 t]
theorem leaves0_2 (c : Dev nD) (t : Fin cfg0.N) : (dat0 V c).leavesExact 2 t = owns (c : Thread nD τ) (ms0_2 t) fullShare ((dat0 V c).after 2 t) := by
  unfold Dat.leavesExact; rw [liveAt0_2 t]
/-- The inverse-square-root column at j = 7 likewise. -/
theorem leaves0_3 (c : Dev nD) (t : Fin cfg0.N) (h2 : t.val % 8 = 7) : (dat0 V c).leavesExact 3 t = owns (c : Thread nD τ) (ms0_3 t) fullShare ((dat0 V c).after 3 t) := by
  unfold Dat.leavesExact; rw [liveAt0_3 t (cC2 t h2)]

set_option maxHeartbeats 8000000 in
/-- At any point: the closed forms say which case it is in; that case's run applies to the point's blocks, the scratch
    column at what the point before left (at anything where it is set); the invariant takes the scratch column back at
    this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, after0_0, after0_1, after0_2]
  have hN : t.val < 64 := lt_of_lt_of_eq t.isLt (show cfg0.N = 64 from N_0)
  by_cases h0 : t.val % 8 = 0
  · rw [Dat.leavesExact_idle (dat0 V c) 3 t (idleAt0_3 t (cA2 t h0)) (noFlush0_3 t (cA2 t h0))]
    rw [outsAt0_A V c t h0]
    unfold out0_A_2 sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩⟩
      iapply ((runA c t h0 (iblk0 V c 0 t) (iblk0 V c 1 t)).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c t h0 _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c t h0 _ _)
      iexists _; iexact H3
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runA c t h0 (iblk0 V c 0 t) (iblk0 V c 1 t)).2.2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c t h0 _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c t h0 _ _)
      iexists _; iexact H3
  · have hz : t.val ≠ 0 := fun e => h0 (by rw [e])
    by_cases h2 : t.val % 8 = 7
    · rw [leaves0_3 V c t h2, after0_3]
      rw [outsAt0_C V c t h0 h2]
      unfold out0_C_2 out0_C_3 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runC c t h0 h2 (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c t h0 h2 _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c t h0 h2 _ _ _)
      unfold owns; iexists _; isplitr
      swap; · iexact H3
      ipureintro; exact View.read_writes_of_cover _ _ _ _ _ (cover0_C_3 c t h0 h2 _ _ _)
    · rw [Dat.leavesExact_idle (dat0 V c) 3 t (idleAt0_3 t (cB2 t h2)) (noFlush0_3 t (cB2 t h2))]
      rw [outsAt0_B V c t h0 h2]
      unfold out0_B_2 sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runB c t h0 h2 (iblk0 V c 0 t) (iblk0 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c t h0 h2 _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c t h0 h2 _ _ _)
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the call is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- after the last point the invariant gives it back, the scratch column's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, Hrest⟩, Hg⟩
  isplitl [HS0 Hrest]
  · isplitl [HS0]
    · iexists _; iexact HS0
    iexact Hrest
  iexact Hg

end Data

end Cert.Kernel.Hand

end
-- ==== Proof.KR0Share.lean ====
/-
  Pallas call 0 reads the adjacency through two windows, so the buffers behind its four windows are three: the
  adjacency, the 0/1 matrix and the column of inverse square roots. On entry the adjacency's full share is halved
  between the two windows; on exit, both halves still holding the launch contents (an input is never written), they
  are one full share again.
-/
import proofs.«167793_g47029891891200_fold_wed_c4_674_5_alg».proof.Proof.KRegion0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The three distinct buffers behind the four windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_call0_v0_0) ↦{fullShare} W main_call0_v0_0) ∗ (((c : Thread nD τ).loc main_call0_v0_1) ↦{fullShare} W main_call0_v0_1)) := by
  unfold Pipeline.arrBufs
  exact bigSep_eq_bigSepL_of_eq [main_arg1, main_call0_v0_0, main_call0_v0_1] (by decide) (by decide) _

/-- The proof data's arrays, window by window: each array a whole buffer, the adjacency's two windows at half shares. -/
theorem arrays0_eq (c : Dev nD) (Fn : (w : Fin cfg0.W) → Buf (Elt F) ((cfg0.win w).arr.view.loc (c.tc : Thread nD τ))) :
    ((dat0 V c).arrays Fn : sProp 𝕄)
      = iprop((((c : Thread nD τ).loc main_arg1) ↦{fullShare.left} Fn 0) ∗ (((c : Thread nD τ).loc main_arg1) ↦{fullShare.right} Fn 1)
          ∗ (((c : Thread nD τ).loc main_call0_v0_0) ↦{fullShare} Fn 2) ∗ (((c : Thread nD τ).loc main_call0_v0_1) ↦{fullShare} Fn 3)) := by
  unfold Dat.arrays
  rw [bigSep_W0]
  rw [(arr_whole0 0).set_eq_univ]
  rw [(arr_whole0 2).set_eq_univ]
  rw [(arr_whole0 3).set_eq_univ]
  rfl

/-- ENTRY. -/
theorem arrays_in0 (c : Dev nD) :
    (Pipeline.arrBufs (Ix := Unit) (Name := ℕ) (U := UR sig nD τ) (Lvl := ℕ) spec0 c (V c) : sProp 𝕄) ⊢ (dat0 V c).arrays ((dat0 V c).arrAt · 0) := by
  rw [arrBufs0_eq, arrays0_eq]
  iintro ⟨Ha, H2, H3⟩
  ihave Hs := (pointsTo_share (PosShare.mem_left_op_right fullShare)).1 $$ Ha
  icases Hs with ⟨Hl, Hr⟩
  isplitl [Hl]; · iexact Hl
  isplitl [Hr]; · iexact Hr
  isplitl [H2]; · iexact H2
  iexact H3

/-- EXIT, at any later contents `W` that have the 0/1 matrix and the column at what the call leaves and the adjacency
    as it was. -/
theorem arrays_out0 (c : Dev nD) (W : (b : Ref sig .tc) → Buf (Elt F) ((c : Thread nD τ).loc b))
    (hA : W main_arg1 = V c main_arg1)
    (h2 : (dat0 V c).arrAt 2 cfg0.N = W main_call0_v0_0) (h3 : (dat0 V c).arrAt 3 cfg0.N = W main_call0_v0_1) :
    ((dat0 V c).arrays ((dat0 V c).arrAt · cfg0.N) : sProp 𝕄) ⊢ Pipeline.arrBufs (Ix := Unit) (Name := ℕ) (U := UR sig nD τ) (Lvl := ℕ) spec0 c W := by
  rw [arrBufs0_eq, arrays0_eq]
  rw [h2, h3, (dat0 V c).arrAt_in 0 rfl, (dat0 V c).arrAt_in 1 rfl, A_eq0, A_eq0, hA]
  iintro ⟨Hl, Hr, H2, H3⟩
  isplitl [Hl Hr]
  · iapply (pointsTo_share (PosShare.mem_left_op_right fullShare)).2
    isplitl [Hl]; · iexact Hl
    iexact Hr
  isplitl [H2]; · iexact H2
  iexact H3

end

end Cert.Kernel.Hand

end
-- ==== Proof.KRegion1.lean ====
import proofs.«167793_g47029891891200_fold_wed_c4_674_5_alg».proof.Proof.Gen.Kernel.Launch
import proofs.«167793_g47029891891200_fold_wed_c4_674_5_alg».proof.Proof.Gen.Kernel.Skeleton
import proofs.«167793_g47029891891200_fold_wed_c4_674_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a whole-block rectangle's membership test recurses once per coordinate of its long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each buffer of the TensorCore holds when the region is entered
variable (V : (c : Dev nD) → (b : Ref sig .tc) → Buf (Elt F) ((c : Thread nD τ).loc b))

/-! # Region 1: hs = dinv * (x @ W1), written as the pair (hs, hs - hs)

The grid has 8 points. At point t the body sees rows 512 t .. 512 t + 511 of x (window 0), all of W1 (window 1,
the same block at every point) and rows 512 t .. of dinv (window 2); it writes rows 512 t .. of the two halves of
the product (windows 3 and 4). -/

/-! ## The windows' blocks -/

/-- Window w's block at point t: the part of its array, as the region finds it, that the block's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, for any proof data whose array is
    the region-entry contents and whose body leaves the block in place. Where the block was fetched this is the
    fetch; where it was not, the block index is the previous point's, so the buffer still holds this point's
    block. The blocks tile the array, so nothing is cut, and no point is idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 has the same block index at every point and is fetched at the first only; at the later points its
    index has not moved, which is the unfetched case of the library's lemma. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S512x512 := Rect.unit (s := S512x512) ![0, 0] S512x512.size inb_S512x512_S512x512_0_0
abbrev r1_1 : Rect S512x256 := Rect.unit (s := S512x256) ![0, 0] S512x256.size inb_S512x256_S512x256_0_0
abbrev r1_2 : Rect S512x1 := Rect.unit (s := S512x1) ![0, 0] S512x1.size inb_S512x1_S512x1_0_0

/-! ## What the body leaves in each output window's buffer -/

/-- Window 3's staging buffer after the body: its one whole-block store of the first half of the product,
    dinv * (x @ W1) narrowed to the storage format, as a function of the three input blocks. -/
def out1_3 (x0 : Vec F S512x512 .f32) (x1 : Vec F S512x256 .f32) (x2 : Vec F S512x1 .f32) : Vec F S512x256 .bf16 :=
  View.canon [⟨r1_1, k1_pay2 (View.ld x0 r1_0) (View.ld x1 r1_1) (View.ld x2 r1_2)⟩]

/-- Window 4's staging buffer after the body: its one whole-block store of the second half, the product minus
    its first half, narrowed. -/
def out1_4 (x0 : Vec F S512x512 .f32) (x1 : Vec F S512x256 .f32) (x2 : Vec F S512x1 .f32) : Vec F S512x256 .bf16 :=
  View.canon [⟨r1_1, k1_pay3 (View.ld x0 r1_0) (View.ld x1 r1_1) (View.ld x2 r1_2)⟩]

/-- One store of the whole block covers the block. -/
theorem cover1 (p0 : Vec F S512x256 .bf16) (y : S512x256.Idx) :
    ∃ pc ∈ ([⟨r1_1, p0⟩] : List (View.Piece (Elt F) S512x256 .bf16)), y ∈ pc.1.set :=
  View.cover_of_tiled [⟨r1_1, p0⟩] S512x256.size (by rfl) y

/-! ## The body's triple -/

set_option maxHeartbeats 1000000 in
/-- The body on whole staging memrefs: the three inputs owned at contents read as x0, x1, x2, the two outputs
    owned at anything (the body reads each output buffer once before it overwrites it, and uses nothing of what it
    read). It runs to the continuation with the inputs as they were and each output at out1_3, out1_4 of the inputs. -/
theorem sound_kernel1 (c : Dev nD) (E : Set ℕ) (i : grid1.Coords)
    (arg1 : Memref sig .tc .vmem S512x512 .f32) (harg1 : arg1.IsWhole) (arg2 : Memref sig .tc .vmem S512x256 .f32) (harg2 : arg2.IsWhole)
    (arg3 : Memref sig .tc .vmem S512x1 .f32) (harg3 : arg3.IsWhole) (arg4 : Memref sig .tc .vmem S512x256 .bf16) (harg4 : arg4.IsWhole)
    (arg5 : Memref sig .tc .vmem S512x256 .bf16) (harg5 : arg5.IsWhole)
    (x0 : Vec F S512x512 .f32) (x1 : Vec F S512x256 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__xw1_kernel i arg1 harg1 arg2 harg2 arg3 harg3 arg4 harg4 arg5 harg5) K := by
  simp only [cc1__xw1_kernel_eq_skeleton]; unfold cc1__xw1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The region's proof data -/

/-- The proof data of region 1 on core c: the arrays as the region finds them; after the body at point t each
    input's buffer still at its block and each output's at out1_3, out1_4 of the three input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t: the invariant, what is owed, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
import proofs.«167793_g47029891891200_fold_wed_c4_674_5_alg».proof.Proof.Gen.Kernel.Launch
import proofs.«167793_g47029891891200_fold_wed_c4_674_5_alg».proof.Proof.Gen.Kernel.Skeleton
import proofs.«167793_g47029891891200_fold_wed_c4_674_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a whole-block rectangle's membership test recurses once per coordinate of its long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each buffer of the TensorCore holds when the region is entered
variable (V : (c : Dev nD) → (b : Ref sig .tc) → Buf (Elt F) ((c : Thread nD τ).loc b))

/-! # Region 2: h1 = max (dinv * (A @ hi + A @ lo) + b1, 0), h2s = dinv * (h1 @ W2p), written as the pair (h2s, h2s - h2s)

The grid has 8 points. At point t the body sees rows 512 t .. 512 t + 511 of the 0/1 matrix A (window 0), all of
the two halves hi, lo of the scaled first-layer features (windows 1 and 2, the same block at every point), rows
512 t .. of dinv (window 3), the bias row b1 (window 4) and the padded second-layer weights W2p (window 5), the
last two the same block at every point. It writes rows 512 t .. of the two halves of h2s (windows 6 and 7). -/

/-! ## The windows' blocks -/

/-- Window w's block at point t: the part of its array, as the region finds it, that the block's index map
    selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (rows of A) is fetched at every point, and its staging buffer then holds its block, for any
    proof data whose array is the region-entry contents and whose body leaves the block in place. The blocks tile
    the array, so nothing is cut, and no point is idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the first half hi) has the same block index at every point and is fetched at the first only; at the
    later points its index has not moved, so the buffer still holds the block: the unfetched case of the library's
    lemma. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the second half lo) has the same block index at every point and is fetched at the first only; at the
    later points its index has not moved, so the buffer still holds the block: the unfetched case of the library's
    lemma. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (rows of dinv) is fetched at every point, and its staging buffer then holds its block, for any
    proof data whose array is the region-entry contents and whose body leaves the block in place. The blocks tile
    the array, so nothing is cut, and no point is idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 (the bias row b1) has the same block index at every point and is fetched at the first only; at the
    later points its index has not moved, so the buffer still holds the block: the unfetched case of the library's
    lemma. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 (the padded weights W2p) has the same block index at every point and is fetched at the first only; at
    the later points its index has not moved, so the buffer still holds the block: the unfetched case of the
    library's lemma. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_0 : Rect S512x4096 := Rect.unit (s := S512x4096) ![0, 0] S512x4096.size inb_S512x4096_S512x4096_0_0
abbrev r2_1 : Rect S4096x256 := Rect.unit (s := S4096x256) ![0, 0] S4096x256.size inb_S4096x256_S4096x256_0_0
abbrev r2_2 : Rect S4096x256 := Rect.unit (s := S4096x256) ![0, 0] S4096x256.size inb_S4096x256_S4096x256_0_0
abbrev r2_3 : Rect S512x1 := Rect.unit (s := S512x1) ![0, 0] S512x1.size inb_S512x1_S512x1_0_0
abbrev r2_4 : Rect S1x256 := Rect.unit (s := S1x256) ![0, 0] S1x256.size inb_S1x256_S1x256_0_0
abbrev r2_5 : Rect S256x128 := Rect.unit (s := S256x128) ![0, 0] S256x128.size inb_S256x128_S256x128_0_0
abbrev r2_6 : Rect S512x128 := Rect.unit (s := S512x128) ![0, 0] S512x128.size inb_S512x128_S512x128_0_0
abbrev r2_7 : Rect S512x128 := Rect.unit (s := S512x128) ![0, 0] S512x128.size inb_S512x128_S512x128_0_0

/-! ## What the body leaves in each output window's buffer -/

/-- Window 6's staging buffer after the body: its one whole-block store of the first half of h2s = dinv * (h1 @
    W2p), narrowed to the storage format, as a function of the six input blocks. -/
def out2_6 (x0 : Vec F S512x4096 .bf16) (x1 : Vec F S4096x256 .bf16) (x2 : Vec F S4096x256 .bf16) (x3 : Vec F S512x1 .f32) (x4 : Vec F S1x256 .f32) (x5 : Vec F S256x128 .f32) : Vec F S512x128 .bf16 :=
  View.canon [⟨r2_6, k2_pay2 (View.ld x0 r2_0) (View.ld x1 r2_1) (View.ld x2 r2_2) (View.ld x3 r2_3) (View.ld x4 r2_4) (View.ld x5 r2_5)⟩]

/-- Window 7's staging buffer after the body: its one whole-block store of the second half, h2s minus its first
    half, narrowed. -/
def out2_7 (x0 : Vec F S512x4096 .bf16) (x1 : Vec F S4096x256 .bf16) (x2 : Vec F S4096x256 .bf16) (x3 : Vec F S512x1 .f32) (x4 : Vec F S1x256 .f32) (x5 : Vec F S256x128 .f32) : Vec F S512x128 .bf16 :=
  View.canon [⟨r2_7, k2_pay3 (View.ld x0 r2_0) (View.ld x1 r2_1) (View.ld x2 r2_2) (View.ld x3 r2_3) (View.ld x4 r2_4) (View.ld x5 r2_5)⟩]

/-- One store of the whole block covers the block. -/
theorem cover2_6 (p0 : Vec F S512x128 .bf16) (y : S512x128.Idx) :
    ∃ pc ∈ ([⟨r2_6, p0⟩] : List (View.Piece (Elt F) S512x128 .bf16)), y ∈ pc.1.set :=
  View.cover_of_tiled [⟨r2_6, p0⟩] S512x128.size (by rfl) y

/-- One store of the whole block covers the block. -/
theorem cover2_7 (p0 : Vec F S512x128 .bf16) (y : S512x128.Idx) :
    ∃ pc ∈ ([⟨r2_7, p0⟩] : List (View.Piece (Elt F) S512x128 .bf16)), y ∈ pc.1.set :=
  View.cover_of_tiled [⟨r2_7, p0⟩] S512x128.size (by rfl) y

/-! ## The body's triple -/

set_option maxHeartbeats 1000000 in
/-- The body on whole staging memrefs: the six inputs owned at contents read as x0 .. x5, the two outputs owned
    at anything (the body reads each output buffer once before it overwrites it, and uses nothing of what it read).
    It runs to the continuation with the inputs as they were and each output at out2_6, out2_7 of the inputs. -/
theorem sound_kernel2 (c : Dev nD) (E : Set ℕ) (i : grid2.Coords)
    (arg1 : Memref sig .tc .vmem S512x4096 .bf16) (harg1 : arg1.IsWhole)
    (arg2 : Memref sig .tc .vmem S4096x256 .bf16) (harg2 : arg2.IsWhole)
    (arg3 : Memref sig .tc .vmem S4096x256 .bf16) (harg3 : arg3.IsWhole)
    (arg4 : Memref sig .tc .vmem S512x1 .f32) (harg4 : arg4.IsWhole)
    (arg5 : Memref sig .tc .vmem S1x256 .f32) (harg5 : arg5.IsWhole)
    (arg6 : Memref sig .tc .vmem S256x128 .f32) (harg6 : arg6.IsWhole)
    (arg7 : Memref sig .tc .vmem S512x128 .bf16) (harg7 : arg7.IsWhole)
    (arg8 : Memref sig .tc .vmem S512x128 .bf16) (harg8 : arg8.IsWhole)
    (x0 : Vec F S512x4096 .bf16) (x1 : Vec F S4096x256 .bf16) (x2 : Vec F S4096x256 .bf16) (x3 : Vec F S512x1 .f32) (x4 : Vec F S1x256 .f32) (x5 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__l1_kernel i arg1 harg1 arg2 harg2 arg3 harg3 arg4 harg4 arg5 harg5 arg6 harg6 arg7 harg7 arg8 harg8) K := by
  simp only [cc2__l1_kernel_eq_skeleton]; unfold cc2__l1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The region's proof data -/

/-- The proof data of region 2 on core c: the arrays as the region finds them; after the body at point t each
    input's buffer still at its block and each output's at out2_6, out2_7 of the six input blocks; the invariant is
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point t: the invariant, what is owed, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
import proofs.«167793_g47029891891200_fold_wed_c4_674_5_alg».proof.Proof.Gen.Kernel.Launch
import proofs.«167793_g47029891891200_fold_wed_c4_674_5_alg».proof.Proof.Gen.Kernel.Skeleton
import proofs.«167793_g47029891891200_fold_wed_c4_674_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a whole-block rectangle's membership test recurses once per coordinate of its long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each buffer of the TensorCore holds when the region is entered
variable (V : (c : Dev nD) → (b : Ref sig .tc) → Buf (Elt F) ((c : Thread nD τ).loc b))

/-! # Region 3: z = dinv * (A @ hi + A @ lo) + b2p, out = z - (m + log s)

The grid has 8 points. At point t the body sees rows 512 t .. 512 t + 511 of the 0/1 matrix A (window 0), all of
the two halves hi, lo of the scaled second-layer features (windows 1 and 2, the same block at every point), rows
512 t .. of dinv (window 3) and the padded bias row b2p (window 4, the same block at every point). With m the row
maximum of z over the 2 valid columns and s the row sum of exp (z - m) over them, it writes rows 512 t .. of
z - (m + log s) (window 5). -/

/-! ## The windows' blocks -/

/-- Window w's block at point t: the part of its array, as the region finds it, that the block's index map
    selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (rows of A) is fetched at every point, and its staging buffer then holds its block, for any
    proof data whose array is the region-entry contents and whose body leaves the block in place. The blocks tile
    the array, so nothing is cut, and no point is idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 (the first half hi) has the same block index at every point and is fetched at the first only; at the
    later points its index has not moved, so the buffer still holds the block: the unfetched case of the library's
    lemma. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2 (the second half lo) has the same block index at every point and is fetched at the first only; at the
    later points its index has not moved, so the buffer still holds the block: the unfetched case of the library's
    lemma. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (rows of dinv) is fetched at every point, and its staging buffer then holds its block, for any
    proof data whose array is the region-entry contents and whose body leaves the block in place. The blocks tile
    the array, so nothing is cut, and no point is idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4 (the bias row) has the same block index at every point and is fetched at the first only; at the later
    points its index has not moved, so the buffer still holds the block: the unfetched case of the library's
    lemma. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is of a whole staging buffer -/

abbrev r3_0 : Rect S512x4096 := Rect.unit (s := S512x4096) ![0, 0] S512x4096.size inb_S512x4096_S512x4096_0_0
abbrev r3_1 : Rect S4096x128 := Rect.unit (s := S4096x128) ![0, 0] S4096x128.size inb_S4096x128_S4096x128_0_0
abbrev r3_2 : Rect S4096x128 := Rect.unit (s := S4096x128) ![0, 0] S4096x128.size inb_S4096x128_S4096x128_0_0
abbrev r3_3 : Rect S512x1 := Rect.unit (s := S512x1) ![0, 0] S512x1.size inb_S512x1_S512x1_0_0
abbrev r3_4 : Rect S1x128 := Rect.unit (s := S1x128) ![0, 0] S1x128.size inb_S1x128_S1x128_0_0
abbrev r3_5 : Rect S512x128 := Rect.unit (s := S512x128) ![0, 0] S512x128.size inb_S512x128_S512x128_0_0

/-! ## What the body leaves in each output window's buffer -/

/-- Window 5's staging buffer after the body: its one whole-block store of z - (m + log s), as a function of the
    five input blocks. -/
def out3_5 (x0 : Vec F S512x4096 .bf16) (x1 : Vec F S4096x128 .bf16) (x2 : Vec F S4096x128 .bf16) (x3 : Vec F S512x1 .f32) (x4 : Vec F S1x128 .f32) : Vec F S512x128 .f32 :=
  View.canon [⟨r3_5, k3_pay1 (View.ld x0 r3_0) (View.ld x1 r3_1) (View.ld x2 r3_2) (View.ld x3 r3_3) (View.ld x4 r3_4)⟩]

/-- One store of the whole block covers the block. -/
theorem cover3_5 (p0 : Vec F S512x128 .f32) (y : S512x128.Idx) :
    ∃ pc ∈ ([⟨r3_5, p0⟩] : List (View.Piece (Elt F) S512x128 .f32)), y ∈ pc.1.set :=
  View.cover_of_tiled [⟨r3_5, p0⟩] S512x128.size (by rfl) y

/-! ## The body's triple -/

set_option maxHeartbeats 1000000 in
/-- The body on whole staging memrefs: the five inputs owned at contents read as x0 .. x4, the output owned at
    anything (the body reads the output buffer once before it overwrites it, and uses nothing of what it read). It
    runs to the continuation with the inputs as they were and the output at out3_5 of the inputs. -/
theorem sound_kernel3 (c : Dev nD) (E : Set ℕ) (i : grid3.Coords)
    (arg1 : Memref sig .tc .vmem S512x4096 .bf16) (harg1 : arg1.IsWhole)
    (arg2 : Memref sig .tc .vmem S4096x128 .bf16) (harg2 : arg2.IsWhole)
    (arg3 : Memref sig .tc .vmem S4096x128 .bf16) (harg3 : arg3.IsWhole)
    (arg4 : Memref sig .tc .vmem S512x1 .f32) (harg4 : arg4.IsWhole)
    (arg5 : Memref sig .tc .vmem S1x128 .f32) (harg5 : arg5.IsWhole)
    (arg6 : Memref sig .tc .vmem S512x128 .f32) (harg6 : arg6.IsWhole)
    (x0 : Vec F S512x4096 .bf16) (x1 : Vec F S4096x128 .bf16) (x2 : Vec F S4096x128 .bf16) (x3 : Vec F S512x1 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__l2_kernel i arg1 harg1 arg2 harg2 arg3 harg3 arg4 harg4 arg5 harg5 arg6 harg6) K := by
  simp only [cc3__l2_kernel_eq_skeleton]; unfold cc3__l2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The region's proof data -/

/-- The proof data of region 3 on core c: the arrays as the region finds them; after the body at point t each
    input's buffer still at its block and the output's at out3_5 of the five input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point t: the invariant, what is owed, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KMainRun.lean ====
/-
  The whole program as a run: the four pallas calls and the two stretches of host operations in order, the contents of
  every unscoped buffer named at each boundary, from the launch memory to the return.

  Boundaries: W0 the launch; W1 after call 0 (the 0/1 matrix and the inverse-square-root column written); W2 after
  call 1 (the two halves of the scaled first product); W3 after the host pads the second weight matrix and second bias
  and reshapes the first bias; W4 after call 2; W5 after call 3; W6 after the host slices the result to two columns.
-/
import proofs.«167793_g47029891891200_fold_wed_c4_674_5_alg».proof.Proof.KR0Share
import proofs.«167793_g47029891891200_fold_wed_c4_674_5_alg».proof.Proof.KRegion1
import proofs.«167793_g47029891891200_fold_wed_c4_674_5_alg».proof.Proof.KRegion2
import proofs.«167793_g47029891891200_fold_wed_c4_674_5_alg».proof.Proof.KRegion3
import proofs.«167793_g47029891891200_fold_wed_c4_674_5_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After pallas call 0: the 0/1 matrix and the inverse-square-root column at what the write-backs leave; every
    other buffer, the adjacency among them, as launched. -/
def W1 (c : Dev nD) : Valuation τ sig (Elt F) :=
  Function.update (Function.update (W0 m c) main_call0_v0_0 ((dat0 (V0 m) c).arrAt 2 cfg0.N)) main_call0_v0_1 ((dat0 (V0 m) c).arrAt 3 cfg0.N)
abbrev V1 : (c : Dev nD) → (b : Ref sig .tc) → Buf (Elt F) ((c : Thread nD τ).loc b) := fun c b => W1 m c b
theorem W1_v0_1 (c : Dev nD) : V1 m c main_call0_v0_1 = (dat0 (V0 m) c).arrAt 3 cfg0.N := by
  unfold V1 W1; exact Function.update_self ..
theorem W1_v0_0 (c : Dev nD) : V1 m c main_call0_v0_0 = (dat0 (V0 m) c).arrAt 2 cfg0.N := by
  unfold V1 W1
  rw [Function.update_of_ne (StableHlo.devRef_ne_of_ne (by decide) : (Proc.devRef .tc main_call0_v0_0 : DevRef τ sig) ≠ Proc.devRef .tc main_call0_v0_1)]
  exact Function.update_self ..
theorem W1_of_ne (c : Dev nD) (b : Ref sig .tc) (h0 : b ≠ main_call0_v0_0) (h1 : b ≠ main_call0_v0_1) : V1 m c b = V0 m c b := by
  unfold V1 W1
  rw [Function.update_of_ne (StableHlo.devRef_ne_of_ne h1 : (Proc.devRef .tc b : DevRef τ sig) ≠ Proc.devRef .tc main_call0_v0_1),
    Function.update_of_ne (StableHlo.devRef_ne_of_ne h0 : (Proc.devRef .tc b : DevRef τ sig) ≠ Proc.devRef .tc main_call0_v0_0)]
theorem hrest0 (c : Dev nD) : ∀ b, b ∉ Finset.univ.image (Pipeline.arrRef spec0) → V1 m c b = V0 m c b :=
  fun b hb => W1_of_ne m c b (fun e => hb (Finset.mem_image.mpr ⟨2, Finset.mem_univ _, e.symm⟩)) (fun e => hb (Finset.mem_image.mpr ⟨3, Finset.mem_univ _, e.symm⟩))

/-- After pallas call 1: its arrays at what the write-backs leave, every other buffer as it was. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host stretch between calls 1 and 2. -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- After pallas call 2: its arrays at what the write-backs leave, every other buffer as it was. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After pallas call 3: its arrays at what the write-backs leave, every other buffer as it was. -/
def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

/-- After the last host operation: the result sliced to its two columns. -/
abbrev W6 : Dev nD → Valuation τ sig (Elt F) := fun c => StableHlo.after hostOps4 (W5 m c)

/-! ## The proof data family and the thread state -/

abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
  | ⟨3, _⟩ => fun c => dat3 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Pallas call 0: entered with every unscoped buffer as launched, left with them at `W1`. The adjacency's buffer is
    behind two of its windows: it enters at two half shares and leaves as one. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit : (StableHlo.held (c : Thread nD τ) (Pipeline.ucRefs τ sig) (W0 m c) : sProp 𝕄)
        ⊢ iprop((dat0 (V0 m) c).arrays ((dat0 (V0 m) c).arrAt · 0) ∗ Pipeline.unscopedRest (Ix := Unit) (Name := ℕ) (U := UR sig nD τ) (Lvl := ℕ) spec0 c (V0 m c)) := by
      rw [← Pipeline.unscopedBufs_held c (W0 m c), Pipeline.unscopedBufs_split₀ cfgs 0 winFacts₀0.arr_unscoped c (V0 m c)]
      exact sep_mono (arrays_in0 (V0 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin : (iprop((dat0 (V0 m) c).arrays ((dat0 (V0 m) c).arrAt · cfg0.N) ∗ Pipeline.unscopedRest (Ix := Unit) (Name := ℕ) (U := UR sig nD τ) (Lvl := ℕ) spec0 c (V0 m c)) : sProp 𝕄)
        ⊢ StableHlo.held (c : Thread nD τ) (Pipeline.ucRefs τ sig) (W1 m c) := by
      rw [← Pipeline.unscopedBufs_held c (W1 m c), Pipeline.unscopedBufs_split₀ cfgs 0 winFacts₀0.arr_unscoped c (V1 m c)]
      refine sep_mono (arrays_out0 (V0 m) c (V1 m c) (W1_of_ne m c main_arg1 (by decide) (by decide)) (W1_v0_0 m c).symm (W1_v0_1 m c).symm) (Entails.of_eq ?_)
      unfold Pipeline.unscopedRest
      exact bigSep_congr fun b hb => by rw [hrest0 m c b (Finset.mem_sdiff.mp hb).2]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `W1`, left with them at `W2`. Its arrays are
    split out of the unscoped buffers and put back at what the write-backs leave; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment: entered with every unscoped buffer at `W3`, left with them at `W4`. Its arrays are
    split out of the unscoped buffers and put back at what the write-backs leave; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 as a segment: entered with every unscoped buffer at `W4`, left with them at `W5`. Its arrays are
    split out of the unscoped buffers and put back at what the write-backs leave; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .region (reg3 m),
    .host (hseg hostOps4 hostOps4_sub hostOps4_fresh (W5 m)) ]
theorem main_run (c : Dev nD) : main (F := F) c = Pipeline.Seg.run (segs m) := (main_chain c).trans (by chain_rfl)

set_option backward.isDefEq.respectTransparency.types false in
/-- From any launch memory with zero counters every weakly fair execution of the program ends, nothing faulting, with
    every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.KFrames.lean ====
/-
  The frame: every argument array ends holding its launch contents. No host operation writes an argument, and a pallas
  call either reads it through an input window (whose array the write-backs never touch) or does not see it at all; so
  each argument's buffer, read at the last boundary, walks back unchanged to the launch memory.
-/
import proofs.«167793_g47029891891200_fold_wed_c4_674_5_alg».proof.Proof.KMainRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Argument 0 ends as launched. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps4 _ hostOps4_writes (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps2 _ hostOps2_writes (by decide)
    _ = W1 m c (Proc.devRef .tc main_arg0) := (W2_arr m c 0).trans (((dat1 (V1 m) c).arrAt_in 0 rfl _).trans (A_eq1 (V1 m) c 0))
    _ = W0 m c (Proc.devRef .tc main_arg0) := W1_of_ne m c main_arg0 (by decide) (by decide)
    _ = m ((c : Thread nD τ).loc main_arg0) := rfl

/-- Argument 1 ends as launched. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps4 _ hostOps4_writes (by decide)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps2 _ hostOps2_writes (by decide)
    _ = W1 m c (Proc.devRef .tc main_arg1) := W2_of_ne m c main_arg1 (by decide)
    _ = W0 m c (Proc.devRef .tc main_arg1) := W1_of_ne m c main_arg1 (by decide) (by decide)
    _ = m ((c : Thread nD τ).loc main_arg1) := rfl

/-- Argument 2 ends as launched. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps4 _ hostOps4_writes (by decide)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps2 _ hostOps2_writes (by decide)
    _ = W1 m c (Proc.devRef .tc main_arg2) := (W2_arr m c 1).trans (((dat1 (V1 m) c).arrAt_in 1 rfl _).trans (A_eq1 (V1 m) c 1))
    _ = W0 m c (Proc.devRef .tc main_arg2) := W1_of_ne m c main_arg2 (by decide) (by decide)
    _ = m ((c : Thread nD τ).loc main_arg2) := rfl

/-- Argument 3 ends as launched. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps4 _ hostOps4_writes (by decide)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps2 _ hostOps2_writes (by decide)
    _ = W1 m c (Proc.devRef .tc main_arg3) := W2_of_ne m c main_arg3 (by decide)
    _ = W0 m c (Proc.devRef .tc main_arg3) := W1_of_ne m c main_arg3 (by decide) (by decide)
    _ = m ((c : Thread nD τ).loc main_arg3) := rfl

/-- Argument 4 ends as launched. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps4 _ hostOps4_writes (by decide)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_writes_sub hostOps2 _ hostOps2_writes (by decide)
    _ = W1 m c (Proc.devRef .tc main_arg4) := W2_of_ne m c main_arg4 (by decide)
    _ = W0 m c (Proc.devRef .tc main_arg4) := W1_of_ne m c main_arg4 (by decide) (by decide)
    _ = m ((c : Thread nD τ).loc main_arg4) := rfl

/-- Argument 5 ends as launched. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps4 _ hostOps4_writes (by decide)
    _ = W4 m c (Proc.devRef .tc main_arg5) := W5_of_ne m c main_arg5 (by decide)
    _ = W3 m c (Proc.devRef .tc main_arg5) := W4_of_ne m c main_arg5 (by decide)
    _ = W2 m c (Proc.devRef .tc main_arg5) := StableHlo.after_of_writes_sub hostOps2 _ hostOps2_writes (by decide)
    _ = W1 m c (Proc.devRef .tc main_arg5) := W2_of_ne m c main_arg5 (by decide)
    _ = W0 m c (Proc.devRef .tc main_arg5) := W1_of_ne m c main_arg5 (by decide) (by decide)
    _ = m ((c : Thread nD τ).loc main_arg5) := rfl

/-- The frame claim's statement at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.Kernel.Hand

end
-- ==== Proof.R0Runs.lean ====
/-
  Pallas call 0 (symmetrise, binarise, row degrees): what its frame proof shares between the three ways the body can run.

  The grid is 8 x 8, point t = 8 i + j. Windows 0 and 1 are two blocks of ONE array (the adjacency): block (i, j) and
  block (j, i). Window 2 is block (i, j) of the 0/1 matrix, written at every point. Window 3 is block (i, 0) of the
  column of inverse square-root degrees: the body stores it only at j = 7, and only there is it written back; at the
  other points its staging buffer is handed back as found. A scratch column carries the partial row sums from one j
  to the next: set at j = 0, added to at j > 0, read at j = 7.
-/
import proofs.«167793_g47029891891200_fold_wed_c4_674_5_alg».proof.Proof.Gen.KernelIdeal.Launch
import proofs.«167793_g47029891891200_fold_wed_c4_674_5_alg».proof.Proof.Gen.KernelIdeal.Skeleton
import proofs.«167793_g47029891891200_fold_wed_c4_674_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Block (i, j) of the adjacency is what the first input's staging buffer holds when the body runs: it is fetched
    at every point and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for block (j, i), the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end Blocks

/-! ## The three conditions on the column-block index j, in closed form -/

/-- j = 0: the partial sums are set. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- j > 0: the partial sums are added to. -/
abbrev cond0_1 (i : grid0.Coords) : Prop := (Scalar.cmpi .ne (Scalar.extui (Scalar.cmpi .sgt (BitVec.ofNat 32 (i 1).val) 0#32)) 0#32) = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)
/-- j = 7: the row sums are complete and the inverse square roots are stored. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the column of inverse square roots is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from j = 7 the body stores nothing into window 3, -/
theorem idleAt0_3 : ∀ t : Fin cfg0.N, ¬cond0_2 (grid0.coords t) → cfg0.idle 3 (grid0.coords t) = true := by decide +kernel
/-- and the block is not written back there; -/
theorem noFlush0_3 : ∀ t : Fin cfg0.N, ¬cond0_2 (grid0.coords t) → (cfg0.win 3).flush t = false := by decide +kernel
/-- at j = 7 it does. -/
theorem liveAt0_3 : ∀ t : Fin cfg0.N, cond0_2 (grid0.coords t) → cfg0.idle 3 (grid0.coords t) = false := by decide +kernel

/-! ## The staging memrefs at a point, and the scratch -/

abbrev VO0_2 : View sig .tc .vmem S512x512 .bf16 := (Memref.whole cc0_stg2_0 : Memref sig .tc .vmem S512x512 .bf16).view
abbrev VO0_3 : View sig .tc .vmem S512x1 .f32 := (Memref.whole cc0_stg3_0 : Memref sig .tc .vmem S512x1 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The scratch column of partial row sums. -/
abbrev scM0_0 : Memref sig .tc .vmem S512x1 .f32 := Memref.whole cc0_scratch0
abbrev VS0_0 : View sig .tc .vmem S512x1 .f32 := scM0_0.view

/-- The scoped buffers no window stages, with the scratch column split off as a memref owned at some contents, and the
    generator register: what the body may use and need not describe. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.R0RunA.lean ====
/-
  Pallas call 0, the body run whole at a point with j = 0: the partial row sums are SET to this block's row sums.
  Block (i, j) of the 0/1 matrix is stored at every point. What each buffer ends with, as the list of its stores, is
  found by running the body's memory operations symbolically.
-/
import proofs.«167793_g47029891891200_fold_wed_c4_674_5_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — both adjacency blocks at their contents, the 0/1 block's buffer at anything, the
    inverse-square-root column's handed back untouched, the scratch column at anything — the body runs to the
    continuation holding the inputs as they were and each buffer it stored into with its stores written. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole)
    (hc0 : cond0_0 i) (hc1 : ¬cond0_1 i) (hc2 : ¬cond0_2 i)
    (x0 : Vec F S512x512 .f32) (x1 : Vec F S512x512 .f32) :
    Σ' (L2 : List (View.Piece (Elt F) S512x512 .bf16)) (L3 : List (View.Piece (Elt F) S512x1 .f32)), { LS0 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sym_deg_kernel i arg2 harg2 arg3 harg3 arg4 harg4 arg5 harg5 arg6 harg6) K } := by
  refine ⟨?_, [], ?_, fun xi3 E K => ?run⟩
  case run =>
    simp only [cc0__sym_deg_kernel_eq_skeleton]; unfold cc0__sym_deg_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Hand

end
-- ==== Proof.R0RunB.lean ====
/-
  Pallas call 0, the body run whole at a point with 0 < j < 7: this block's row sums are ADDED to the partial sums.
  Block (i, j) of the 0/1 matrix is stored at every point. What each buffer ends with, as the list of its stores, is
  found by running the body's memory operations symbolically.
-/
import proofs.«167793_g47029891891200_fold_wed_c4_674_5_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — both adjacency blocks at their contents, the 0/1 block's buffer at anything, the
    inverse-square-root column's handed back untouched, the scratch column at what the point before left — the body runs to the
    continuation holding the inputs as they were and each buffer it stored into with its stores written. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole)
    (hc0 : ¬cond0_0 i) (hc1 : cond0_1 i) (hc2 : ¬cond0_2 i)
    (x0 : Vec F S512x512 .f32) (x1 : Vec F S512x512 .f32) (xs0 : Vec F S512x1 .f32) :
    Σ' (L2 : List (View.Piece (Elt F) S512x512 .bf16)) (L3 : List (View.Piece (Elt F) S512x1 .f32)), { LS0 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sym_deg_kernel i arg2 harg2 arg3 harg3 arg4 harg4 arg5 harg5 arg6 harg6) K } := by
  refine ⟨?_, [], ?_, fun xi3 E K => ?run⟩
  case run =>
    simp only [cc0__sym_deg_kernel_eq_skeleton]; unfold cc0__sym_deg_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Hand

end
-- ==== Proof.R0RunC.lean ====
/-
  Pallas call 0, the body run whole at a point with j = 7: the last block's row sums are added, and the inverse square root of the larger of the total and one is stored.
  Block (i, j) of the 0/1 matrix is stored at every point. What each buffer ends with, as the list of its stores, is
  found by running the body's memory operations symbolically.
-/
import proofs.«167793_g47029891891200_fold_wed_c4_674_5_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — both adjacency blocks at their contents, the 0/1 block's buffer at anything, the
    inverse-square-root column's at anything, the scratch column at what the point before left — the body runs to the
    continuation holding the inputs as they were and each buffer it stored into with its stores written. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole)
    (hc0 : ¬cond0_0 i) (hc1 : cond0_1 i) (hc2 : cond0_2 i)
    (x0 : Vec F S512x512 .f32) (x1 : Vec F S512x512 .f32) (xs0 : Vec F S512x1 .f32) :
    Σ' (L2 : List (View.Piece (Elt F) S512x512 .bf16)) (L3 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sym_deg_kernel i arg2 harg2 arg3 harg3 arg4 harg4 arg5 harg5 arg6 harg6) K } := by
  refine ⟨?_, ?_, ?_, fun E K => ?run⟩
  case run =>
    simp only [cc0__sym_deg_kernel_eq_skeleton]; unfold cc0__sym_deg_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Hand

end
-- ==== Proof.Region0.lean ====
/-
  Pallas call 0: what its buffers hold point by point, its proof data, and the body obligation.

  At point t = 8 i + j the 0/1 block (i, j) is stored whole; the scratch column holds, after the point, the sum over the
  column blocks 0..j of the rows' sums; at j = 7 the column of inverse square roots of max(row sum, 1) is stored and
  written back. The adjacency is read through two windows, so each holds half of its share.
-/
import proofs.«167793_g47029891891200_fold_wed_c4_674_5_alg».proof.Proof.R0RunA
import proofs.«167793_g47029891891200_fold_wed_c4_674_5_alg».proof.Proof.R0RunB
import proofs.«167793_g47029891891200_fold_wed_c4_674_5_alg».proof.Proof.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which case a point is in -/

theorem cA0 (t : Fin cfg0.N) (h0 : t.val % 8 = 0) : cond0_0 (grid0.coords t) := (hcond0_0 t).mpr h0
theorem cA1 (t : Fin cfg0.N) (h0 : t.val % 8 = 0) : ¬cond0_1 (grid0.coords t) := fun h => (hcond0_1 t).mp h h0
theorem cA2 (t : Fin cfg0.N) (h0 : t.val % 8 = 0) : ¬cond0_2 (grid0.coords t) := fun h => by have := (hcond0_2 t).mp h; omega
theorem cB0 (t : Fin cfg0.N) (h0 : ¬t.val % 8 = 0) : ¬cond0_0 (grid0.coords t) := fun h => h0 ((hcond0_0 t).mp h)
theorem cB1 (t : Fin cfg0.N) (h0 : ¬t.val % 8 = 0) : cond0_1 (grid0.coords t) := (hcond0_1 t).mpr h0
theorem cB2 (t : Fin cfg0.N) (h2 : ¬t.val % 8 = 7) : ¬cond0_2 (grid0.coords t) := fun h => h2 ((hcond0_2 t).mp h)
theorem cC2 (t : Fin cfg0.N) (h2 : t.val % 8 = 7) : cond0_2 (grid0.coords t) := (hcond0_2 t).mpr h2

/-- The body's run at point `t` when j = 0, on the point's staging memrefs. -/
abbrev runA (c : Dev nD) (t : Fin cfg0.N) (h0 : t.val % 8 = 0) (x0 x1 : Vec F S512x512 .f32) :=
  kernelRun0_A (F := F) c (grid0.coords t) (ms0_0 t) (hs0_0 t) (ms0_1 t) (hs0_1 t) (ms0_2 t) (hs0_2 t) (ms0_3 t) (hs0_3 t) scM0_0 (Memref.isWhole_whole _) (cA0 t h0) (cA1 t h0) (cA2 t h0) x0 x1
/-- when 0 < j < 7, -/
abbrev runB (c : Dev nD) (t : Fin cfg0.N) (h0 : ¬t.val % 8 = 0) (h2 : ¬t.val % 8 = 7) (x0 x1 : Vec F S512x512 .f32) (xs0 : Vec F S512x1 .f32) :=
  kernelRun0_B (F := F) c (grid0.coords t) (ms0_0 t) (hs0_0 t) (ms0_1 t) (hs0_1 t) (ms0_2 t) (hs0_2 t) (ms0_3 t) (hs0_3 t) scM0_0 (Memref.isWhole_whole _) (cB0 t h0) (cB1 t h0) (cB2 t h2) x0 x1 xs0
/-- when j = 7. -/
abbrev runC (c : Dev nD) (t : Fin cfg0.N) (h0 : ¬t.val % 8 = 0) (h2 : t.val % 8 = 7) (x0 x1 : Vec F S512x512 .f32) (xs0 : Vec F S512x1 .f32) :=
  kernelRun0_C (F := F) c (grid0.coords t) (ms0_0 t) (hs0_0 t) (ms0_1 t) (hs0_1 t) (ms0_2 t) (hs0_2 t) (ms0_3 t) (hs0_3 t) scM0_0 (Memref.isWhole_whole _) (cB0 t h0) (cB1 t h0) (cC2 t h2) x0 x1 xs0

/-! ## What each case leaves in the 0/1 block's buffer, the inverse-square-root column's and the scratch column -/

def out0_A_2 (c : Dev nD) (t : Fin cfg0.N) (h0 : t.val % 8 = 0) (x0 x1 : Vec F S512x512 .f32) : Vec F S512x512 .bf16 :=
  VO0_2.read (Elt F) (VO0_2.writes (Elt F) VO0_2.junk (runA c t h0 x0 x1).1)
theorem cover0_A_2 (c : Dev nD) (t : Fin cfg0.N) (h0 : t.val % 8 = 0) (x0 x1 : Vec F S512x512 .f32) (y : S512x512.Idx) :
    ∃ pc ∈ (runA (F := F) c t h0 x0 x1).1, y ∈ pc.1.set :=
  View.cover_of_tiledL (runA c t h0 x0 x1).1 S512x512.size (by sl_kernel_rfl) y
/-- Nothing is stored into the column at j = 0: a placeholder nothing consults. -/
def out0_A_3 (c : Dev nD) (t : Fin cfg0.N) (h0 : t.val % 8 = 0) (x0 x1 : Vec F S512x512 .f32) : Vec F S512x1 .f32 :=
  VO0_3.read (Elt F) (VO0_3.writes (Elt F) VO0_3.junk (runA c t h0 x0 x1).2.1)
def sout0_A_0 (c : Dev nD) (t : Fin cfg0.N) (h0 : t.val % 8 = 0) (x0 x1 : Vec F S512x512 .f32) : Vec F S512x1 .f32 :=
  VS0_0.read (Elt F) (VS0_0.writes (Elt F) VS0_0.junk (runA c t h0 x0 x1).2.2.1)
theorem scover0_A_0 (c : Dev nD) (t : Fin cfg0.N) (h0 : t.val % 8 = 0) (x0 x1 : Vec F S512x512 .f32) (y : S512x1.Idx) :
    ∃ pc ∈ (runA (F := F) c t h0 x0 x1).2.2.1, y ∈ pc.1.set :=
  View.cover_of_tiledL (runA c t h0 x0 x1).2.2.1 S512x1.size (by sl_kernel_rfl) y

def out0_B_2 (c : Dev nD) (t : Fin cfg0.N) (h0 : ¬t.val % 8 = 0) (h2 : ¬t.val % 8 = 7) (x0 x1 : Vec F S512x512 .f32) (xs0 : Vec F S512x1 .f32) : Vec F S512x512 .bf16 :=
  VO0_2.read (Elt F) (VO0_2.writes (Elt F) VO0_2.junk (runB c t h0 h2 x0 x1 xs0).1)
theorem cover0_B_2 (c : Dev nD) (t : Fin cfg0.N) (h0 : ¬t.val % 8 = 0) (h2 : ¬t.val % 8 = 7) (x0 x1 : Vec F S512x512 .f32) (xs0 : Vec F S512x1 .f32) (y : S512x512.Idx) :
    ∃ pc ∈ (runB (F := F) c t h0 h2 x0 x1 xs0).1, y ∈ pc.1.set :=
  View.cover_of_tiledL (runB c t h0 h2 x0 x1 xs0).1 S512x512.size (by sl_kernel_rfl) y
def out0_B_3 (c : Dev nD) (t : Fin cfg0.N) (h0 : ¬t.val % 8 = 0) (h2 : ¬t.val % 8 = 7) (x0 x1 : Vec F S512x512 .f32) (xs0 : Vec F S512x1 .f32) : Vec F S512x1 .f32 :=
  VO0_3.read (Elt F) (VO0_3.writes (Elt F) VO0_3.junk (runB c t h0 h2 x0 x1 xs0).2.1)
def sout0_B_0 (c : Dev nD) (t : Fin cfg0.N) (h0 : ¬t.val % 8 = 0) (h2 : ¬t.val % 8 = 7) (x0 x1 : Vec F S512x512 .f32) (xs0 : Vec F S512x1 .f32) : Vec F S512x1 .f32 :=
  VS0_0.read (Elt F) (VS0_0.writes (Elt F) VS0_0.junk (runB c t h0 h2 x0 x1 xs0).2.2.1)
theorem scover0_B_0 (c : Dev nD) (t : Fin cfg0.N) (h0 : ¬t.val % 8 = 0) (h2 : ¬t.val % 8 = 7) (x0 x1 : Vec F S512x512 .f32) (xs0 : Vec F S512x1 .f32) (y : S512x1.Idx) :
    ∃ pc ∈ (runB (F := F) c t h0 h2 x0 x1 xs0).2.2.1, y ∈ pc.1.set :=
  View.cover_of_tiledL (runB c t h0 h2 x0 x1 xs0).2.2.1 S512x1.size (by sl_kernel_rfl) y

def out0_C_2 (c : Dev nD) (t : Fin cfg0.N) (h0 : ¬t.val % 8 = 0) (h2 : t.val % 8 = 7) (x0 x1 : Vec F S512x512 .f32) (xs0 : Vec F S512x1 .f32) : Vec F S512x512 .bf16 :=
  VO0_2.read (Elt F) (VO0_2.writes (Elt F) VO0_2.junk (runC c t h0 h2 x0 x1 xs0).1)
theorem cover0_C_2 (c : Dev nD) (t : Fin cfg0.N) (h0 : ¬t.val % 8 = 0) (h2 : t.val % 8 = 7) (x0 x1 : Vec F S512x512 .f32) (xs0 : Vec F S512x1 .f32) (y : S512x512.Idx) :
    ∃ pc ∈ (runC (F := F) c t h0 h2 x0 x1 xs0).1, y ∈ pc.1.set :=
  View.cover_of_tiledL (runC c t h0 h2 x0 x1 xs0).1 S512x512.size (by sl_kernel_rfl) y
def out0_C_3 (c : Dev nD) (t : Fin cfg0.N) (h0 : ¬t.val % 8 = 0) (h2 : t.val % 8 = 7) (x0 x1 : Vec F S512x512 .f32) (xs0 : Vec F S512x1 .f32) : Vec F S512x1 .f32 :=
  VO0_3.read (Elt F) (VO0_3.writes (Elt F) VO0_3.junk (runC c t h0 h2 x0 x1 xs0).2.1)
theorem cover0_C_3 (c : Dev nD) (t : Fin cfg0.N) (h0 : ¬t.val % 8 = 0) (h2 : t.val % 8 = 7) (x0 x1 : Vec F S512x512 .f32) (xs0 : Vec F S512x1 .f32) (y : S512x1.Idx) :
    ∃ pc ∈ (runC (F := F) c t h0 h2 x0 x1 xs0).2.1, y ∈ pc.1.set :=
  View.cover_of_tiledL (runC c t h0 h2 x0 x1 xs0).2.1 S512x1.size (by sl_kernel_rfl) y
def sout0_C_0 (c : Dev nD) (t : Fin cfg0.N) (h0 : ¬t.val % 8 = 0) (h2 : t.val % 8 = 7) (x0 x1 : Vec F S512x512 .f32) (xs0 : Vec F S512x1 .f32) : Vec F S512x1 .f32 :=
  VS0_0.read (Elt F) (VS0_0.writes (Elt F) VS0_0.junk (runC c t h0 h2 x0 x1 xs0).2.2.1)
theorem scover0_C_0 (c : Dev nD) (t : Fin cfg0.N) (h0 : ¬t.val % 8 = 0) (h2 : t.val % 8 = 7) (x0 x1 : Vec F S512x512 .f32) (xs0 : Vec F S512x1 .f32) (y : S512x1.Idx) :
    ∃ pc ∈ (runC (F := F) c t h0 h2 x0 x1 xs0).2.2.1, y ∈ pc.1.set :=
  View.cover_of_tiledL (runC c t h0 h2 x0 x1 xs0).2.2.1 S512x1.size (by sl_kernel_rfl) y

section Data
variable (V : (c : Dev nD) → (b : Ref sig .tc) → Buf (Elt F) ((c : Thread nD τ).loc b))

/-! ## Point by point -/

/-- What the 0/1 block's buffer, the inverse-square-root column's buffer and the scratch column hold after the body at
    position `n`: the case of `n` run at the point's two adjacency blocks, the scratch taken from the point before. -/
def outsAt0 (c : Dev nD) : (n : ℕ) → n < cfg0.N → Vec F S512x512 .bf16 × Vec F S512x1 .f32 × Vec F S512x1 .f32
  | 0, hn => (out0_A_2 c ⟨0, hn⟩ (Nat.zero_mod _) (iblk0 V c 0 ⟨0, hn⟩) (iblk0 V c 1 ⟨0, hn⟩), out0_A_3 c ⟨0, hn⟩ (Nat.zero_mod _) (iblk0 V c 0 ⟨0, hn⟩) (iblk0 V c 1 ⟨0, hn⟩), sout0_A_0 c ⟨0, hn⟩ (Nat.zero_mod _) (iblk0 V c 0 ⟨0, hn⟩) (iblk0 V c 1 ⟨0, hn⟩))
  | n + 1, hn =>
    if h0 : (n + 1) % 8 = 0 then
      (out0_A_2 c ⟨n + 1, hn⟩ h0 (iblk0 V c 0 ⟨n + 1, hn⟩) (iblk0 V c 1 ⟨n + 1, hn⟩), out0_A_3 c ⟨n + 1, hn⟩ h0 (iblk0 V c 0 ⟨n + 1, hn⟩) (iblk0 V c 1 ⟨n + 1, hn⟩), sout0_A_0 c ⟨n + 1, hn⟩ h0 (iblk0 V c 0 ⟨n + 1, hn⟩) (iblk0 V c 1 ⟨n + 1, hn⟩))
    else if h2 : (n + 1) % 8 = 7 then
      (out0_C_2 c ⟨n + 1, hn⟩ h0 h2 (iblk0 V c 0 ⟨n + 1, hn⟩) (iblk0 V c 1 ⟨n + 1, hn⟩) (outsAt0 c n (Nat.lt_of_succ_lt hn)).2.2, out0_C_3 c ⟨n + 1, hn⟩ h0 h2 (iblk0 V c 0 ⟨n + 1, hn⟩) (iblk0 V c 1 ⟨n + 1, hn⟩) (outsAt0 c n (Nat.lt_of_succ_lt hn)).2.2, sout0_C_0 c ⟨n + 1, hn⟩ h0 h2 (iblk0 V c 0 ⟨n + 1, hn⟩) (iblk0 V c 1 ⟨n + 1, hn⟩) (outsAt0 c n (Nat.lt_of_succ_lt hn)).2.2)
    else
      (out0_B_2 c ⟨n + 1, hn⟩ h0 h2 (iblk0 V c 0 ⟨n + 1, hn⟩) (iblk0 V c 1 ⟨n + 1, hn⟩) (outsAt0 c n (Nat.lt_of_succ_lt hn)).2.2, out0_B_3 c ⟨n + 1, hn⟩ h0 h2 (iblk0 V c 0 ⟨n + 1, hn⟩) (iblk0 V c 1 ⟨n + 1, hn⟩) (outsAt0 c n (Nat.lt_of_succ_lt hn)).2.2, sout0_B_0 c ⟨n + 1, hn⟩ h0 h2 (iblk0 V c 0 ⟨n + 1, hn⟩) (iblk0 V c 1 ⟨n + 1, hn⟩) (outsAt0 c n (Nat.lt_of_succ_lt hn)).2.2)

theorem outsAt0_A (c : Dev nD) (t : Fin cfg0.N) (h0 : t.val % 8 = 0) :
    outsAt0 V c t.val t.isLt = (out0_A_2 c t h0 (iblk0 V c 0 t) (iblk0 V c 1 t), out0_A_3 c t h0 (iblk0 V c 0 t) (iblk0 V c 1 t), sout0_A_0 c t h0 (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) (h2 : ¬t.val % 8 = 7) :
    outsAt0 V c t.val t.isLt = (out0_B_2 c t h0 h2 (iblk0 V c 0 t) (iblk0 V c 1 t) (outsAt0 V c (t.val - 1) (Nat.lt_of_le_of_lt (Nat.sub_le _ _) t.isLt)).2.2, out0_B_3 c t h0 h2 (iblk0 V c 0 t) (iblk0 V c 1 t) (outsAt0 V c (t.val - 1) (Nat.lt_of_le_of_lt (Nat.sub_le _ _) t.isLt)).2.2, sout0_B_0 c t h0 h2 (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h2).trans rfl)

theorem outsAt0_C (c : Dev nD) (t : Fin cfg0.N) (h0 : ¬t.val % 8 = 0) (h2 : t.val % 8 = 7) :
    outsAt0 V c t.val t.isLt = (out0_C_2 c t h0 h2 (iblk0 V c 0 t) (iblk0 V c 1 t) (outsAt0 V c (t.val - 1) (Nat.lt_of_le_of_lt (Nat.sub_le _ _) t.isLt)).2.2, out0_C_3 c t h0 h2 (iblk0 V c 0 t) (iblk0 V c 1 t) (outsAt0 V c (t.val - 1) (Nat.lt_of_le_of_lt (Nat.sub_le _ _) t.isLt)).2.2, sout0_C_0 c t h0 h2 (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h2).trans rfl)

/-! ## The invariant: the scratch column at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the call finds them; after the body the inputs' buffers at their blocks and the outputs' at
    `outsAt0`; the adjacency's share halved between its two windows; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The three windows that are never idle end at what the proof data names. -/
theorem leaves0_0 (c : Dev nD) (t : Fin cfg0.N) : (dat0 V c).leavesExact 0 t = owns (c : Thread nD τ) (ms0_0 t) fullShare ((dat0 V c).after 0 t) := by
  unfold Dat.leavesExact; rw [liveAt0_0 t]
theorem leaves0_1 (c : Dev nD) (t : Fin cfg0.N) : (dat0 V c).leavesExact 1 t = owns (c : Thread nD τ) (ms0_1 t) fullShare ((dat0 V c).after 1 t) := by
  unfold Dat.leavesExact; rw [liveAt0_1 t]
theorem leaves0_2 (c : Dev nD) (t : Fin cfg0.N) : (dat0 V c).leavesExact 2 t = owns (c : Thread nD τ) (ms0_2 t) fullShare ((dat0 V c).after 2 t) := by
  unfold Dat.leavesExact; rw [liveAt0_2 t]
/-- The inverse-square-root column at j = 7 likewise. -/
theorem leaves0_3 (c : Dev nD) (t : Fin cfg0.N) (h2 : t.val % 8 = 7) : (dat0 V c).leavesExact 3 t = owns (c : Thread nD τ) (ms0_3 t) fullShare ((dat0 V c).after 3 t) := by
  unfold Dat.leavesExact; rw [liveAt0_3 t (cC2 t h2)]

set_option maxHeartbeats 8000000 in
/-- At any point: the closed forms say which case it is in; that case's run applies to the point's blocks, the scratch
    column at what the point before left (at anything where it is set); the invariant takes the scratch column back at
    this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, after0_0, after0_1, after0_2]
  have hN : t.val < 64 := lt_of_lt_of_eq t.isLt (show cfg0.N = 64 from N_0)
  by_cases h0 : t.val % 8 = 0
  · rw [Dat.leavesExact_idle (dat0 V c) 3 t (idleAt0_3 t (cA2 t h0)) (noFlush0_3 t (cA2 t h0))]
    rw [outsAt0_A V c t h0]
    unfold out0_A_2 sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩⟩
      iapply ((runA c t h0 (iblk0 V c 0 t) (iblk0 V c 1 t)).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c t h0 _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c t h0 _ _)
      iexists _; iexact H3
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runA c t h0 (iblk0 V c 0 t) (iblk0 V c 1 t)).2.2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c t h0 _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c t h0 _ _)
      iexists _; iexact H3
  · have hz : t.val ≠ 0 := fun e => h0 (by rw [e])
    by_cases h2 : t.val % 8 = 7
    · rw [leaves0_3 V c t h2, after0_3]
      rw [outsAt0_C V c t h0 h2]
      unfold out0_C_2 out0_C_3 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runC c t h0 h2 (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c t h0 h2 _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c t h0 h2 _ _ _)
      unfold owns; iexists _; isplitr
      swap; · iexact H3
      ipureintro; exact View.read_writes_of_cover _ _ _ _ _ (cover0_C_3 c t h0 h2 _ _ _)
    · rw [Dat.leavesExact_idle (dat0 V c) 3 t (idleAt0_3 t (cB2 t h2)) (noFlush0_3 t (cB2 t h2))]
      rw [outsAt0_B V c t h0 h2]
      unfold out0_B_2 sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runB c t h0 h2 (iblk0 V c 0 t) (iblk0 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c t h0 h2 _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c t h0 h2 _ _ _)
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the call is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- after the last point the invariant gives it back, the scratch column's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, Hrest⟩, Hg⟩
  isplitl [HS0 Hrest]
  · isplitl [HS0]
    · iexists _; iexact HS0
    iexact Hrest
  iexact Hg

end Data

end Cert.KernelIdeal.Hand

end
-- ==== Proof.R0Share.lean ====
/-
  Pallas call 0 reads the adjacency through two windows, so the buffers behind its four windows are three: the
  adjacency, the 0/1 matrix and the column of inverse square roots. On entry the adjacency's full share is halved
  between the two windows; on exit, both halves still holding the launch contents (an input is never written), they
  are one full share again.
-/
import proofs.«167793_g47029891891200_fold_wed_c4_674_5_alg».proof.Proof.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The three distinct buffers behind the four windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_call0_v0_0) ↦{fullShare} W main_call0_v0_0) ∗ (((c : Thread nD τ).loc main_call0_v0_1) ↦{fullShare} W main_call0_v0_1)) := by
  unfold Pipeline.arrBufs
  exact bigSep_eq_bigSepL_of_eq [main_arg1, main_call0_v0_0, main_call0_v0_1] (by decide) (by decide) _

/-- The proof data's arrays, window by window: each array a whole buffer, the adjacency's two windows at half shares. -/
theorem arrays0_eq (c : Dev nD) (Fn : (w : Fin cfg0.W) → Buf (Elt F) ((cfg0.win w).arr.view.loc (c.tc : Thread nD τ))) :
    ((dat0 V c).arrays Fn : sProp 𝕄)
      = iprop((((c : Thread nD τ).loc main_arg1) ↦{fullShare.left} Fn 0) ∗ (((c : Thread nD τ).loc main_arg1) ↦{fullShare.right} Fn 1)
          ∗ (((c : Thread nD τ).loc main_call0_v0_0) ↦{fullShare} Fn 2) ∗ (((c : Thread nD τ).loc main_call0_v0_1) ↦{fullShare} Fn 3)) := by
  unfold Dat.arrays
  rw [bigSep_W0]
  rw [(arr_whole0 0).set_eq_univ]
  rw [(arr_whole0 2).set_eq_univ]
  rw [(arr_whole0 3).set_eq_univ]
  rfl

/-- ENTRY. -/
theorem arrays_in0 (c : Dev nD) :
    (Pipeline.arrBufs (Ix := Unit) (Name := ℕ) (U := UR sig nD τ) (Lvl := ℕ) spec0 c (V c) : sProp 𝕄) ⊢ (dat0 V c).arrays ((dat0 V c).arrAt · 0) := by
  rw [arrBufs0_eq, arrays0_eq]
  iintro ⟨Ha, H2, H3⟩
  ihave Hs := (pointsTo_share (PosShare.mem_left_op_right fullShare)).1 $$ Ha
  icases Hs with ⟨Hl, Hr⟩
  isplitl [Hl]; · iexact Hl
  isplitl [Hr]; · iexact Hr
  isplitl [H2]; · iexact H2
  iexact H3

/-- EXIT, at any later contents `W` that have the 0/1 matrix and the column at what the call leaves and the adjacency
    as it was. -/
theorem arrays_out0 (c : Dev nD) (W : (b : Ref sig .tc) → Buf (Elt F) ((c : Thread nD τ).loc b))
    (hA : W main_arg1 = V c main_arg1)
    (h2 : (dat0 V c).arrAt 2 cfg0.N = W main_call0_v0_0) (h3 : (dat0 V c).arrAt 3 cfg0.N = W main_call0_v0_1) :
    ((dat0 V c).arrays ((dat0 V c).arrAt · cfg0.N) : sProp 𝕄) ⊢ Pipeline.arrBufs (Ix := Unit) (Name := ℕ) (U := UR sig nD τ) (Lvl := ℕ) spec0 c W := by
  rw [arrBufs0_eq, arrays0_eq]
  rw [h2, h3, (dat0 V c).arrAt_in 0 rfl, (dat0 V c).arrAt_in 1 rfl, A_eq0, A_eq0, hA]
  iintro ⟨Hl, Hr, H2, H3⟩
  isplitl [Hl Hr]
  · iapply (pointsTo_share (PosShare.mem_left_op_right fullShare)).2
    isplitl [Hl]; · iexact Hl
    iexact Hr
  isplitl [H2]; · iexact H2
  iexact H3

end

end Cert.KernelIdeal.Hand

end
-- ==== Proof.Region1.lean ====
import proofs.«167793_g47029891891200_fold_wed_c4_674_5_alg».proof.Proof.Gen.KernelIdeal.Launch
import proofs.«167793_g47029891891200_fold_wed_c4_674_5_alg».proof.Proof.Gen.KernelIdeal.Skeleton
import proofs.«167793_g47029891891200_fold_wed_c4_674_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a whole-block rectangle's membership test recurses once per coordinate of its long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each buffer of the TensorCore holds when the region is entered
variable (V : (c : Dev nD) → (b : Ref sig .tc) → Buf (Elt F) ((c : Thread nD τ).loc b))

/-! # Region 1: hs = dinv * (x @ W1), written as the pair (hs, hs - hs)

The grid has 8 points. At point t the body sees rows 512 t .. 512 t + 511 of x (window 0), all of W1 (window 1,
the same block at every point) and rows 512 t .. of dinv (window 2); it writes rows 512 t .. of the two halves of
the product (windows 3 and 4). -/

/-! ## The windows' blocks -/

/-- Window w's block at point t: the part of its array, as the region finds it, that the block's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, for any proof data whose array is
    the region-entry contents and whose body leaves the block in place. Where the block was fetched this is the
    fetch; where it was not, the block index is the previous point's, so the buffer still holds this point's
    block. The blocks tile the array, so nothing is cut, and no point is idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 has the same block index at every point and is fetched at the first only; at the later points its
    index has not moved, which is the unfetched case of the library's lemma. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S512x512 := Rect.unit (s := S512x512) ![0, 0] S512x512.size inb_S512x512_S512x512_0_0
abbrev r1_1 : Rect S512x256 := Rect.unit (s := S512x256) ![0, 0] S512x256.size inb_S512x256_S512x256_0_0
abbrev r1_2 : Rect S512x1 := Rect.unit (s := S512x1) ![0, 0] S512x1.size inb_S512x1_S512x1_0_0

/-! ## What the body leaves in each output window's buffer -/

/-- Window 3's staging buffer after the body: its one whole-block store of the first half of the product,
    dinv * (x @ W1) narrowed to the storage format, as a function of the three input blocks. -/
def out1_3 (x0 : Vec F S512x512 .f32) (x1 : Vec F S512x256 .f32) (x2 : Vec F S512x1 .f32) : Vec F S512x256 .bf16 :=
  View.canon [⟨r1_1, k1_pay2 (View.ld x0 r1_0) (View.ld x1 r1_1) (View.ld x2 r1_2)⟩]

/-- Window 4's staging buffer after the body: its one whole-block store of the second half, the product minus
    its first half, narrowed. -/
def out1_4 (x0 : Vec F S512x512 .f32) (x1 : Vec F S512x256 .f32) (x2 : Vec F S512x1 .f32) : Vec F S512x256 .bf16 :=
  View.canon [⟨r1_1, k1_pay3 (View.ld x0 r1_0) (View.ld x1 r1_1) (View.ld x2 r1_2)⟩]

/-- One store of the whole block covers the block. -/
theorem cover1 (p0 : Vec F S512x256 .bf16) (y : S512x256.Idx) :
    ∃ pc ∈ ([⟨r1_1, p0⟩] : List (View.Piece (Elt F) S512x256 .bf16)), y ∈ pc.1.set :=
  View.cover_of_tiled [⟨r1_1, p0⟩] S512x256.size (by rfl) y

/-! ## The body's triple -/

set_option maxHeartbeats 1000000 in
/-- The body on whole staging memrefs: the three inputs owned at contents read as x0, x1, x2, the two outputs
    owned at anything (the body reads each output buffer once before it overwrites it, and uses nothing of what it
    read). It runs to the continuation with the inputs as they were and each output at out1_3, out1_4 of the inputs. -/
theorem sound_kernel1 (c : Dev nD) (E : Set ℕ) (i : grid1.Coords)
    (arg1 : Memref sig .tc .vmem S512x512 .f32) (harg1 : arg1.IsWhole) (arg2 : Memref sig .tc .vmem S512x256 .f32) (harg2 : arg2.IsWhole)
    (arg3 : Memref sig .tc .vmem S512x1 .f32) (harg3 : arg3.IsWhole) (arg4 : Memref sig .tc .vmem S512x256 .bf16) (harg4 : arg4.IsWhole)
    (arg5 : Memref sig .tc .vmem S512x256 .bf16) (harg5 : arg5.IsWhole)
    (x0 : Vec F S512x512 .f32) (x1 : Vec F S512x256 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__xw1_kernel i arg1 harg1 arg2 harg2 arg3 harg3 arg4 harg4 arg5 harg5) K := by
  simp only [cc1__xw1_kernel_eq_skeleton]; unfold cc1__xw1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  iexists _; isplitr
  swap; · iexact H4
  ipureintro
  exact View.read_writes_eq_canon _ _ _ (cover1 _)

/-! ## The region's proof data -/

/-- The proof data of region 1 on core c: the arrays as the region finds them; after the body at point t each
    input's buffer still at its block and each output's at out1_3, out1_4 of the three input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t: the invariant, what is owed, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
import proofs.«167793_g47029891891200_fold_wed_c4_674_5_alg».proof.Proof.Gen.KernelIdeal.Launch
import proofs.«167793_g47029891891200_fold_wed_c4_674_5_alg».proof.Proof.Gen.KernelIdeal.Skeleton
import proofs.«167793_g47029891891200_fold_wed_c4_674_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a whole-block rectangle's membership test recurses once per coordinate of its long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each buffer of the TensorCore holds when the region is entered
variable (V : (c : Dev nD) → (b : Ref sig .tc) → Buf (Elt F) ((c : Thread nD τ).loc b))

/-! # Region 2: h1 = max (dinv * (A @ hi + A @ lo) + b1, 0), h2s = dinv * (h1 @ W2p), written as the pair (h2s, h2s - h2s)

The grid has 8 points. At point t the body sees rows 512 t .. 512 t + 511 of the 0/1 matrix A (window 0), all of
the two halves hi, lo of the scaled first-layer features (windows 1 and 2, the same block at every point), rows
512 t .. of dinv (window 3), the bias row b1 (window 4) and the padded second-layer weights W2p (window 5), the
last two the same block at every point. It writes rows 512 t .. of the two halves of h2s (windows 6 and 7). -/

/-! ## The windows' blocks -/

/-- Window w's block at point t: the part of its array, as the region finds it, that the block's index map
    selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (rows of A) is fetched at every point, and its staging buffer then holds its block, for any
    proof data whose array is the region-entry contents and whose body leaves the block in place. The blocks tile
    the array, so nothing is cut, and no point is idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the first half hi) has the same block index at every point and is fetched at the first only; at the
    later points its index has not moved, so the buffer still holds the block: the unfetched case of the library's
    lemma. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the second half lo) has the same block index at every point and is fetched at the first only; at the
    later points its index has not moved, so the buffer still holds the block: the unfetched case of the library's
    lemma. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (rows of dinv) is fetched at every point, and its staging buffer then holds its block, for any
    proof data whose array is the region-entry contents and whose body leaves the block in place. The blocks tile
    the array, so nothing is cut, and no point is idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 (the bias row b1) has the same block index at every point and is fetched at the first only; at the
    later points its index has not moved, so the buffer still holds the block: the unfetched case of the library's
    lemma. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 (the padded weights W2p) has the same block index at every point and is fetched at the first only; at
    the later points its index has not moved, so the buffer still holds the block: the unfetched case of the
    library's lemma. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_0 : Rect S512x4096 := Rect.unit (s := S512x4096) ![0, 0] S512x4096.size inb_S512x4096_S512x4096_0_0
abbrev r2_1 : Rect S4096x256 := Rect.unit (s := S4096x256) ![0, 0] S4096x256.size inb_S4096x256_S4096x256_0_0
abbrev r2_2 : Rect S4096x256 := Rect.unit (s := S4096x256) ![0, 0] S4096x256.size inb_S4096x256_S4096x256_0_0
abbrev r2_3 : Rect S512x1 := Rect.unit (s := S512x1) ![0, 0] S512x1.size inb_S512x1_S512x1_0_0
abbrev r2_4 : Rect S1x256 := Rect.unit (s := S1x256) ![0, 0] S1x256.size inb_S1x256_S1x256_0_0
abbrev r2_5 : Rect S256x128 := Rect.unit (s := S256x128) ![0, 0] S256x128.size inb_S256x128_S256x128_0_0
abbrev r2_6 : Rect S512x128 := Rect.unit (s := S512x128) ![0, 0] S512x128.size inb_S512x128_S512x128_0_0
abbrev r2_7 : Rect S512x128 := Rect.unit (s := S512x128) ![0, 0] S512x128.size inb_S512x128_S512x128_0_0

/-! ## What the body leaves in each output window's buffer -/

/-- Window 6's staging buffer after the body: its one whole-block store of the first half of h2s = dinv * (h1 @
    W2p), narrowed to the storage format, as a function of the six input blocks. -/
def out2_6 (x0 : Vec F S512x4096 .bf16) (x1 : Vec F S4096x256 .bf16) (x2 : Vec F S4096x256 .bf16) (x3 : Vec F S512x1 .f32) (x4 : Vec F S1x256 .f32) (x5 : Vec F S256x128 .f32) : Vec F S512x128 .bf16 :=
  View.canon [⟨r2_6, k2_pay2 (View.ld x0 r2_0) (View.ld x1 r2_1) (View.ld x2 r2_2) (View.ld x3 r2_3) (View.ld x4 r2_4) (View.ld x5 r2_5)⟩]

/-- Window 7's staging buffer after the body: its one whole-block store of the second half, h2s minus its first
    half, narrowed. -/
def out2_7 (x0 : Vec F S512x4096 .bf16) (x1 : Vec F S4096x256 .bf16) (x2 : Vec F S4096x256 .bf16) (x3 : Vec F S512x1 .f32) (x4 : Vec F S1x256 .f32) (x5 : Vec F S256x128 .f32) : Vec F S512x128 .bf16 :=
  View.canon [⟨r2_7, k2_pay3 (View.ld x0 r2_0) (View.ld x1 r2_1) (View.ld x2 r2_2) (View.ld x3 r2_3) (View.ld x4 r2_4) (View.ld x5 r2_5)⟩]

/-- One store of the whole block covers the block. -/
theorem cover2_6 (p0 : Vec F S512x128 .bf16) (y : S512x128.Idx) :
    ∃ pc ∈ ([⟨r2_6, p0⟩] : List (View.Piece (Elt F) S512x128 .bf16)), y ∈ pc.1.set :=
  View.cover_of_tiled [⟨r2_6, p0⟩] S512x128.size (by rfl) y

/-- One store of the whole block covers the block. -/
theorem cover2_7 (p0 : Vec F S512x128 .bf16) (y : S512x128.Idx) :
    ∃ pc ∈ ([⟨r2_7, p0⟩] : List (View.Piece (Elt F) S512x128 .bf16)), y ∈ pc.1.set :=
  View.cover_of_tiled [⟨r2_7, p0⟩] S512x128.size (by rfl) y

/-! ## The body's triple -/

set_option maxHeartbeats 1000000 in
/-- The body on whole staging memrefs: the six inputs owned at contents read as x0 .. x5, the two outputs owned
    at anything (the body reads each output buffer once before it overwrites it, and uses nothing of what it read).
    It runs to the continuation with the inputs as they were and each output at out2_6, out2_7 of the inputs. -/
theorem sound_kernel2 (c : Dev nD) (E : Set ℕ) (i : grid2.Coords)
    (arg1 : Memref sig .tc .vmem S512x4096 .bf16) (harg1 : arg1.IsWhole)
    (arg2 : Memref sig .tc .vmem S4096x256 .bf16) (harg2 : arg2.IsWhole)
    (arg3 : Memref sig .tc .vmem S4096x256 .bf16) (harg3 : arg3.IsWhole)
    (arg4 : Memref sig .tc .vmem S512x1 .f32) (harg4 : arg4.IsWhole)
    (arg5 : Memref sig .tc .vmem S1x256 .f32) (harg5 : arg5.IsWhole)
    (arg6 : Memref sig .tc .vmem S256x128 .f32) (harg6 : arg6.IsWhole)
    (arg7 : Memref sig .tc .vmem S512x128 .bf16) (harg7 : arg7.IsWhole)
    (arg8 : Memref sig .tc .vmem S512x128 .bf16) (harg8 : arg8.IsWhole)
    (x0 : Vec F S512x4096 .bf16) (x1 : Vec F S4096x256 .bf16) (x2 : Vec F S4096x256 .bf16) (x3 : Vec F S512x1 .f32) (x4 : Vec F S1x256 .f32) (x5 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__l1_kernel i arg1 harg1 arg2 harg2 arg3 harg3 arg4 harg4 arg5 harg5 arg6 harg6 arg7 harg7 arg8 harg8) K := by
  simp only [cc2__l1_kernel_eq_skeleton]; unfold cc2__l1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The region's proof data -/

/-- The proof data of region 2 on core c: the arrays as the region finds them; after the body at point t each
    input's buffer still at its block and each output's at out2_6, out2_7 of the six input blocks; the invariant is
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point t: the invariant, what is owed, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Region3.lean ====
import proofs.«167793_g47029891891200_fold_wed_c4_674_5_alg».proof.Proof.Gen.KernelIdeal.Launch
import proofs.«167793_g47029891891200_fold_wed_c4_674_5_alg».proof.Proof.Gen.KernelIdeal.Skeleton
import proofs.«167793_g47029891891200_fold_wed_c4_674_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a whole-block rectangle's membership test recurses once per coordinate of its long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each buffer of the TensorCore holds when the region is entered
variable (V : (c : Dev nD) → (b : Ref sig .tc) → Buf (Elt F) ((c : Thread nD τ).loc b))

/-! # Region 3: z = dinv * (A @ hi + A @ lo) + b2p, out = z - (m + log s)

The grid has 8 points. At point t the body sees rows 512 t .. 512 t + 511 of the 0/1 matrix A (window 0), all of
the two halves hi, lo of the scaled second-layer features (windows 1 and 2, the same block at every point), rows
512 t .. of dinv (window 3) and the padded bias row b2p (window 4, the same block at every point). With m the row
maximum of z over the 2 valid columns and s the row sum of exp (z - m) over them, it writes rows 512 t .. of
z - (m + log s) (window 5). -/

/-! ## The windows' blocks -/

/-- Window w's block at point t: the part of its array, as the region finds it, that the block's index map
    selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (rows of A) is fetched at every point, and its staging buffer then holds its block, for any
    proof data whose array is the region-entry contents and whose body leaves the block in place. The blocks tile
    the array, so nothing is cut, and no point is idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 (the first half hi) has the same block index at every point and is fetched at the first only; at the
    later points its index has not moved, so the buffer still holds the block: the unfetched case of the library's
    lemma. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2 (the second half lo) has the same block index at every point and is fetched at the first only; at the
    later points its index has not moved, so the buffer still holds the block: the unfetched case of the library's
    lemma. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (rows of dinv) is fetched at every point, and its staging buffer then holds its block, for any
    proof data whose array is the region-entry contents and whose body leaves the block in place. The blocks tile
    the array, so nothing is cut, and no point is idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4 (the bias row) has the same block index at every point and is fetched at the first only; at the later
    points its index has not moved, so the buffer still holds the block: the unfetched case of the library's
    lemma. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is of a whole staging buffer -/

abbrev r3_0 : Rect S512x4096 := Rect.unit (s := S512x4096) ![0, 0] S512x4096.size inb_S512x4096_S512x4096_0_0
abbrev r3_1 : Rect S4096x128 := Rect.unit (s := S4096x128) ![0, 0] S4096x128.size inb_S4096x128_S4096x128_0_0
abbrev r3_2 : Rect S4096x128 := Rect.unit (s := S4096x128) ![0, 0] S4096x128.size inb_S4096x128_S4096x128_0_0
abbrev r3_3 : Rect S512x1 := Rect.unit (s := S512x1) ![0, 0] S512x1.size inb_S512x1_S512x1_0_0
abbrev r3_4 : Rect S1x128 := Rect.unit (s := S1x128) ![0, 0] S1x128.size inb_S1x128_S1x128_0_0
abbrev r3_5 : Rect S512x128 := Rect.unit (s := S512x128) ![0, 0] S512x128.size inb_S512x128_S512x128_0_0

/-! ## What the body leaves in each output window's buffer -/

/-- Window 5's staging buffer after the body: its one whole-block store of z - (m + log s), as a function of the
    five input blocks. -/
def out3_5 (x0 : Vec F S512x4096 .bf16) (x1 : Vec F S4096x128 .bf16) (x2 : Vec F S4096x128 .bf16) (x3 : Vec F S512x1 .f32) (x4 : Vec F S1x128 .f32) : Vec F S512x128 .f32 :=
  View.canon [⟨r3_5, k3_pay1 (View.ld x0 r3_0) (View.ld x1 r3_1) (View.ld x2 r3_2) (View.ld x3 r3_3) (View.ld x4 r3_4)⟩]

/-- One store of the whole block covers the block. -/
theorem cover3_5 (p0 : Vec F S512x128 .f32) (y : S512x128.Idx) :
    ∃ pc ∈ ([⟨r3_5, p0⟩] : List (View.Piece (Elt F) S512x128 .f32)), y ∈ pc.1.set :=
  View.cover_of_tiled [⟨r3_5, p0⟩] S512x128.size (by rfl) y

/-! ## The body's triple -/

set_option maxHeartbeats 1000000 in
/-- The body on whole staging memrefs: the five inputs owned at contents read as x0 .. x4, the output owned at
    anything (the body reads the output buffer once before it overwrites it, and uses nothing of what it read). It
    runs to the continuation with the inputs as they were and the output at out3_5 of the inputs. -/
theorem sound_kernel3 (c : Dev nD) (E : Set ℕ) (i : grid3.Coords)
    (arg1 : Memref sig .tc .vmem S512x4096 .bf16) (harg1 : arg1.IsWhole)
    (arg2 : Memref sig .tc .vmem S4096x128 .bf16) (harg2 : arg2.IsWhole)
    (arg3 : Memref sig .tc .vmem S4096x128 .bf16) (harg3 : arg3.IsWhole)
    (arg4 : Memref sig .tc .vmem S512x1 .f32) (harg4 : arg4.IsWhole)
    (arg5 : Memref sig .tc .vmem S1x128 .f32) (harg5 : arg5.IsWhole)
    (arg6 : Memref sig .tc .vmem S512x128 .f32) (harg6 : arg6.IsWhole)
    (x0 : Vec F S512x4096 .bf16) (x1 : Vec F S4096x128 .bf16) (x2 : Vec F S4096x128 .bf16) (x3 : Vec F S512x1 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__l2_kernel i arg1 harg1 arg2 harg2 arg3 harg3 arg4 harg4 arg5 harg5 arg6 harg6) K := by
  simp only [cc3__l2_kernel_eq_skeleton]; unfold cc3__l2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The region's proof data -/

/-- The proof data of region 3 on core c: the arrays as the region finds them; after the body at point t each
    input's buffer still at its block and the output's at out3_5 of the five input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point t: the invariant, what is owed, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.MainRun.lean ====
/-
  The whole program as a run: the four pallas calls and the two stretches of host operations in order, the contents of
  every unscoped buffer named at each boundary, from the launch memory to the return.

  Boundaries: W0 the launch; W1 after call 0 (the 0/1 matrix and the inverse-square-root column written); W2 after
  call 1 (the two halves of the scaled first product); W3 after the host pads the second weight matrix and second bias
  and reshapes the first bias; W4 after call 2; W5 after call 3; W6 after the host slices the result to two columns.
-/
import proofs.«167793_g47029891891200_fold_wed_c4_674_5_alg».proof.Proof.R0Share
import proofs.«167793_g47029891891200_fold_wed_c4_674_5_alg».proof.Proof.Region1
import proofs.«167793_g47029891891200_fold_wed_c4_674_5_alg».proof.Proof.Region2
import proofs.«167793_g47029891891200_fold_wed_c4_674_5_alg».proof.Proof.Region3
import proofs.«167793_g47029891891200_fold_wed_c4_674_5_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After pallas call 0: the 0/1 matrix and the inverse-square-root column at what the write-backs leave; every
    other buffer, the adjacency among them, as launched. -/
def W1 (c : Dev nD) : Valuation τ sig (Elt F) :=
  Function.update (Function.update (W0 m c) main_call0_v0_0 ((dat0 (V0 m) c).arrAt 2 cfg0.N)) main_call0_v0_1 ((dat0 (V0 m) c).arrAt 3 cfg0.N)
abbrev V1 : (c : Dev nD) → (b : Ref sig .tc) → Buf (Elt F) ((c : Thread nD τ).loc b) := fun c b => W1 m c b
theorem W1_v0_1 (c : Dev nD) : V1 m c main_call0_v0_1 = (dat0 (V0 m) c).arrAt 3 cfg0.N := by
  unfold V1 W1; exact Function.update_self ..
theorem W1_v0_0 (c : Dev nD) : V1 m c main_call0_v0_0 = (dat0 (V0 m) c).arrAt 2 cfg0.N := by
  unfold V1 W1
  rw [Function.update_of_ne (StableHlo.devRef_ne_of_ne (by decide) : (Proc.devRef .tc main_call0_v0_0 : DevRef τ sig) ≠ Proc.devRef .tc main_call0_v0_1)]
  exact Function.update_self ..
theorem W1_of_ne (c : Dev nD) (b : Ref sig .tc) (h0 : b ≠ main_call0_v0_0) (h1 : b ≠ main_call0_v0_1) : V1 m c b = V0 m c b := by
  unfold V1 W1
  rw [Function.update_of_ne (StableHlo.devRef_ne_of_ne h1 : (Proc.devRef .tc b : DevRef τ sig) ≠ Proc.devRef .tc main_call0_v0_1),
    Function.update_of_ne (StableHlo.devRef_ne_of_ne h0 : (Proc.devRef .tc b : DevRef τ sig) ≠ Proc.devRef .tc main_call0_v0_0)]
theorem hrest0 (c : Dev nD) : ∀ b, b ∉ Finset.univ.image (Pipeline.arrRef spec0) → V1 m c b = V0 m c b :=
  fun b hb => W1_of_ne m c b (fun e => hb (Finset.mem_image.mpr ⟨2, Finset.mem_univ _, e.symm⟩)) (fun e => hb (Finset.mem_image.mpr ⟨3, Finset.mem_univ _, e.symm⟩))

/-- After pallas call 1: its arrays at what the write-backs leave, every other buffer as it was. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host stretch between calls 1 and 2. -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- After pallas call 2: its arrays at what the write-backs leave, every other buffer as it was. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After pallas call 3: its arrays at what the write-backs leave, every other buffer as it was. -/
def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

/-- After the last host operation: the result sliced to its two columns. -/
abbrev W6 : Dev nD → Valuation τ sig (Elt F) := fun c => StableHlo.after hostOps4 (W5 m c)

/-! ## The proof data family and the thread state -/

abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
  | ⟨3, _⟩ => fun c => dat3 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Pallas call 0: entered with every unscoped buffer as launched, left with them at `W1`. The adjacency's buffer is
    behind two of its windows: it enters at two half shares and leaves as one. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit : (StableHlo.held (c : Thread nD τ) (Pipeline.ucRefs τ sig) (W0 m c) : sProp 𝕄)
        ⊢ iprop((dat0 (V0 m) c).arrays ((dat0 (V0 m) c).arrAt · 0) ∗ Pipeline.unscopedRest (Ix := Unit) (Name := ℕ) (U := UR sig nD τ) (Lvl := ℕ) spec0 c (V0 m c)) := by
      rw [← Pipeline.unscopedBufs_held c (W0 m c), Pipeline.unscopedBufs_split₀ cfgs 0 winFacts₀0.arr_unscoped c (V0 m c)]
      exact sep_mono (arrays_in0 (V0 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V0 m) c)
    unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin : (iprop((dat0 (V0 m) c).arrays ((dat0 (V0 m) c).arrAt · cfg0.N) ∗ Pipeline.unscopedRest (Ix := Unit) (Name := ℕ) (U := UR sig nD τ) (Lvl := ℕ) spec0 c (V0 m c)) : sProp 𝕄)
        ⊢ StableHlo.held (c : Thread nD τ) (Pipeline.ucRefs τ sig) (W1 m c) := by
      rw [← Pipeline.unscopedBufs_held c (W1 m c), Pipeline.unscopedBufs_split₀ cfgs 0 winFacts₀0.arr_unscoped c (V1 m c)]
      refine sep_mono (arrays_out0 (V0 m) c (V1 m c) (W1_of_ne m c main_arg1 (by decide) (by decide)) (W1_v0_0 m c).symm (W1_v0_1 m c).symm) (Entails.of_eq ?_)
      unfold Pipeline.unscopedRest
      exact bigSep_congr fun b hb => by rw [hrest0 m c b (Finset.mem_sdiff.mp hb).2]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `W1`, left with them at `W2`. Its arrays are
    split out of the unscoped buffers and put back at what the write-backs leave; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment: entered with every unscoped buffer at `W3`, left with them at `W4`. Its arrays are
    split out of the unscoped buffers and put back at what the write-backs leave; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 as a segment: entered with every unscoped buffer at `W4`, left with them at `W5`. Its arrays are
    split out of the unscoped buffers and put back at what the write-backs leave; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .region (reg3 m),
    .host (hseg hostOps4 hostOps4_sub hostOps4_fresh (W5 m)) ]
theorem main_run (c : Dev nD) : main (F := F) c = Pipeline.Seg.run (segs m) := (main_chain c).trans (by chain_rfl)

set_option backward.isDefEq.respectTransparency.types false in
/-- From any launch memory with zero counters every weakly fair execution of the program ends, nothing faulting, with
    every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.Frames.lean ====
/-
  The frame: every argument array ends holding its launch contents. No host operation writes an argument, and a pallas
  call either reads it through an input window (whose array the write-backs never touch) or does not see it at all; so
  each argument's buffer, read at the last boundary, walks back unchanged to the launch memory.
-/
import proofs.«167793_g47029891891200_fold_wed_c4_674_5_alg».proof.Proof.MainRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Argument 0 ends as launched. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps4 _ hostOps4_writes (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps2 _ hostOps2_writes (by decide)
    _ = W1 m c (Proc.devRef .tc main_arg0) := (W2_arr m c 0).trans (((dat1 (V1 m) c).arrAt_in 0 rfl _).trans (A_eq1 (V1 m) c 0))
    _ = W0 m c (Proc.devRef .tc main_arg0) := W1_of_ne m c main_arg0 (by decide) (by decide)
    _ = m ((c : Thread nD τ).loc main_arg0) := rfl

/-- Argument 1 ends as launched. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps4 _ hostOps4_writes (by decide)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps2 _ hostOps2_writes (by decide)
    _ = W1 m c (Proc.devRef .tc main_arg1) := W2_of_ne m c main_arg1 (by decide)
    _ = W0 m c (Proc.devRef .tc main_arg1) := W1_of_ne m c main_arg1 (by decide) (by decide)
    _ = m ((c : Thread nD τ).loc main_arg1) := rfl

/-- Argument 2 ends as launched. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps4 _ hostOps4_writes (by decide)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps2 _ hostOps2_writes (by decide)
    _ = W1 m c (Proc.devRef .tc main_arg2) := (W2_arr m c 1).trans (((dat1 (V1 m) c).arrAt_in 1 rfl _).trans (A_eq1 (V1 m) c 1))
    _ = W0 m c (Proc.devRef .tc main_arg2) := W1_of_ne m c main_arg2 (by decide) (by decide)
    _ = m ((c : Thread nD τ).loc main_arg2) := rfl

/-- Argument 3 ends as launched. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps4 _ hostOps4_writes (by decide)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps2 _ hostOps2_writes (by decide)
    _ = W1 m c (Proc.devRef .tc main_arg3) := W2_of_ne m c main_arg3 (by decide)
    _ = W0 m c (Proc.devRef .tc main_arg3) := W1_of_ne m c main_arg3 (by decide) (by decide)
    _ = m ((c : Thread nD τ).loc main_arg3) := rfl

/-- Argument 4 ends as launched. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps4 _ hostOps4_writes (by decide)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_writes_sub hostOps2 _ hostOps2_writes (by decide)
    _ = W1 m c (Proc.devRef .tc main_arg4) := W2_of_ne m c main_arg4 (by decide)
    _ = W0 m c (Proc.devRef .tc main_arg4) := W1_of_ne m c main_arg4 (by decide) (by decide)
    _ = m ((c : Thread nD τ).loc main_arg4) := rfl

/-- Argument 5 ends as launched. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps4 _ hostOps4_writes (by decide)
    _ = W4 m c (Proc.devRef .tc main_arg5) := W5_of_ne m c main_arg5 (by decide)
    _ = W3 m c (Proc.devRef .tc main_arg5) := W4_of_ne m c main_arg5 (by decide)
    _ = W2 m c (Proc.devRef .tc main_arg5) := StableHlo.after_of_writes_sub hostOps2 _ hostOps2_writes (by decide)
    _ = W1 m c (Proc.devRef .tc main_arg5) := W2_of_ne m c main_arg5 (by decide)
    _ = W0 m c (Proc.devRef .tc main_arg5) := W1_of_ne m c main_arg5 (by decide) (by decide)
    _ = m ((c : Thread nD τ).loc main_arg5) := rfl

/-- The frame claim's statement at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.KernelIdeal.Hand

end
-- ==== Proof.Spec.lean ====
import Idealize.ShloMosaic.PureOps.Ideal
import Idealize.ShloMosaic.Lib.ValueIdx

/-!
# A two-layer graph convolution with a row-wise log-softmax, as one function

Inputs: node features `x` (4096 × 512), a square matrix `adj` (4096 × 4096) of which only the zero pattern is used,
weights `W1` (512 × 256), `W2` (256 × 2) and biases `b1`, `b2`. With `A` the symmetrized 0/1 pattern of `adj`,
`d i = ∑ j, A i j` its row sums and `D = diag (max 1 d)`,

  `H = max (D^(-1/2) A D^(-1/2) (x W1) + b1) 0`,   `Z = D^(-1/2) A D^(-1/2) (H W2) + b2`,
  `G i c = (Z i c - m i) - log (∑ c', exp (Z i c' - m i))`   with `m i = max (Z i 0) (Z i 1)`,

every operation the exact one on the extended reals. The inner factor `D^(-1/2)` is applied to the rows of the
operand BEFORE the aggregation by `A`, the outer one after it; no sum is regrouped. Everything is stated over curried
finite indices; `GV` is the same function over arrays indexed by coordinate vectors.
-/

noncomputable section

namespace Cert.Spec

open Idealize.ShloMosaic Idealize.ShloMosaic.ValueIdx
open scoped BigOperators

/-- The symmetrized 0/1 pattern: `1` where `adj i j` or `adj j i` is not zero, else `0`. -/
def adjSym (adj : Fin 4096 → Fin 4096 → EReal) (i j : Fin 4096) : EReal :=
  if adj i j ≠ 0 ∨ adj j i ≠ 0 then 1 else 0

/-- Row sums of the pattern: the number of neighbours of `i`. -/
def deg (adj : Fin 4096 → Fin 4096 → EReal) (i : Fin 4096) : EReal :=
  ∑ j : Fin 4096, adjSym adj i j

/-- `(max 1 (deg i)) ^ (-1/2)`, the power taken on the extended reals. -/
def dinv (adj : Fin 4096 → Fin 4096 → EReal) (i : Fin 4096) : EReal :=
  Ideal.pow (max 1 (deg adj i)) ((-1 / 2 : ℝ) : EReal)

/-- `x W1`. -/
def xw (x : Fin 4096 → Fin 512 → EReal) (W1 : Fin 512 → Fin 256 → EReal) (i : Fin 4096) (q : Fin 256) : EReal :=
  ∑ k : Fin 512, x i k * W1 k q

/-- The hidden layer: `max (dinv i · ∑ j, A i j · (dinv j · (x W1) j q) + b1 q) 0`. -/
def hid (x : Fin 4096 → Fin 512 → EReal) (adj : Fin 4096 → Fin 4096 → EReal) (W1 : Fin 512 → Fin 256 → EReal)
    (b1 : Fin 256 → EReal) (i : Fin 4096) (q : Fin 256) : EReal :=
  max (dinv adj i * (∑ j : Fin 4096, adjSym adj i j * (dinv adj j * xw x W1 j q)) + b1 q) 0

/-- `H W2`. -/
def hw (x : Fin 4096 → Fin 512 → EReal) (adj : Fin 4096 → Fin 4096 → EReal) (W1 : Fin 512 → Fin 256 → EReal)
    (b1 : Fin 256 → EReal) (W2 : Fin 256 → Fin 2 → EReal) (i : Fin 4096) (c : Fin 2) : EReal :=
  ∑ q : Fin 256, hid x adj W1 b1 i q * W2 q c

/-- The logits: `dinv i · ∑ j, A i j · (dinv j · (H W2) j c) + b2 c`. -/
def logits (x : Fin 4096 → Fin 512 → EReal) (adj : Fin 4096 → Fin 4096 → EReal) (W1 : Fin 512 → Fin 256 → EReal)
    (b1 : Fin 256 → EReal) (W2 : Fin 256 → Fin 2 → EReal) (b2 : Fin 2 → EReal) (i : Fin 4096) (c : Fin 2) : EReal :=
  dinv adj i * (∑ j : Fin 4096, adjSym adj i j * (dinv adj j * hw x adj W1 b1 W2 j c)) + b2 c

/-- The larger of a row's two entries. -/
def rowMax (z : Fin 4096 → Fin 2 → EReal) (i : Fin 4096) : EReal := max (z i 0) (z i 1)

/-- Row-wise log-softmax over the two columns, shifted by the row maximum: `(z - m) - log ∑ exp (z - m)`. -/
def logSoftmax (z : Fin 4096 → Fin 2 → EReal) (i : Fin 4096) (c : Fin 2) : EReal :=
  (z i c - rowMax z i) - Ideal.log (∑ c' : Fin 2, Ideal.exp (z i c' - rowMax z i))

/-- The network's result. -/
def G (x : Fin 4096 → Fin 512 → EReal) (adj : Fin 4096 → Fin 4096 → EReal) (W1 : Fin 512 → Fin 256 → EReal)
    (b1 : Fin 256 → EReal) (W2 : Fin 256 → Fin 2 → EReal) (b2 : Fin 2 → EReal) : Fin 4096 → Fin 2 → EReal :=
  logSoftmax (logits x adj W1 b1 W2 b2)

/-- `G` over arrays indexed by coordinate vectors: entry `j` of the result is `G` of the six arrays, read entry by
    entry, at row `j 0` and column `j 1`. -/
def GV (x : (⟨2, ![4096, 512]⟩ : Shape).Idx → EReal) (adj : (⟨2, ![4096, 4096]⟩ : Shape).Idx → EReal)
    (W1 : (⟨2, ![512, 256]⟩ : Shape).Idx → EReal) (b1 : (⟨1, ![256]⟩ : Shape).Idx → EReal)
    (W2 : (⟨2, ![256, 2]⟩ : Shape).Idx → EReal) (b2 : (⟨1, ![2]⟩ : Shape).Idx → EReal) :
    (⟨2, ![4096, 2]⟩ : Shape).Idx → EReal :=
  fun j => G (fun i k => x (ix2 i k)) (fun i k => adj (ix2 i k)) (fun k q => W1 (ix2 k q)) (fun q => b1 (ix1 q))
    (fun q c => W2 (ix2 q c)) (fun c => b2 (ix1 c)) (j 0) (j 1)

theorem GV_ix2 (x : (⟨2, ![4096, 512]⟩ : Shape).Idx → EReal) (adj : (⟨2, ![4096, 4096]⟩ : Shape).Idx → EReal)
    (W1 : (⟨2, ![512, 256]⟩ : Shape).Idx → EReal) (b1 : (⟨1, ![256]⟩ : Shape).Idx → EReal)
    (W2 : (⟨2, ![256, 2]⟩ : Shape).Idx → EReal) (b2 : (⟨1, ![2]⟩ : Shape).Idx → EReal) (i : Fin 4096) (c : Fin 2) :
    GV x adj W1 b1 W2 b2 (ix2 i c)
      = G (fun i k => x (ix2 i k)) (fun i k => adj (ix2 i k)) (fun k q => W1 (ix2 k q)) (fun q => b1 (ix1 q))
          (fun q c => W2 (ix2 q c)) (fun c => b2 (ix1 c)) i c := rfl

end Cert.Spec

end
-- ==== Proof.LibIdeal.lean ====
import Idealize.ShloMosaic.PureOps.Ideal.Laws
import Idealize.ShloMosaic.Lib.IdealHost

/-!
# Small facts about the exact extended-real reading of float operations

Bit patterns of a few single-precision constants as extended reals; the 0/1 value of a disjunction of two
"not equal" tests; a maximum folded over two entries; a finite sum of real numbers embedded in the extended reals.
-/

noncomputable section

namespace Cert.LibIdeal

open Idealize.ShloMosaic
open scoped BigOperators

/-- The single-precision pattern `0xBF000000` is `-1/2`. -/
theorem ofBits_neg_half_f32 : Ideal.ofBits .f32 0xBF000000#32 = ((-1 / 2 : ℝ) : EReal) := by
  simp [Ideal.ofBits, Ideal.ieee, -EReal.coe_mul]; norm_num

/-- The single-precision pattern `0xFF800000` is `-∞`. -/
theorem ofBits_neg_inf_f32 : Ideal.ofBits .f32 0xFF800000#32 = (⊥ : EReal) := by
  simp [Ideal.ofBits, Ideal.ieee]

/-- Two "not equal to `z`" tests, or-ed and read as a float, give `1` when either holds and `0` otherwise. -/
theorem uitofp_ori_une (a b z : EReal) :
    (FloatOps.uitofp (F := Ideal) .f32 (IntOp.ori (FloatOps.cmpf (F := Ideal) (φ := .f32) .une a z)
      (FloatOps.cmpf (F := Ideal) (φ := .f32) .une b z)) : EReal) = if a ≠ z ∨ b ≠ z then 1 else 0 := by
  show (((IntOp.ori (Ideal.cmp .une a z) (Ideal.cmp .une b z)).toNat : ℝ) : EReal) = _
  unfold Ideal.cmp IntOp.ori
  by_cases ha : a = z <;> by_cases hb : b = z <;> simp [ha, hb]

/-- A maximum folded over two entries from `b`. -/
theorem fold_max_fin2 (b : EReal) (f : Fin 2 → EReal) :
    (Finset.univ : Finset (Fin 2)).fold max b f = max b (max (f 0) (f 1)) := by
  apply le_antisymm
  · refine (Finset.fold_max_le _).mpr ⟨le_max_left _ _, fun k _ => ?_⟩
    fin_cases k
    · exact le_max_of_le_right (le_max_left _ _)
    · exact le_max_of_le_right (le_max_right _ _)
  · refine max_le ((Finset.le_fold_max _).mpr (Or.inl le_rfl)) (max_le ?_ ?_)
    · exact (Finset.le_fold_max _).mpr (Or.inr ⟨0, Finset.mem_univ _, le_rfl⟩)
    · exact (Finset.le_fold_max _).mpr (Or.inr ⟨1, Finset.mem_univ _, le_rfl⟩)

/-- A finite sum of real numbers, embedded in the extended reals, is the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.LibIdeal

end
-- ==== Proof.RefValue.lean ====
import proofs.«167793_g47029891891200_fold_wed_c4_674_5_alg».proof.Defs
import proofs.«167793_g47029891891200_fold_wed_c4_674_5_alg».proof.Proof.Gen.Pre_finite_inputs
import proofs.«167793_g47029891891200_fold_wed_c4_674_5_alg».proof.Proof.RefRead
import proofs.«167793_g47029891891200_fold_wed_c4_674_5_alg».proof.Proof.Spec
import proofs.«167793_g47029891891200_fold_wed_c4_674_5_alg».proof.Proof.LibIdeal

/-!
# The reference computes `Cert.Spec.G`

The reference program's result, read one operation at a time at an index, is the two-layer graph convolution
`Cert.Spec.G` of its six argument arrays: the or of the two "not zero" tests read as a float is the symmetrized 0/1
pattern, its row sums are the degrees, `(max 1 d) ^ (-1/2)` broadcast along rows is the two diagonal scalings, the three
kinds of contraction are the sums over the contracted index, and the shifted log-softmax over two columns takes its row
maximum as a fold of `max` from `-∞` over the two entries. From this, the run of the reference ends with the result
array at `Cert.Spec.GV` of the argument arrays, the arguments unchanged.
-/

noncomputable section

namespace Cert.ReferenceIdeal.RefValue

open Cert.ReferenceIdeal Cert.ReferenceIdeal.Gen Cert.ReferenceIdeal.ReadP Cert.Spec Cert.LibIdeal
open Idealize.ShloMosaic Idealize.ShloMosaic.TcCoe Idealize.SL.Sem Idealize.ShloMosaic.ValueIdx
open scoped BigOperators

/-! ## The operations' index maps at coordinates -/

theorem idx_v2 (i j : Fin 4096) : idx_main_v2 (ix2 i j) = ix2 j i := funext fun a => Fin.ext (by match a with | ⟨0, _⟩ => rfl | ⟨1, _⟩ => rfl)
theorem idx_v7 (i k : Fin 4096) : idx_main_v7 (ix1 i) k = ix2 i k := funext fun a => Fin.ext (by match a with | ⟨0, _⟩ => rfl | ⟨1, _⟩ => rfl)
theorem idx_v13_v14 (i : Fin 4096) (q : Fin 256) : idx_main_v13 (idx_main_v14 (ix2 i q)) = ix1 i := funext fun a => Fin.ext (by match a with | ⟨0, _⟩ => rfl)
theorem idx_v12_v17 (i : Fin 4096) (q : Fin 256) : idx_main_v12 (idx_main_v17 (ix2 i q)) = ix1 i := funext fun a => Fin.ext (by match a with | ⟨0, _⟩ => rfl)
theorem lidx_v11 (i : Fin 4096) (q : Fin 256) (k : Fin 512) : lidx_main_v11 (ix2 i q) k = ix2 i k := funext fun a => Fin.ext (by match a with | ⟨0, _⟩ => rfl | ⟨1, _⟩ => rfl)
theorem ridx_v11 (i : Fin 4096) (q : Fin 256) (k : Fin 512) : ridx_main_v11 (ix2 i q) k = ix2 k q := funext fun a => Fin.ext (by match a with | ⟨0, _⟩ => rfl | ⟨1, _⟩ => rfl)
theorem lidx_v16 (i : Fin 4096) (q : Fin 256) (k : Fin 4096) : lidx_main_v16 (ix2 i q) k = ix2 i k := funext fun a => Fin.ext (by match a with | ⟨0, _⟩ => rfl | ⟨1, _⟩ => rfl)
theorem ridx_v16 (i : Fin 4096) (q : Fin 256) (k : Fin 4096) : ridx_main_v16 (ix2 i q) k = ix2 k q := funext fun a => Fin.ext (by match a with | ⟨0, _⟩ => rfl | ⟨1, _⟩ => rfl)
theorem idx_v19_v20 (i : Fin 4096) (q : Fin 256) : idx_main_v19 (idx_main_v20 (ix2 i q)) = ix1 q := funext fun a => Fin.ext (by match a with | ⟨0, _⟩ => rfl)
theorem lidx_v23 (i : Fin 4096) (c : Fin 2) (k : Fin 256) : lidx_main_v23 (ix2 i c) k = ix2 i k := funext fun a => Fin.ext (by match a with | ⟨0, _⟩ => rfl | ⟨1, _⟩ => rfl)
theorem ridx_v23 (i : Fin 4096) (c : Fin 2) (k : Fin 256) : ridx_main_v23 (ix2 i c) k = ix2 k c := funext fun a => Fin.ext (by match a with | ⟨0, _⟩ => rfl | ⟨1, _⟩ => rfl)
theorem idx_v25_v26 (i : Fin 4096) (c : Fin 2) : idx_main_v25 (idx_main_v26 (ix2 i c)) = ix1 i := funext fun a => Fin.ext (by match a with | ⟨0, _⟩ => rfl)
theorem idx_v24_v29 (i : Fin 4096) (c : Fin 2) : idx_main_v24 (idx_main_v29 (ix2 i c)) = ix1 i := funext fun a => Fin.ext (by match a with | ⟨0, _⟩ => rfl)
theorem lidx_v28 (i : Fin 4096) (c : Fin 2) (k : Fin 4096) : lidx_main_v28 (ix2 i c) k = ix2 i k := funext fun a => Fin.ext (by match a with | ⟨0, _⟩ => rfl | ⟨1, _⟩ => rfl)
theorem ridx_v28 (i : Fin 4096) (c : Fin 2) (k : Fin 4096) : ridx_main_v28 (ix2 i c) k = ix2 k c := funext fun a => Fin.ext (by match a with | ⟨0, _⟩ => rfl | ⟨1, _⟩ => rfl)
theorem idx_v31_v32 (i : Fin 4096) (c : Fin 2) : idx_main_v31 (idx_main_v32 (ix2 i c)) = ix1 c := funext fun a => Fin.ext (by match a with | ⟨0, _⟩ => rfl)
theorem idx_c2v3_c2v4 (i : Fin 4096) (c : Fin 2) : idx_main_call2_v3 (idx_main_call2_v4 (ix2 i c)) = ix1 i := funext fun a => Fin.ext (by match a with | ⟨0, _⟩ => rfl)
theorem idx_c2v7 (i : Fin 4096) (k : Fin 2) : idx_main_call2_v7 (ix1 i) k = ix2 i k := funext fun a => Fin.ext (by match a with | ⟨0, _⟩ => rfl | ⟨1, _⟩ => rfl)
theorem idx_c2v8_c2v10 (i : Fin 4096) (c : Fin 2) : idx_main_call2_v8 (idx_main_call2_v10 (ix2 i c)) = ix1 i := funext fun a => Fin.ext (by match a with | ⟨0, _⟩ => rfl)

/-! ## The stages -/

/-- The float reading of "`adj i j ≠ 0` or `adj j i ≠ 0`" is the symmetrized pattern. -/
theorem v6_eq (x1 : (⟨S4096x4096, .f32⟩ : BufTy).Contents (Elt Ideal)) (i j : Fin 4096) : val_main_v6 x1 (ix2 i j) = adjSym (fun i k => x1 (ix2 i k)) i j := by
  rw [val_main_v6_apply, val_main_v5_apply, val_main_v1_apply, val_main_v4_apply, val_main_v2_apply, val_main_v0_apply,
    val_main_v3_apply, val_main_cst_apply, val_main_cst_0_apply, idx_v2, Ideal.ofBits_def, Ideal.ofBits_zero_f32]
  exact uitofp_ori_une _ _ 0

/-- The row sums from zero are the degrees. -/
theorem v7_eq (x1 : (⟨S4096x4096, .f32⟩ : BufTy).Contents (Elt Ideal)) (i : Fin 4096) : val_main_v7 x1 (ix1 i) = deg (fun i k => x1 (ix2 i k)) i := by
  unfold deg
  rw [val_main_v7_apply, val_main_cst_1_apply, Ideal.ofBits_def, Ideal.ofBits_zero_f32, zero_add]
  exact Finset.sum_congr rfl fun k _ => by rw [idx_v7, v6_eq]

/-- The clipped degree to the power `-1/2`. -/
theorem v10_eq (x1 : (⟨S4096x4096, .f32⟩ : BufTy).Contents (Elt Ideal)) (i : Fin 4096) : val_main_v10 x1 (ix1 i) = dinv (fun i k => x1 (ix2 i k)) i := by
  unfold dinv
  rw [val_main_v10_apply, val_main_v8_apply, val_main_call0_v1_apply, val_main_call0_v0_apply, val_main_cst_2_apply,
    val_main_v9_apply, val_main_cst_3_apply, v7_eq, Ideal.ofBits_def, Ideal.ofBits_def, Ideal.ofBits_one_f32,
    ofBits_neg_half_f32]
  rfl

theorem v14_eq (x1 : (⟨S4096x4096, .f32⟩ : BufTy).Contents (Elt Ideal)) (i : Fin 4096) (q : Fin 256) : val_main_v14 x1 (ix2 i q) = dinv (fun i k => x1 (ix2 i k)) i := by
  rw [val_main_v14_apply, val_main_v13_apply, idx_v13_v14, v10_eq]

theorem v17_eq (x1 : (⟨S4096x4096, .f32⟩ : BufTy).Contents (Elt Ideal)) (i : Fin 4096) (q : Fin 256) : val_main_v17 x1 (ix2 i q) = dinv (fun i k => x1 (ix2 i k)) i := by
  rw [val_main_v17_apply, val_main_v12_apply, idx_v12_v17, v10_eq]

theorem v26_eq (x1 : (⟨S4096x4096, .f32⟩ : BufTy).Contents (Elt Ideal)) (i : Fin 4096) (c : Fin 2) : val_main_v26 x1 (ix2 i c) = dinv (fun i k => x1 (ix2 i k)) i := by
  rw [val_main_v26_apply, val_main_v25_apply, idx_v25_v26, v10_eq]

theorem v29_eq (x1 : (⟨S4096x4096, .f32⟩ : BufTy).Contents (Elt Ideal)) (i : Fin 4096) (c : Fin 2) : val_main_v29 x1 (ix2 i c) = dinv (fun i k => x1 (ix2 i k)) i := by
  rw [val_main_v29_apply, val_main_v24_apply, idx_v24_v29, v10_eq]

/-- `x W1`. -/
theorem v11_eq (x0 : (⟨S4096x512, .f32⟩ : BufTy).Contents (Elt Ideal)) (x2 : (⟨S512x256, .f32⟩ : BufTy).Contents (Elt Ideal)) (i : Fin 4096) (q : Fin 256) : val_main_v11 x0 x2 (ix2 i q) = xw (fun i k => x0 (ix2 i k)) (fun k q => x2 (ix2 k q)) i q := by
  unfold xw
  rw [val_main_v11_apply]
  exact Finset.sum_congr rfl fun k _ => by rw [lidx_v11, ridx_v11]

theorem v15_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (j : Fin 4096) (q : Fin 256) :
    val_main_v15 x0 x1 x2 (ix2 j q) = dinv (fun i k => x1 (ix2 i k)) j * xw (fun i k => x0 (ix2 i k)) (fun k q => x2 (ix2 k q)) j q := by
  rw [val_main_v15_apply, v14_eq, v11_eq]; rfl

theorem v16_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (i : Fin 4096) (q : Fin 256) :
    val_main_v16 x0 x1 x2 (ix2 i q) = ∑ j : Fin 4096, adjSym (fun i k => x1 (ix2 i k)) i j * (dinv (fun i k => x1 (ix2 i k)) j * xw (fun i k => x0 (ix2 i k)) (fun k q => x2 (ix2 k q)) j q) := by
  rw [val_main_v16_apply]
  exact Finset.sum_congr rfl fun k _ => by rw [lidx_v16, ridx_v16, v6_eq, v15_eq]

/-- The hidden layer. -/
theorem v22_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (i : Fin 4096) (q : Fin 256) :
    val_main_v22 x0 x1 x2 x3 (ix2 i q) = hid (fun i k => x0 (ix2 i k)) (fun i k => x1 (ix2 i k)) (fun k q => x2 (ix2 k q)) (fun q => x3 (ix1 q)) i q := by
  unfold hid
  rw [val_main_v22_apply, val_main_v21_apply, val_main_v18_apply, v17_eq, v16_eq, val_main_v20_apply, val_main_v19_apply,
    idx_v19_v20, val_main_call1_v0_apply, val_main_call1_cst_apply, Ideal.ofBits_def, Ideal.ofBits_zero_f32]
  rfl

/-- `H W2`. -/
theorem v23_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (i : Fin 4096) (c : Fin 2) :
    val_main_v23 x0 x1 x2 x3 x4 (ix2 i c) = hw (fun i k => x0 (ix2 i k)) (fun i k => x1 (ix2 i k)) (fun k q => x2 (ix2 k q)) (fun q => x3 (ix1 q)) (fun q c => x4 (ix2 q c)) i c := by
  unfold hw
  rw [val_main_v23_apply]
  exact Finset.sum_congr rfl fun k _ => by rw [lidx_v23, ridx_v23, v22_eq]

theorem v27_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (j : Fin 4096) (c : Fin 2) :
    val_main_v27 x0 x1 x2 x3 x4 (ix2 j c) = dinv (fun i k => x1 (ix2 i k)) j * hw (fun i k => x0 (ix2 i k)) (fun i k => x1 (ix2 i k)) (fun k q => x2 (ix2 k q)) (fun q => x3 (ix1 q)) (fun q c => x4 (ix2 q c)) j c := by
  rw [val_main_v27_apply, v26_eq, v23_eq]; rfl

theorem v28_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (i : Fin 4096) (c : Fin 2) :
    val_main_v28 x0 x1 x2 x3 x4 (ix2 i c)
      = ∑ j : Fin 4096, adjSym (fun i k => x1 (ix2 i k)) i j * (dinv (fun i k => x1 (ix2 i k)) j * hw (fun i k => x0 (ix2 i k)) (fun i k => x1 (ix2 i k)) (fun k q => x2 (ix2 k q)) (fun q => x3 (ix1 q)) (fun q c => x4 (ix2 q c)) j c) := by
  rw [val_main_v28_apply]
  exact Finset.sum_congr rfl fun k _ => by rw [lidx_v28, ridx_v28, v6_eq, v27_eq]

/-- The logits. -/
theorem v33_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (x5 : (⟨S2, .f32⟩ : BufTy).Contents (Elt Ideal)) (i : Fin 4096) (c : Fin 2) :
    val_main_v33 x0 x1 x2 x3 x4 x5 (ix2 i c) = logits (fun i k => x0 (ix2 i k)) (fun i k => x1 (ix2 i k)) (fun k q => x2 (ix2 k q)) (fun q => x3 (ix1 q)) (fun q c => x4 (ix2 q c)) (fun c => x5 (ix1 c)) i c := by
  unfold logits
  rw [val_main_v33_apply, val_main_v30_apply, v29_eq, v28_eq, val_main_v32_apply, val_main_v31_apply, idx_v31_v32]
  rfl

/-! ## The log-softmax -/

/-- A maximum folded along the second axis of a two-column array from `init`: the larger of `init` and the row's two entries. -/
theorem reduce_max_row (z : (⟨S4096x2, .f32⟩ : BufTy).Contents (Elt Ideal)) (init : (⟨S_, .f32⟩ : BufTy).Contents (Elt Ideal))
    (i : Fin 4096) :
    Host.reduce (FloatOps.maximumf (F := Ideal) (φ := .f32)) z init reducesTo_S4096x2_S4096_d1 h_S_ (ix1 i)
      = max (init (Shape.Idx.first h_S_)) (max (z (ix2 i 0)) (z (ix2 i 1))) := by
  have h : S4096x2.Reduces [1] S4096 := by decide
  rw [Host.reduce_eq_fold_single (FloatOps.maximumf (F := Ideal) (φ := .f32)) z init reducesTo_S4096x2_S4096_d1 h h_S_]
  have hf : (z ∘ h.lift (ix1 i)) = fun k : Fin 2 => z (ix2 i k) :=
    funext fun k => congrArg z (funext fun a => Fin.ext (by match a with | ⟨0, _⟩ => rfl | ⟨1, _⟩ => rfl))
  refine Eq.trans ?_ (fold_max_fin2 (init (Shape.Idx.first h_S_)) fun k : Fin 2 => z (ix2 i k))
  exact congrArg (fun f => Finset.fold max (init (Shape.Idx.first h_S_)) f (Finset.univ : Finset (Fin 2))) hf

/-- The row maximum. -/
theorem c2v2_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (x5 : (⟨S2, .f32⟩ : BufTy).Contents (Elt Ideal)) (i : Fin 4096) :
    val_main_call2_v2 x0 x1 x2 x3 x4 x5 (ix1 i) = rowMax (logits (fun i k => x0 (ix2 i k)) (fun i k => x1 (ix2 i k)) (fun k q => x2 (ix2 k q)) (fun q => x3 (ix1 q)) (fun q c => x4 (ix2 q c)) (fun c => x5 (ix1 c))) i := by
  unfold rowMax
  rw [val_main_call2_v2_apply, val_main_call2_v1_apply, val_main_call2_cst_0_apply]
  unfold val_main_call2_v0
  rw [reduce_max_row, val_main_call2_cst_apply, v33_eq, v33_eq, Ideal.ofBits_def, ofBits_neg_inf_f32]
  show max (⊥ : EReal) (max ⊥ _) = _
  rw [max_eq_right bot_le, max_eq_right bot_le]

/-- The logits shifted by the row maximum. -/
theorem c2v5_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (x5 : (⟨S2, .f32⟩ : BufTy).Contents (Elt Ideal)) (i : Fin 4096) (c : Fin 2) :
    val_main_call2_v5 x0 x1 x2 x3 x4 x5 (ix2 i c)
      = logits (fun i k => x0 (ix2 i k)) (fun i k => x1 (ix2 i k)) (fun k q => x2 (ix2 k q)) (fun q => x3 (ix1 q)) (fun q c => x4 (ix2 q c)) (fun c => x5 (ix1 c)) i c - rowMax (logits (fun i k => x0 (ix2 i k)) (fun i k => x1 (ix2 i k)) (fun k q => x2 (ix2 k q)) (fun q => x3 (ix1 q)) (fun q c => x4 (ix2 q c)) (fun c => x5 (ix1 c))) i := by
  rw [val_main_call2_v5_apply, v33_eq, val_main_call2_v4_apply, val_main_call2_v3_apply, idx_c2v3_c2v4, c2v2_eq]; rfl

/-- The sum of the exponentials of the shifted logits, from zero. -/
theorem c2v7_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (x5 : (⟨S2, .f32⟩ : BufTy).Contents (Elt Ideal)) (i : Fin 4096) :
    val_main_call2_v7 x0 x1 x2 x3 x4 x5 (ix1 i)
      = ∑ c' : Fin 2, Ideal.exp (logits (fun i k => x0 (ix2 i k)) (fun i k => x1 (ix2 i k)) (fun k q => x2 (ix2 k q)) (fun q => x3 (ix1 q)) (fun q c => x4 (ix2 q c)) (fun c => x5 (ix1 c)) i c' - rowMax (logits (fun i k => x0 (ix2 i k)) (fun i k => x1 (ix2 i k)) (fun k q => x2 (ix2 k q)) (fun q => x3 (ix1 q)) (fun q c => x4 (ix2 q c)) (fun c => x5 (ix1 c))) i) := by
  rw [val_main_call2_v7_apply, val_main_call2_cst_1_apply, Ideal.ofBits_def, Ideal.ofBits_zero_f32, zero_add]
  exact Finset.sum_congr rfl fun k _ => by rw [idx_c2v7, val_main_call2_v6_apply, c2v5_eq]; rfl

/-- The reference's last stage, entry by entry, is `G`. -/
theorem v34_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (x5 : (⟨S2, .f32⟩ : BufTy).Contents (Elt Ideal)) (i : Fin 4096) (c : Fin 2) :
    val_main_v34 x0 x1 x2 x3 x4 x5 (ix2 i c) = G (fun i k => x0 (ix2 i k)) (fun i k => x1 (ix2 i k)) (fun k q => x2 (ix2 k q)) (fun q => x3 (ix1 q)) (fun q c => x4 (ix2 q c)) (fun c => x5 (ix1 c)) i c := by
  rw [val_main_v34_apply, c2v5_eq, val_main_call2_v10_apply, val_main_call2_v9_apply, val_main_call2_v8_apply,
    idx_c2v8_c2v10, c2v7_eq]
  rfl

/-- The reference's last stage is `GV` of the argument arrays. -/
theorem result_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (x5 : (⟨S2, .f32⟩ : BufTy).Contents (Elt Ideal)) :
    val_main_v34 (F := Ideal) x0 x1 x2 x3 x4 x5 = GV x0 x1 x2 x3 x4 x5 := by
  funext j
  exact (congrArg (val_main_v34 (F := Ideal) x0 x1 x2 x3 x4 x5) (eq_ix2 j)).trans (v34_eq x0 x1 x2 x3 x4 x5 (j 0) (j 1))

/-! ## The run -/

/-- Every weakly fair execution of the reference terminates, nothing faulting, with the argument arrays unchanged. -/
theorem frame_ri : Cert.frame_ReferenceIdeal := fun m ρ _ =>
  (θ_run Cert.ReferenceIdeal.defs _ _).mono (fun _ h c => (h c).2) (Cert.ReferenceIdeal.ValueP.run (F := Ideal) m ρ)

/-- Every weakly fair execution of the reference terminates with the result array at `GV` of the argument arrays as
    they were at the start, and the argument arrays unchanged. -/
theorem run_G (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v34)
        = GV (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run Cert.ReferenceIdeal.defs _ _).mono
    (fun _ h c => ⟨(h c).1.trans ((val_main_v34_eq m' c).trans (result_eq _ _ _ _ _ _)), (h c).2⟩)
    (Cert.ReferenceIdeal.ValueP.run (F := Ideal) m' ρ')

end Cert.ReferenceIdeal.RefValue

end
-- ==== Proof.ValWalk.lean ====
/-
  What each pallas call finds in its input arrays, traced back through the boundaries: a host stretch writes only its
  own result buffers, a call's write-backs touch only its output windows' arrays, so an array reaches a later call as
  the call that produced it left it.
-/
import proofs.«167793_g47029891891200_fold_wed_c4_674_5_alg».proof.Proof.MainRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Call 1 finds the features, the first weight matrix and the inverse-square-root column -/
theorem V1_arg0 (c : Dev nD) : V1 m c main_arg0 = V0 m c main_arg0 := W1_of_ne m c main_arg0 (by decide) (by decide)
theorem V1_arg2 (c : Dev nD) : V1 m c main_arg2 = V0 m c main_arg2 := W1_of_ne m c main_arg2 (by decide) (by decide)

/-! ## The arguments the host stretch reads are still the launch contents at its start -/
theorem W2_arg3 (c : Dev nD) : W2 m c (Proc.devRef .tc main_arg3) = V0 m c main_arg3 :=
  (W2_of_ne m c main_arg3 (by decide)).trans (W1_of_ne m c main_arg3 (by decide) (by decide))
theorem W2_arg4 (c : Dev nD) : W2 m c (Proc.devRef .tc main_arg4) = V0 m c main_arg4 :=
  (W2_of_ne m c main_arg4 (by decide)).trans (W1_of_ne m c main_arg4 (by decide) (by decide))
theorem W2_arg5 (c : Dev nD) : W2 m c (Proc.devRef .tc main_arg5) = V0 m c main_arg5 :=
  (W2_of_ne m c main_arg5 (by decide)).trans (W1_of_ne m c main_arg5 (by decide) (by decide))

/-! ## Call 2 finds the 0/1 matrix and the column as call 0 left them, the two halves as call 1 left them -/
theorem V3_v0_0 (c : Dev nD) : V3 m c main_call0_v0_0 = V1 m c main_call0_v0_0 :=
  (StableHlo.after_of_writes_sub hostOps2 _ hostOps2_writes (by decide)).trans (W2_of_ne m c main_call0_v0_0 (by decide))
theorem V3_v0_1 (c : Dev nD) : V3 m c main_call0_v0_1 = V1 m c main_call0_v0_1 :=
  (StableHlo.after_of_writes_sub hostOps2 _ hostOps2_writes (by decide)).trans
    ((W2_arr m c 2).trans (((dat1 (V1 m) c).arrAt_in 2 rfl _).trans (A_eq1 (V1 m) c 2)))
theorem V3_v1_0 (c : Dev nD) : V3 m c main_call0_v1_0 = (dat1 (V1 m) c).arrAt 3 cfg1.N :=
  (StableHlo.after_of_writes_sub hostOps2 _ hostOps2_writes (by decide)).trans (W2_arr m c 3)
theorem V3_v1_1 (c : Dev nD) : V3 m c main_call0_v1_1 = (dat1 (V1 m) c).arrAt 4 cfg1.N :=
  (StableHlo.after_of_writes_sub hostOps2 _ hostOps2_writes (by decide)).trans (W2_arr m c 4)

/-! ## Call 3 finds the same two, the two halves as call 2 left them, and the padded second bias -/
theorem V4_v0_0 (c : Dev nD) : V4 m c main_call0_v0_0 = V1 m c main_call0_v0_0 :=
  ((W4_arr m c 0).trans (((dat2 (V3 m) c).arrAt_in 0 rfl _).trans (A_eq2 (V3 m) c 0))).trans (V3_v0_0 m c)
theorem V4_v0_1 (c : Dev nD) : V4 m c main_call0_v0_1 = V1 m c main_call0_v0_1 :=
  ((W4_arr m c 3).trans (((dat2 (V3 m) c).arrAt_in 3 rfl _).trans (A_eq2 (V3 m) c 3))).trans (V3_v0_1 m c)
theorem V4_v11_0 (c : Dev nD) : V4 m c main_call0_v11_0 = (dat2 (V3 m) c).arrAt 6 cfg2.N := W4_arr m c 6
theorem V4_v11_1 (c : Dev nD) : V4 m c main_call0_v11_1 = (dat2 (V3 m) c).arrAt 7 cfg2.N := W4_arr m c 7
theorem V4_v9 (c : Dev nD) : V4 m c main_call0_v9 = V3 m c main_call0_v9 := W4_of_ne m c main_call0_v9 (by decide)

/-! ## The host slices what call 3 left -/
theorem W5_v12 (c : Dev nD) : W5 m c (Proc.devRef .tc main_call0_v12) = (dat3 (V4 m) c).arrAt 5 cfg3.N := W5_arr m c 5

end Cert.KernelIdeal.Hand

end
-- ==== Proof.R0Pieces.lean ====
/-
  Pallas call 0: what the body's stores leave, named. Whatever the case, the 0/1 block's buffer ends at the tile of
  the point's two adjacency blocks; the scratch column at the tile's row sums (j = 0) or at the old partial sums plus
  them (j > 0); and at j = 7 the column's buffer at the inverse square root of the larger of the completed sums and one.
-/
import proofs.«167793_g47029891891200_fold_wed_c4_674_5_alg».proof.Proof.Region0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The loads and stores all start at the origin of their block. -/
theorem hz2 : (![0, 0] : Fin 2 → Nat) = fun _ => 0 := by funext a; fin_cases a <;> rfl

theorem out0_A_2_eq (c : Dev nD) (t : Fin cfg0.N) (h0 : t.val % 8 = 0) (x0 x1 : Vec F S512x512 .f32) :
    out0_A_2 (F := F) c t h0 x0 x1 = k0_pay2 x0 x1 := by
  unfold out0_A_2
  rw [View.read_writes_eq_canon _ _ _ (cover0_A_2 c t h0 x0 x1)]
  unfold runA kernelRun0_A
  dsimp only
  (try sl_unfold_run_names)
  rw [View.canon_unit_zero hz2]
  simp only [View.readAt_eq_ld, Memref.IsWhole.read_unread, View.ld_unit_zero (S := S512x512) hz2, View.ld_unit_zero (S := S512x1) hz2,
    View.readCov_unit_zero (S := S512x1) _ hz2]

theorem sout0_A_0_eq (c : Dev nD) (t : Fin cfg0.N) (h0 : t.val % 8 = 0) (x0 x1 : Vec F S512x512 .f32) :
    sout0_A_0 (F := F) c t h0 x0 x1 = k0_pay4 x0 x1 := by
  unfold sout0_A_0
  rw [View.read_writes_eq_canon _ _ _ (scover0_A_0 c t h0 x0 x1)]
  unfold runA kernelRun0_A
  dsimp only
  (try sl_unfold_run_names)
  rw [View.canon_unit_zero hz2]
  simp only [View.readAt_eq_ld, Memref.IsWhole.read_unread, View.ld_unit_zero (S := S512x512) hz2, View.ld_unit_zero (S := S512x1) hz2,
    View.readCov_unit_zero (S := S512x1) _ hz2]

theorem out0_B_2_eq (c : Dev nD) (t : Fin cfg0.N) (h0 : ¬t.val % 8 = 0) (h2 : ¬t.val % 8 = 7) (x0 x1 : Vec F S512x512 .f32) (xs0 : Vec F S512x1 .f32) :
    out0_B_2 (F := F) c t h0 h2 x0 x1 xs0 = k0_pay2 x0 x1 := by
  unfold out0_B_2
  rw [View.read_writes_eq_canon _ _ _ (cover0_B_2 c t h0 h2 x0 x1 xs0)]
  unfold runB kernelRun0_B
  dsimp only
  (try sl_unfold_run_names)
  rw [View.canon_unit_zero hz2]
  simp only [View.readAt_eq_ld, Memref.IsWhole.read_unread, View.ld_unit_zero (S := S512x512) hz2, View.ld_unit_zero (S := S512x1) hz2,
    View.readCov_unit_zero (S := S512x1) _ hz2]

theorem sout0_B_0_eq (c : Dev nD) (t : Fin cfg0.N) (h0 : ¬t.val % 8 = 0) (h2 : ¬t.val % 8 = 7) (x0 x1 : Vec F S512x512 .f32) (xs0 : Vec F S512x1 .f32) :
    sout0_B_0 (F := F) c t h0 h2 x0 x1 xs0 = k0_pay5 x0 x1 xs0 := by
  unfold sout0_B_0
  rw [View.read_writes_eq_canon _ _ _ (scover0_B_0 c t h0 h2 x0 x1 xs0)]
  unfold runB kernelRun0_B
  dsimp only
  (try sl_unfold_run_names)
  rw [View.canon_unit_zero hz2]
  simp only [View.readAt_eq_ld, Memref.IsWhole.read_unread, View.ld_unit_zero (S := S512x512) hz2, View.ld_unit_zero (S := S512x1) hz2,
    View.readCov_unit_zero (S := S512x1) _ hz2]
  exact congrArg (k0_pay5 x0 x1) ((Memref.isWhole_whole _ : (scM0_0 : Memref sig .tc .vmem S512x1 .f32).IsWhole).read_unread xs0)

theorem out0_C_2_eq (c : Dev nD) (t : Fin cfg0.N) (h0 : ¬t.val % 8 = 0) (h2 : t.val % 8 = 7) (x0 x1 : Vec F S512x512 .f32) (xs0 : Vec F S512x1 .f32) :
    out0_C_2 (F := F) c t h0 h2 x0 x1 xs0 = k0_pay2 x0 x1 := by
  unfold out0_C_2
  rw [View.read_writes_eq_canon _ _ _ (cover0_C_2 c t h0 h2 x0 x1 xs0)]
  unfold runC kernelRun0_C
  dsimp only
  (try sl_unfold_run_names)
  rw [View.canon_unit_zero hz2]
  simp only [View.readAt_eq_ld, Memref.IsWhole.read_unread, View.ld_unit_zero (S := S512x512) hz2, View.ld_unit_zero (S := S512x1) hz2,
    View.readCov_unit_zero (S := S512x1) _ hz2]

theorem sout0_C_0_eq (c : Dev nD) (t : Fin cfg0.N) (h0 : ¬t.val % 8 = 0) (h2 : t.val % 8 = 7) (x0 x1 : Vec F S512x512 .f32) (xs0 : Vec F S512x1 .f32) :
    sout0_C_0 (F := F) c t h0 h2 x0 x1 xs0 = k0_pay5 x0 x1 xs0 := by
  unfold sout0_C_0
  rw [View.read_writes_eq_canon _ _ _ (scover0_C_0 c t h0 h2 x0 x1 xs0)]
  unfold runC kernelRun0_C
  dsimp only
  (try sl_unfold_run_names)
  rw [View.canon_unit_zero hz2]
  simp only [View.readAt_eq_ld, Memref.IsWhole.read_unread, View.ld_unit_zero (S := S512x512) hz2, View.ld_unit_zero (S := S512x1) hz2,
    View.readCov_unit_zero (S := S512x1) _ hz2]
  exact congrArg (k0_pay5 x0 x1) ((Memref.isWhole_whole _ : (scM0_0 : Memref sig .tc .vmem S512x1 .f32).IsWhole).read_unread xs0)

theorem out0_C_3_eq (c : Dev nD) (t : Fin cfg0.N) (h0 : ¬t.val % 8 = 0) (h2 : t.val % 8 = 7) (x0 x1 : Vec F S512x512 .f32) (xs0 : Vec F S512x1 .f32) :
    out0_C_3 (F := F) c t h0 h2 x0 x1 xs0 = k0_pay6 (k0_pay5 x0 x1 xs0) := by
  unfold out0_C_3
  rw [View.read_writes_eq_canon _ _ _ (cover0_C_3 c t h0 h2 x0 x1 xs0)]
  unfold runC kernelRun0_C
  dsimp only
  (try sl_unfold_run_names)
  rw [View.canon_unit_zero hz2]
  simp only [View.readAt_eq_ld, Memref.IsWhole.read_unread, View.ld_unit_zero (S := S512x512) hz2, View.ld_unit_zero (S := S512x1) hz2,
    View.readCov_unit_zero (S := S512x1) _ hz2]
  exact congrArg (fun z => k0_pay6 (k0_pay5 x0 x1 z)) ((Memref.isWhole_whole _ : (scM0_0 : Memref sig .tc .vmem S512x1 .f32).IsWhole).read_unread xs0)

end Cert.KernelIdeal.Hand

end
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.Pay0.lean ====
/-
  The first launch's arithmetic read at an index, at the ideal values: the 0/1 tile of the symmetrized adjacency
  (one where the block's entry or the transposed block's entry is not zero), its row sums, the degree accumulator's
  two updates, and `dinv = rsqrt (max deg 1)`.
-/
import proofs.«167793_g47029891891200_fold_wed_c4_674_5_alg».proof.Proof.Gen.KernelIdeal.Skeleton
import proofs.«167793_g47029891891200_fold_wed_c4_674_5_alg».proof.Proof.LibIx2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.LibIx2

/-- A select on "`x` or `y` is not zero" is the `if` on that disjunction. -/
theorem select_ori_ne_zero (x y A B : EReal) :
    Scalar.select (IntOp.ori (Ideal.cmp .one x 0) (Ideal.cmp .one y 0)) A B = if x ≠ 0 ∨ y ≠ 0 then A else B := by
  unfold Scalar.select IntOp.ori Ideal.cmp
  by_cases hx : x = 0 <;> by_cases hy : y = 0 <;> simp [hx, hy]

/-- The tile at `(p, q)`: one where the block `a` at `(p, q)` or the other block `b` at `(q, p)` is not zero, else
    zero. (The second window holds the transposed block, so `b (q, p)` is the adjacency's entry across the diagonal.) -/
theorem k0_pay1_apply (a b : FVec Ideal S512x512 .f32) (p q : Fin 512) :
    Gen.k0_pay1 (F := Ideal) a b (ix2 p q)
      = if a (ix2 p q) ≠ 0 ∨ b (ix2 q p) ≠ 0 then Ideal.ofBits .f32 0x3F800000#32 else 0 := by
  unfold Gen.k0_pay1
  show Scalar.select (IntOp.ori (Ideal.cmp .one (a (ix2 p q)) (Ideal.ofBits .f32 0x00000000#32))
      (Ideal.cmp .one (transpose S512x512 [1, 0] b _ (ix2 p q)) (Ideal.ofBits .f32 0x00000000#32)))
    (Ideal.ofBits .f32 0x3F800000#32) (Ideal.ofBits .f32 0x00000000#32) = _
  rw [transpose_ix2_apply b _ p q, Ideal.ofBits_zero_f32]
  exact select_ori_ne_zero _ _ _ _

/-- The tile as stored (a change of format is the identity). -/
theorem k0_pay2_apply (a b : FVec Ideal S512x512 .f32) (p q : Fin 512) :
    Gen.k0_pay2 (F := Ideal) a b (ix2 p q)
      = if a (ix2 p q) ≠ 0 ∨ b (ix2 q p) ≠ 0 then Ideal.ofBits .f32 0x3F800000#32 else 0 := by
  unfold Gen.k0_pay2
  rw [truncf_apply]
  exact k0_pay1_apply a b p q

/-- The tile's row sum, kept as a column: at `(p, u)` the sum over the lanes of row `p` of the tile. -/
theorem k0_pay3_apply (a b : FVec Ideal S512x512 .f32) (p : Fin 512) (u : Fin 1) :
    Gen.k0_pay3 (F := Ideal) a b (ix2 p u)
      = ∑ c : Fin 512, (if a (ix2 p c) ≠ 0 ∨ b (ix2 c p) ≠ 0 then Ideal.ofBits .f32 0x3F800000#32 else 0) := by
  unfold Gen.k0_pay3
  refine (shapeCast_a_a1_apply _ _ p u).trans ?_
  refine (multiReduction_add_lanes_apply _ _ _ _ _ p).trans ?_
  exact Finset.sum_congr rfl fun c _ => k0_pay1_apply a b p c

/-- At the first column block the accumulator is set to the row sum. -/
theorem k0_pay4_apply (a b : FVec Ideal S512x512 .f32) (p : Fin 512) (u : Fin 1) :
    Gen.k0_pay4 (F := Ideal) a b (ix2 p u)
      = ∑ c : Fin 512, (if a (ix2 p c) ≠ 0 ∨ b (ix2 c p) ≠ 0 then Ideal.ofBits .f32 0x3F800000#32 else 0) := by
  unfold Gen.k0_pay4
  rw [shapeCast_self]
  exact k0_pay3_apply a b p u

/-- At a later column block the row sum is added to the accumulator `acc`. -/
theorem k0_pay5_apply (a b : FVec Ideal S512x512 .f32) (acc : FVec Ideal S512x1 .f32) (p : Fin 512) (u : Fin 1) :
    Gen.k0_pay5 (F := Ideal) a b acc (ix2 p u)
      = acc (ix2 p u)
        + ∑ c : Fin 512, (if a (ix2 p c) ≠ 0 ∨ b (ix2 c p) ≠ 0 then Ideal.ofBits .f32 0x3F800000#32 else 0) := by
  unfold Gen.k0_pay5
  rw [shapeCast_self, addf_apply, k0_pay3_apply]

/-- At the last column block `dinv` is the reciprocal square root of the accumulated degree clipped below at one. -/
theorem k0_pay6_apply (acc : FVec Ideal S512x1 .f32) (p : Fin 512) (u : Fin 1) :
    Gen.k0_pay6 (F := Ideal) acc (ix2 p u) = Ideal.rsqrt (max (acc (ix2 p u)) (Ideal.ofBits .f32 0x3F800000#32)) := by
  unfold Gen.k0_pay6
  rfl

end Cert.KernelIdeal.Pay

end
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.R0Value.lean ====
/-
  Pallas call 0, from blocks to arrays: what its two output arrays hold after the call, index by index, at the ideal
  values. The grid is 8 x 8, point t = 8 a + b. The 0/1 matrix: point t writes block (a, b), whose entry (p, q) is one
  where the adjacency at (512 a + p, 512 b + q) or across the diagonal at (512 b + q, 512 a + p) is not zero, so the 64
  blocks are the blocks of ONE symmetric 0/1 function of the adjacency. The column of inverse square roots: after
  point 8 a + b the scratch column holds, at row p, the sum over the column blocks 0..b of the sums of row 512 a + p of
  the 0/1 matrix over each block (set at b = 0, added to after); at b = 7 the eight block sums are the row's sum over
  all 4096 columns, and the column's block a is written back at the inverse square root of the larger of it and one.
-/
import proofs.«167793_g47029891891200_fold_wed_c4_674_5_alg».proof.Proof.Region0
import proofs.«167793_g47029891891200_fold_wed_c4_674_5_alg».proof.Proof.R0Pieces
import proofs.«167793_g47029891891200_fold_wed_c4_674_5_alg».proof.Proof.Pay0
import proofs.«167793_g47029891891200_fold_wed_c4_674_5_alg».proof.Proof.LibBlockSplit
import Idealize.ShloMosaic.Lib.Pipeline.Value
import Idealize.ShloMosaic.Lib.ValueIdx
import Idealize.ShloMosaic.Lib.Tactic

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The two arrays as functions of the adjacency -/

/-- The symmetrized 0/1 entry: one where the adjacency at `(i, j)` or at `(j, i)` is not zero. -/
def sym01 (A : S4096x4096.Idx → EReal) (i j : Fin 4096) : EReal :=
  if A (ix2 i j) ≠ 0 ∨ A (ix2 j i) ≠ 0 then Ideal.ofBits .f32 0x3F800000#32 else 0

/-- The tile of two [512, 512] blocks at `(p, q)`: one where the first block at `(p, q)` or the second at `(q, p)` is not zero. -/
def tileAt (x0 x1 : FVec Ideal S512x512 .f32) (p q : Fin 512) : EReal :=
  if x0 (ix2 p q) ≠ 0 ∨ x1 (ix2 q p) ≠ 0 then Ideal.ofBits .f32 0x3F800000#32 else 0

/-- The sum of row `i` of the 0/1 matrix over column block `k` (zero past the eighth block). -/
def rowBlk (A : S4096x4096.Idx → EReal) (i : Fin 4096) (k : ℕ) : EReal :=
  if h : k < 8 then ∑ q : Fin 512, sym01 A i ⟨512 * k + q.val, by have := q.isLt; omega⟩ else 0

/-- The eight block sums are the row's sum over all 4096 columns. -/
theorem rowBlk_sum (A : S4096x4096.Idx → EReal) (i : Fin 4096) :
    ∑ k ∈ Finset.range 8, rowBlk A i k = ∑ j : Fin 4096, sym01 A i j := by
  rw [Finset.sum_range, Cert.Lib.sum_blocks 8 512 4096 rfl (fun j => sym01 A i j)
    (fun b r => ⟨512 * b.val + r.val, by have := b.isLt; have := r.isLt; omega⟩) (fun _ _ => rfl)]
  refine Finset.sum_congr rfl fun b _ => ?_
  unfold rowBlk
  rw [dif_pos b.isLt]

/-- The inverse square root of the larger of row `i`'s degree and one. -/
def dinvOf (A : S4096x4096.Idx → EReal) (i : Fin 4096) : EReal :=
  Ideal.rsqrt (max (∑ j : Fin 4096, sym01 A i j) (Ideal.ofBits .f32 0x3F800000#32))

-- what each buffer of the TensorCore holds when the call is entered, at the ideal values
variable (V : (c : Dev nD) → (b : Ref sig .tc) → Buf (Elt Ideal) ((c : Thread nD τ).loc b))

/-- The 0/1 matrix as a whole array, of the adjacency as the call finds it. -/
def G0_2 (c : Dev nD) : S4096x4096.Idx → EReal := fun y => sym01 (V c main_arg1) (y 0) (y 1)
/-- The column of inverse square roots as a whole array. -/
def G0_3 (c : Dev nD) : S4096x1.Idx → EReal := fun y => dinvOf (V c main_arg1) (y 0)

/-! ## The blocks at a point -/

/-- The block index maps over the 64 points: point t = 8 a + b reads blocks (a, b) and (b, a) of the adjacency, writes
    block (a, b) of the 0/1 matrix and block (a, 0) of the column. -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = t.val / 8
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N, _)

/-- Entry (p, q) of the first window's block at point t is the adjacency at (512 (t / 8) + p, 512 (t % 8) + q). -/
theorem iblk0_0_apply (c : Dev nD) (t : Fin cfg0.N) (p q : Fin 512) (i j : Fin 4096)
    (hi : i.val = 512 * (t.val / 8) + p.val) (hj : j.val = 512 * (t.val % 8) + q.val) :
    (iblk0 V c 0 t : Vec Ideal S512x512 .f32) (ix2 p q) = (V c main_arg1 : S4096x4096.Idx → EReal) (ix2 i j) := by
  obtain ⟨e0, e1, -⟩ := idx_facts0 t
  unfold iblk0
  rw [View.read_apply]
  show V c main_arg1 _ = V c main_arg1 _
  congr 1
  funext a; apply Fin.ext
  match a with
  | ⟨0, _⟩ => show win0_0.index t (0 : Fin 2) * 512 + 1 * p.val = i.val; rw [e0, hi]; omega
  | ⟨1, _⟩ => show win0_0.index t (1 : Fin 2) * 512 + 1 * q.val = j.val; rw [e1, hj]; omega

/-- The second window holds the block across the diagonal: its entry (q, p) at point t is the adjacency at
    (512 (t % 8) + q, 512 (t / 8) + p). -/
theorem iblk0_1_apply (c : Dev nD) (t : Fin cfg0.N) (q p : Fin 512) (j i : Fin 4096)
    (hj : j.val = 512 * (t.val % 8) + q.val) (hi : i.val = 512 * (t.val / 8) + p.val) :
    (iblk0 V c 1 t : Vec Ideal S512x512 .f32) (ix2 q p) = (V c main_arg1 : S4096x4096.Idx → EReal) (ix2 j i) := by
  obtain ⟨-, -, e0, e1, -⟩ := idx_facts0 t
  unfold iblk0
  rw [View.read_apply]
  show V c main_arg1 _ = V c main_arg1 _
  congr 1
  funext a; apply Fin.ext
  match a with
  | ⟨0, _⟩ => show win0_1.index t (0 : Fin 2) * 512 + 1 * q.val = j.val; rw [e0, hj]; omega
  | ⟨1, _⟩ => show win0_1.index t (1 : Fin 2) * 512 + 1 * p.val = i.val; rw [e1, hi]; omega

/-- The tile entry at a point, in the block's coordinates, is the symmetrized entry in the array's. -/
theorem tile_entry (c : Dev nD) (t : Fin cfg0.N) (p q : Fin 512) (i j : Fin 4096)
    (hi : i.val = 512 * (t.val / 8) + p.val) (hj : j.val = 512 * (t.val % 8) + q.val) :
    tileAt (iblk0 V c 0 t) (iblk0 V c 1 t) p q = sym01 (V c main_arg1) i j := by
  unfold tileAt sym01
  rw [iblk0_0_apply V c t p q i j hi hj, iblk0_1_apply V c t q p j i hj hi]

/-- The tile's row sum at a point is the row's sum over the point's column block. -/
theorem tile_rowsum (c : Dev nD) (t : Fin cfg0.N) (p : Fin 512) (i : Fin 4096) (hi : i.val = 512 * (t.val / 8) + p.val) :
    (∑ q : Fin 512, tileAt (iblk0 V c 0 t) (iblk0 V c 1 t) p q) = rowBlk (V c main_arg1) i (t.val % 8) := by
  unfold rowBlk
  rw [dif_pos (Nat.mod_lt _ (by decide))]
  exact Finset.sum_congr rfl fun q _ => tile_entry V c t p q i _ hi rfl

/-! ## The 0/1 matrix -/

/-- Whatever the case, the 0/1 block's buffer ends at the tile of the point's two adjacency blocks. -/
theorem outs_tile (c : Dev nD) (t : Fin cfg0.N) :
    (outsAt0 V c t.val t.isLt).1 = k0_pay2 (iblk0 V c 0 t) (iblk0 V c 1 t) := by
  by_cases h0 : t.val % 8 = 0
  · have h1 : (outsAt0 V c t.val t.isLt).1 = out0_A_2 c t h0 (iblk0 V c 0 t) (iblk0 V c 1 t) := by
      rw [outsAt0_A V c t h0]
    exact h1.trans (out0_A_2_eq (F := Ideal) c t h0 (iblk0 V c 0 t) (iblk0 V c 1 t))
  · by_cases h2 : t.val % 8 = 7
    · have h1 : (outsAt0 V c t.val t.isLt).1 = out0_C_2 c t h0 h2 (iblk0 V c 0 t) (iblk0 V c 1 t)
          (outsAt0 V c (t.val - 1) (Nat.lt_of_le_of_lt (Nat.sub_le _ _) t.isLt)).2.2 := by
        rw [outsAt0_C V c t h0 h2]
      exact h1.trans (out0_C_2_eq (F := Ideal) c t h0 h2 _ _ _)
    · have h1 : (outsAt0 V c t.val t.isLt).1 = out0_B_2 c t h0 h2 (iblk0 V c 0 t) (iblk0 V c 1 t)
          (outsAt0 V c (t.val - 1) (Nat.lt_of_le_of_lt (Nat.sub_le _ _) t.isLt)).2.2 := by
        rw [outsAt0_B V c t h0 h2]
      exact h1.trans (out0_B_2_eq (F := Ideal) c t h0 h2 _ _ _)

/-- Where element (p, q) of the 0/1 matrix's block at point t sits in its array. -/
theorem emb0_2 (t : Fin cfg0.N) (p q : Fin 512) (i j : Fin 4096)
    (hi : i.val = 512 * (t.val / 8) + p.val) (hj : j.val = 512 * (t.val % 8) + q.val) :
    (((cfg0.win 2).blk t).view.emb (ix2 p q) : S4096x4096.Idx) = ix2 i j := by
  obtain ⟨-, -, -, -, e0, e1, -⟩ := idx_facts0 t
  funext a; apply Fin.ext
  match a with
  | ⟨0, _⟩ => show win0_2.index t (0 : Fin 2) * 512 + 1 * p.val = i.val; rw [e0, hi]; omega
  | ⟨1, _⟩ => show win0_2.index t (1 : Fin 2) * 512 + 1 * q.val = j.val; rw [e1, hj]; omega

/-- What point t writes back to the 0/1 matrix is block t of `G0_2`. -/
theorem flushed0_2_eq (c : Dev nD) (t : Fin cfg0.N) :
    (dat0 V c).flushed 2 t = ((cfg0.win 2).blk t).view.read (Elt Ideal) (G0_2 V c) := by
  show (cfg0.win 2).cut (grid0.coords t) ((dat0 V c).after 2 t) = _
  rw [after0_2, outs_tile]
  have hN : cfg0.N = 64 := N_0
  funext y
  obtain ⟨p, q, rfl⟩ : ∃ (p q : Fin 512), y = ix2 p q := ⟨y 0, y 1, eq_ix2 y⟩
  have ht : t.val < 64 := lt_of_lt_of_eq t.isLt hN
  have hi : 512 * (t.val / 8) + p.val < 4096 := by have := p.isLt; omega
  have hj : 512 * (t.val % 8) + q.val < 4096 := by have := q.isLt; omega
  show k0_pay2 (F := Ideal) (iblk0 V c 0 t) (iblk0 V c 1 t) (ix2 p q) = G0_2 V c (((cfg0.win 2).blk t).view.emb (ix2 p q))
  rw [emb0_2 t p q ⟨_, hi⟩ ⟨_, hj⟩ rfl rfl]
  exact (Pay.k0_pay2_apply _ _ p q).trans (tile_entry V c t p q ⟨_, hi⟩ ⟨_, hj⟩ rfl rfl)

/-- An index of the 0/1 matrix is in point t's block iff each coordinate is in the block's range. -/
theorem mem_blk0_2 (t : Fin cfg0.N) (i : S4096x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_call0_v0_0).slice (win0_2.rect t)).set ↔ _
  rw [View.set_slice_whole, Rect.mem_set_unit]
  exact Iff.rfl

/-- Entry (r, s) is in the block of point 8 (r / 512) + s / 512. -/
theorem covered0_2 (i : S4096x4096.Idx) : ∃ t : Fin cfg0.N, (cfg0.win 2).flush t = true ∧ i ∈ ((cfg0.win 2).blk t).view.set := by
  have hN : cfg0.N = 64 := N_0
  have h0 : (i 0).val < 4096 := (i 0).isLt
  have h1 : (i 1).val < 4096 := (i 1).isLt
  obtain ⟨t, ht⟩ : ∃ t : Fin cfg0.N, t.val = 8 * ((i 0).val / 512) + (i 1).val / 512 :=
    ⟨⟨8 * ((i 0).val / 512) + (i 1).val / 512, by rw [hN]; omega⟩, rfl⟩
  refine ⟨t, flush0_2 t, ?_⟩
  rw [mem_blk0_2]
  obtain ⟨-, -, -, -, e0, e1, -⟩ := idx_facts0 t
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 512 ≤ (i 1).val ∧ (i 1).val < win0_2.index t (1 : Fin 2) * 512 + 512; rw [e1, ht]; omega

/-- The 0/1 matrix after the call, whole. -/
theorem final0_2 (c : Dev nD) : (dat0 V c).arrAt 2 cfg0.N = G0_2 V c :=
  (dat0 V c).arrAt_eq_of_cover 2 (G0_2 V c) (fun t _ => flushed0_2_eq V c t) covered0_2

/-- Index by index: after the call the 0/1 matrix holds, at (i, j), one where the adjacency at (i, j) or at (j, i) is
    not zero, else zero. -/
theorem final0_A (c : Dev nD) (i j : Fin 4096) :
    ((dat0 V c).arrAt 2 cfg0.N : S4096x4096.Idx → EReal) (ix2 i j) = sym01 (V c main_arg1) i j :=
  congrFun (final0_2 V c) (ix2 i j)

/-! ## The scratch column, point by point -/

/-- At a later column block the scratch column ends at the old partial sums plus the tile's row sums. -/
theorem pay5_at (c : Dev nD) (t : Fin cfg0.N) (h0 : ¬t.val % 8 = 0) (p : Fin 512) (u : Fin 1) (i : Fin 4096)
    (hi : i.val = 512 * (t.val / 8) + p.val) (prev : Vec Ideal S512x1 .f32)
    (ih : prev (ix2 p u) = ∑ k ∈ Finset.range ((t.val - 1) % 8 + 1), rowBlk (V c main_arg1) i k) :
    k0_pay5 (F := Ideal) (iblk0 V c 0 t) (iblk0 V c 1 t) prev (ix2 p u)
      = ∑ k ∈ Finset.range (t.val % 8 + 1), rowBlk (V c main_arg1) i k := by
  refine (Pay.k0_pay5_apply _ _ _ p u).trans ?_
  show prev (ix2 p u) + ∑ q : Fin 512, tileAt (iblk0 V c 0 t) (iblk0 V c 1 t) p q = _
  rw [tile_rowsum V c t p i hi, ih]
  have e : (t.val - 1) % 8 + 1 = t.val % 8 := by omega
  rw [e]
  exact (Finset.sum_range_succ _ _).symm

/-- At the first column block the scratch column is set to the tile's row sums. -/
theorem scratch_A (c : Dev nD) (t : Fin cfg0.N) (h0 : t.val % 8 = 0) (p : Fin 512) (u : Fin 1) (i : Fin 4096)
    (hi : i.val = 512 * (t.val / 8) + p.val) :
    ((outsAt0 V c t.val t.isLt).2.2 : Vec Ideal S512x1 .f32) (ix2 p u)
      = ∑ k ∈ Finset.range (t.val % 8 + 1), rowBlk (V c main_arg1) i k := by
  rw [outsAt0_A V c t h0]
  show sout0_A_0 c t h0 (iblk0 V c 0 t) (iblk0 V c 1 t) (ix2 p u) = _
  rw [sout0_A_0_eq]
  refine (Pay.k0_pay4_apply _ _ p u).trans ?_
  show ∑ q : Fin 512, tileAt (iblk0 V c 0 t) (iblk0 V c 1 t) p q = _
  rw [tile_rowsum V c t p i hi, h0]
  exact (Finset.sum_range_one _).symm

/-- At a later one it is the scratch column of the point before plus them. -/
theorem scratch_BC (c : Dev nD) (t : Fin cfg0.N) (h0 : ¬t.val % 8 = 0) (p : Fin 512) (u : Fin 1) (i : Fin 4096)
    (hi : i.val = 512 * (t.val / 8) + p.val)
    (ih : ((outsAt0 V c (t.val - 1) (Nat.lt_of_le_of_lt (Nat.sub_le _ _) t.isLt)).2.2 : Vec Ideal S512x1 .f32) (ix2 p u)
        = ∑ k ∈ Finset.range ((t.val - 1) % 8 + 1), rowBlk (V c main_arg1) i k) :
    ((outsAt0 V c t.val t.isLt).2.2 : Vec Ideal S512x1 .f32) (ix2 p u)
      = ∑ k ∈ Finset.range (t.val % 8 + 1), rowBlk (V c main_arg1) i k := by
  by_cases h2 : t.val % 8 = 7
  · rw [outsAt0_C V c t h0 h2]
    show sout0_C_0 c t h0 h2 (iblk0 V c 0 t) (iblk0 V c 1 t) _ (ix2 p u) = _
    rw [sout0_C_0_eq]
    exact pay5_at V c t h0 p u i hi _ ih
  · rw [outsAt0_B V c t h0 h2]
    show sout0_B_0 c t h0 h2 (iblk0 V c 0 t) (iblk0 V c 1 t) _ (ix2 p u) = _
    rw [sout0_B_0_eq]
    exact pay5_at V c t h0 p u i hi _ ih

/-- THE INVARIANT: after point n = 8 a + b the scratch column holds, at row p, the sum over the column blocks 0..b of
    the block sums of row 512 a + p of the 0/1 matrix. By induction on the point. -/
theorem scratch_apply (c : Dev nD) : ∀ (n : ℕ) (hn : n < cfg0.N) (p : Fin 512) (u : Fin 1) (i : Fin 4096),
    i.val = 512 * (n / 8) + p.val →
    ((outsAt0 V c n hn).2.2 : Vec Ideal S512x1 .f32) (ix2 p u)
      = ∑ k ∈ Finset.range (n % 8 + 1), rowBlk (V c main_arg1) i k := by
  intro n
  induction n with
  | zero =>
    intro hn p u i hi
    exact scratch_A V c ⟨0, hn⟩ (Nat.zero_mod _) p u i hi
  | succ n ih =>
    intro hn p u i hi
    by_cases h0 : (n + 1) % 8 = 0
    · exact scratch_A V c ⟨n + 1, hn⟩ h0 p u i hi
    · exact scratch_BC V c ⟨n + 1, hn⟩ h0 p u i hi (ih (Nat.lt_of_succ_lt hn) p u i (by omega))

/-! ## The column of inverse square roots -/

/-- At the last column block the column's buffer ends at the inverse square root of the larger of the row's degree
    and one. -/
theorem col_apply (c : Dev nD) (t : Fin cfg0.N) (h2 : t.val % 8 = 7) (p : Fin 512) (u : Fin 1) (i : Fin 4096)
    (hi : i.val = 512 * (t.val / 8) + p.val) :
    ((outsAt0 V c t.val t.isLt).2.1 : Vec Ideal S512x1 .f32) (ix2 p u) = dinvOf (V c main_arg1) i := by
  have h0 : ¬t.val % 8 = 0 := by omega
  have e8 : t.val % 8 + 1 = 8 := by omega
  rw [outsAt0_C V c t h0 h2]
  show out0_C_3 c t h0 h2 (iblk0 V c 0 t) (iblk0 V c 1 t) _ (ix2 p u) = _
  rw [out0_C_3_eq, Pay.k0_pay6_apply,
    pay5_at V c t h0 p u i hi _ (scratch_apply V c (t.val - 1) _ p u i (by omega)), e8, rowBlk_sum]
  rfl

/-- Where element (p, u) of the column's block at point t sits in its array. -/
theorem emb0_3 (t : Fin cfg0.N) (p : Fin 512) (u : Fin 1) (i : Fin 4096) (hi : i.val = 512 * (t.val / 8) + p.val) :
    (((cfg0.win 3).blk t).view.emb (ix2 p u) : S4096x1.Idx) = ix2 i u := by
  obtain ⟨-, -, -, -, -, -, e0, e1⟩ := idx_facts0 t
  funext a; apply Fin.ext
  match a with
  | ⟨0, _⟩ => show win0_3.index t (0 : Fin 2) * 512 + 1 * p.val = i.val; rw [e0, hi]; omega
  | ⟨1, _⟩ => show win0_3.index t (1 : Fin 2) * 1 + 1 * u.val = u.val; rw [e1]; omega

/-- What a point of the last column block writes back to the column is its block of `G0_3`. -/
theorem flushed0_3_eq (c : Dev nD) (t : Fin cfg0.N) (hf : (cfg0.win 3).flush t = true) :
    (dat0 V c).flushed 3 t = ((cfg0.win 3).blk t).view.read (Elt Ideal) (G0_3 V c) := by
  have h2 : t.val % 8 = 7 := (flush0_3 t).mp hf
  show (cfg0.win 3).cut (grid0.coords t) ((dat0 V c).after 3 t) = _
  rw [after0_3]
  have hN : cfg0.N = 64 := N_0
  funext y
  obtain ⟨p, u, rfl⟩ : ∃ (p : Fin 512) (u : Fin 1), y = ix2 p u := ⟨y 0, y 1, eq_ix2 y⟩
  have ht : t.val < 64 := lt_of_lt_of_eq t.isLt hN
  have hi : 512 * (t.val / 8) + p.val < 4096 := by have := p.isLt; omega
  show ((outsAt0 V c t.val t.isLt).2.1 : Vec Ideal S512x1 .f32) (ix2 p u) = G0_3 V c (((cfg0.win 3).blk t).view.emb (ix2 p u))
  rw [emb0_3 t p u ⟨_, hi⟩ rfl]
  exact col_apply V c t h2 p u ⟨_, hi⟩ rfl

/-- An index of the column is in point t's block iff each coordinate is in the block's range. -/
theorem mem_blk0_3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_call0_v0_1).slice (win0_3.rect t)).set ↔ _
  rw [View.set_slice_whole, Rect.mem_set_unit]
  exact Iff.rfl

/-- Row r is in the block written back at point 8 (r / 512) + 7. -/
theorem covered0_3 (i : S4096x1.Idx) : ∃ t : Fin cfg0.N, (cfg0.win 3).flush t = true ∧ i ∈ ((cfg0.win 3).blk t).view.set := by
  have hN : cfg0.N = 64 := N_0
  have h0 : (i 0).val < 4096 := (i 0).isLt
  have h1 : (i 1).val < 1 := (i 1).isLt
  obtain ⟨t, ht⟩ : ∃ t : Fin cfg0.N, t.val = 8 * ((i 0).val / 512) + 7 :=
    ⟨⟨8 * ((i 0).val / 512) + 7, by rw [hN]; omega⟩, rfl⟩
  refine ⟨t, (flush0_3 t).mpr (by rw [ht]; omega), ?_⟩
  rw [mem_blk0_3]
  obtain ⟨-, -, -, -, -, -, e0, e1⟩ := idx_facts0 t
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 1 ≤ (i 1).val ∧ (i 1).val < win0_3.index t (1 : Fin 2) * 1 + 1; rw [e1]; omega

/-- The column of inverse square roots after the call, whole. -/
theorem final0_3 (c : Dev nD) : (dat0 V c).arrAt 3 cfg0.N = G0_3 V c :=
  (dat0 V c).arrAt_eq_of_cover 3 (G0_3 V c) (fun t hf => flushed0_3_eq V c t hf) covered0_3

/-- Index by index: after the call the column holds, at row i, the inverse square root of the larger of one and the
    number of columns j at which the adjacency at (i, j) or at (j, i) is not zero. -/
theorem final0_dinv (c : Dev nD) (i : Fin 4096) (u : Fin 1) :
    ((dat0 V c).arrAt 3 cfg0.N : S4096x1.Idx → EReal) (ix2 i u)
      = Ideal.rsqrt (max (∑ j : Fin 4096, sym01 (V c main_arg1) i j) (Ideal.ofBits .f32 0x3F800000#32)) :=
  congrFun (final0_3 V c) (ix2 i u)

end Cert.KernelIdeal.Hand

end
-- ==== Proof.Pay1.lean ====
/-
  The second launch's arithmetic read at an index, at the ideal values: the scaled product
  `hs (p, q) = dinv (p, 0) * ∑ k, x (p, k) * w (k, q)`, stored once as it is (the high part: a change of format is the
  identity on extended reals) and once as `hs - hs` (the low part).
-/
import proofs.«167793_g47029891891200_fold_wed_c4_674_5_alg».proof.Proof.Gen.KernelIdeal.Skeleton
import proofs.«167793_g47029891891200_fold_wed_c4_674_5_alg».proof.Proof.LibIx2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.LibIx2

/-- The scaled product at `(p, q)`: the row's `dinv` times the row-by-column sum. -/
theorem k1_pay1_apply (x : FVec Ideal S512x512 .f32) (w : FVec Ideal S512x256 .f32) (d : FVec Ideal S512x1 .f32)
    (p : Fin 512) (q : Fin 256) :
    Gen.k1_pay1 (F := Ideal) x w d (ix2 p q) = d (ix2 p (0 : Fin 1)) * ∑ k : Fin 512, x (ix2 p k) * w (ix2 k q) := by
  unfold Gen.k1_pay1
  rw [mulf_apply, shapeCast_self]
  refine congrArg₂ (· * ·) (broadcastTo_a1_ab_apply d _ p q) ?_
  exact matmul_zero_ix2_apply dot_S512x512_S512x256_S512x256_1_0_0_1_n_n rfl rfl rfl rfl rfl rfl rfl rfl none x w p q

/-- The high part stored is the scaled product. -/
theorem k1_pay2_apply (x : FVec Ideal S512x512 .f32) (w : FVec Ideal S512x256 .f32) (d : FVec Ideal S512x1 .f32)
    (p : Fin 512) (q : Fin 256) :
    Gen.k1_pay2 (F := Ideal) x w d (ix2 p q) = d (ix2 p (0 : Fin 1)) * ∑ k : Fin 512, x (ix2 p k) * w (ix2 k q) := by
  unfold Gen.k1_pay2
  rw [truncf_apply]
  exact k1_pay1_apply x w d p q

/-- The low part stored is the scaled product minus itself. -/
theorem k1_pay3_apply (x : FVec Ideal S512x512 .f32) (w : FVec Ideal S512x256 .f32) (d : FVec Ideal S512x1 .f32)
    (p : Fin 512) (q : Fin 256) :
    Gen.k1_pay3 (F := Ideal) x w d (ix2 p q)
      = d (ix2 p (0 : Fin 1)) * (∑ k : Fin 512, x (ix2 p k) * w (ix2 k q))
        - d (ix2 p (0 : Fin 1)) * ∑ k : Fin 512, x (ix2 p k) * w (ix2 k q) := by
  unfold Gen.k1_pay3
  rw [truncf_apply, subf_apply, k1_pay1_apply]

end Cert.KernelIdeal.Pay

end
-- ==== Proof.Final1.lean ====
import proofs.«167793_g47029891891200_fold_wed_c4_674_5_alg».proof.Proof.Region1
import proofs.«167793_g47029891891200_fold_wed_c4_674_5_alg».proof.Proof.Pay1
import Idealize.ShloMosaic.Lib.Pipeline.Value
import Idealize.ShloMosaic.Lib.ValueIdx
import Idealize.ShloMosaic.Lib.Tactic

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- what each buffer of the TensorCore holds when the region is entered, at the ideal values
variable (V : (c : Dev nD) → (b : Ref sig .tc) → Buf (Elt Ideal) ((c : Thread nD τ).loc b))

/-! # Region 1, from blocks to arrays: what the two output arrays hold after the region, index by index

Point t of the 8 writes rows 512 t .. 512 t + 511 of each output; every input block is rows of the array it is cut
from (x and dinv at the same rows, W1 whole). So each output array is one function of the arrays the region finds, and
the 8 blocks cover it. -/

/-- The zero offsets of a whole-block access, as a constant function. -/
theorem hz1 : (![0, 0] : Fin 2 → Nat) = fun _ => 0 := funext fun a => by fin_cases a <;> rfl

/-- The block index maps over the 8 points: the row windows (x, dinv, and the two outputs) are at row block t,
    column block 0; W1 is at block (0, 0) at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of x's block at point t is row 512 t + p of x. -/
theorem iblk1_0_apply (c : Dev nD) (t : Fin cfg1.N) (p : Fin 512) (k : Fin 512) (i : Fin 4096) (hi : i.val = 512 * t.val + p.val) :
    (iblk1 V c 0 t : Vec Ideal S512x512 .f32) (ix2 p k) = (V c main_arg0 : S4096x512.Idx → EReal) (ix2 i k) := by
  obtain ⟨e0, e1, -⟩ := idx_facts1 t
  unfold iblk1
  rw [View.read_apply]
  show V c main_arg0 _ = V c main_arg0 _
  congr 1
  funext a; apply Fin.ext
  match a with
  | ⟨0, _⟩ => show win1_0.index t (0 : Fin 2) * 512 + 1 * p.val = i.val; rw [e0, hi]; omega
  | ⟨1, _⟩ => show win1_0.index t (1 : Fin 2) * 512 + 1 * k.val = k.val; rw [e1]; omega

/-- W1's block at every point is W1. -/
theorem iblk1_1_apply (c : Dev nD) (t : Fin cfg1.N) (k : Fin 512) (q : Fin 256) :
    (iblk1 V c 1 t : Vec Ideal S512x256 .f32) (ix2 k q) = (V c main_arg2 : S512x256.Idx → EReal) (ix2 k q) := by
  obtain ⟨-, -, e0, e1, -⟩ := idx_facts1 t
  unfold iblk1
  rw [View.read_apply]
  show V c main_arg2 _ = V c main_arg2 _
  congr 1
  funext a; apply Fin.ext
  match a with
  | ⟨0, _⟩ => show win1_1.index t (0 : Fin 2) * 512 + 1 * k.val = k.val; rw [e0]; omega
  | ⟨1, _⟩ => show win1_1.index t (1 : Fin 2) * 256 + 1 * q.val = q.val; rw [e1]; omega

/-- Row p of dinv's block at point t is row 512 t + p of dinv. -/
theorem iblk1_2_apply (c : Dev nD) (t : Fin cfg1.N) (p : Fin 512) (u : Fin 1) (i : Fin 4096) (hi : i.val = 512 * t.val + p.val) :
    (iblk1 V c 2 t : Vec Ideal S512x1 .f32) (ix2 p u) = (V c main_call0_v0_1 : S4096x1.Idx → EReal) (ix2 i u) := by
  obtain ⟨-, -, -, -, e0, e1, -⟩ := idx_facts1 t
  unfold iblk1
  rw [View.read_apply]
  show V c main_call0_v0_1 _ = V c main_call0_v0_1 _
  congr 1
  funext a; apply Fin.ext
  match a with
  | ⟨0, _⟩ => show win1_2.index t (0 : Fin 2) * 512 + 1 * p.val = i.val; rw [e0, hi]; omega
  | ⟨1, _⟩ => show win1_2.index t (1 : Fin 2) * 1 + 1 * u.val = u.val; rw [e1]; omega

/-- Where element (p, q) of the first output's block at point t sits in its array: row 512 t + p, column q. -/
theorem emb1_3 (t : Fin cfg1.N) (p : Fin 512) (q : Fin 256) (i : Fin 4096) (hi : i.val = 512 * t.val + p.val) :
    (((cfg1.win 3).blk t).view.emb (ix2 p q) : S4096x256.Idx) = ix2 i q := by
  obtain ⟨-, -, -, -, -, -, e0, e1, -⟩ := idx_facts1 t
  funext a; apply Fin.ext
  match a with
  | ⟨0, _⟩ => show win1_3.index t (0 : Fin 2) * 512 + 1 * p.val = i.val; rw [e0, hi]; omega
  | ⟨1, _⟩ => show win1_3.index t (1 : Fin 2) * 256 + 1 * q.val = q.val; rw [e1]; omega

/-- The same for the second output. -/
theorem emb1_4 (t : Fin cfg1.N) (p : Fin 512) (q : Fin 256) (i : Fin 4096) (hi : i.val = 512 * t.val + p.val) :
    (((cfg1.win 4).blk t).view.emb (ix2 p q) : S4096x256.Idx) = ix2 i q := by
  obtain ⟨-, -, -, -, -, -, -, -, e0, e1⟩ := idx_facts1 t
  funext a; apply Fin.ext
  match a with
  | ⟨0, _⟩ => show win1_4.index t (0 : Fin 2) * 512 + 1 * p.val = i.val; rw [e0, hi]; omega
  | ⟨1, _⟩ => show win1_4.index t (1 : Fin 2) * 256 + 1 * q.val = q.val; rw [e1]; omega

/-! ## The two output arrays as functions of the arrays the region finds -/

/-- The first half at row i, column q, of a column d, a matrix x and a matrix w:
    hs (i, q) = d (i, 0) * ∑ k, x (i, k) * w (k, q). -/
def hi1 (d : S4096x1.Idx → EReal) (x : S4096x512.Idx → EReal) (w : S512x256.Idx → EReal) (i : Fin 4096) (q : Fin 256) : EReal :=
  d (ix2 i (0 : Fin 1)) * ∑ k : Fin 512, x (ix2 i k) * w (ix2 k q)

/-- The second half: hs minus itself. -/
def lo1 (d : S4096x1.Idx → EReal) (x : S4096x512.Idx → EReal) (w : S512x256.Idx → EReal) (i : Fin 4096) (q : Fin 256) : EReal :=
  d (ix2 i (0 : Fin 1)) * (∑ k : Fin 512, x (ix2 i k) * w (ix2 k q)) - d (ix2 i (0 : Fin 1)) * ∑ k : Fin 512, x (ix2 i k) * w (ix2 k q)

/-- The two halves as whole arrays, of dinv, x and W1 as the region finds them. -/
def G1_3 (c : Dev nD) : S4096x256.Idx → EReal := fun j => hi1 (V c main_call0_v0_1) (V c main_arg0) (V c main_arg2) (j 0) (j 1)
def G1_4 (c : Dev nD) : S4096x256.Idx → EReal := fun j => lo1 (V c main_call0_v0_1) (V c main_arg0) (V c main_arg2) (j 0) (j 1)

/-- What the first output's block holds after the body at point t, element by element. -/
theorem out1_3_apply (c : Dev nD) (t : Fin cfg1.N) (p : Fin 512) (q : Fin 256) (i : Fin 4096) (hi : i.val = 512 * t.val + p.val) :
    out1_3 (F := Ideal) (iblk1 V c 0 t) (iblk1 V c 1 t) (iblk1 V c 2 t) (ix2 p q)
      = hi1 (V c main_call0_v0_1) (V c main_arg0) (V c main_arg2) i q := by
  unfold out1_3
  rw [View.canon_unit_zero hz1]
  simp only [View.ld_unit_zero (S := S512x512) hz1, View.ld_unit_zero (S := S512x256) hz1, View.ld_unit_zero (S := S512x1) hz1]
  refine (Pay.k1_pay2_apply _ _ _ p q).trans ?_
  unfold hi1
  rw [iblk1_2_apply V c t p 0 i hi]
  simp only [iblk1_0_apply V c t p _ i hi, iblk1_1_apply V c t]

theorem out1_4_apply (c : Dev nD) (t : Fin cfg1.N) (p : Fin 512) (q : Fin 256) (i : Fin 4096) (hi : i.val = 512 * t.val + p.val) :
    out1_4 (F := Ideal) (iblk1 V c 0 t) (iblk1 V c 1 t) (iblk1 V c 2 t) (ix2 p q)
      = lo1 (V c main_call0_v0_1) (V c main_arg0) (V c main_arg2) i q := by
  unfold out1_4
  rw [View.canon_unit_zero hz1]
  simp only [View.ld_unit_zero (S := S512x512) hz1, View.ld_unit_zero (S := S512x256) hz1, View.ld_unit_zero (S := S512x1) hz1]
  refine (Pay.k1_pay3_apply _ _ _ p q).trans ?_
  unfold lo1
  rw [iblk1_2_apply V c t p 0 i hi]
  simp only [iblk1_0_apply V c t p _ i hi, iblk1_1_apply V c t]

/-! ## From the blocks to the arrays -/

/-- What point t writes back to the first output's array is block t of G1_3: nothing of the block is cut, and its
    element (p, q) is the array's element (512 t + p, q). -/
theorem flushed1_3_eq (c : Dev nD) (t : Fin cfg1.N) :
    (dat1 V c).flushed 3 t = ((cfg1.win 3).blk t).view.read (Elt Ideal) (G1_3 V c) := by
  show (cfg1.win 3).cut (grid1.coords t) ((dat1 V c).after 3 t) = _
  rw [after1_3]
  have hN : cfg1.N = 8 := N_1
  have key : ∀ y : S512x256.Idx, out1_3 (F := Ideal) (iblk1 V c 0 t) (iblk1 V c 1 t) (iblk1 V c 2 t) y
      = G1_3 V c (((cfg1.win 3).blk t).view.emb y) := by
    intro y
    obtain ⟨p, q, rfl⟩ : ∃ (p : Fin 512) (q : Fin 256), y = ix2 p q := ⟨y 0, y 1, eq_ix2 y⟩
    have hi : 512 * t.val + p.val < 4096 := by have := t.isLt; omega
    rw [emb1_3 t p q ⟨_, hi⟩ rfl]
    exact out1_3_apply V c t p q ⟨_, hi⟩ rfl
  funext y
  exact key y

theorem flushed1_4_eq (c : Dev nD) (t : Fin cfg1.N) :
    (dat1 V c).flushed 4 t = ((cfg1.win 4).blk t).view.read (Elt Ideal) (G1_4 V c) := by
  show (cfg1.win 4).cut (grid1.coords t) ((dat1 V c).after 4 t) = _
  rw [after1_4]
  have hN : cfg1.N = 8 := N_1
  have key : ∀ y : S512x256.Idx, out1_4 (F := Ideal) (iblk1 V c 0 t) (iblk1 V c 1 t) (iblk1 V c 2 t) y
      = G1_4 V c (((cfg1.win 4).blk t).view.emb y) := by
    intro y
    obtain ⟨p, q, rfl⟩ : ∃ (p : Fin 512) (q : Fin 256), y = ix2 p q := ⟨y 0, y 1, eq_ix2 y⟩
    have hi : 512 * t.val + p.val < 4096 := by have := t.isLt; omega
    rw [emb1_4 t p q ⟨_, hi⟩ rfl]
    exact out1_4_apply V c t p q ⟨_, hi⟩ rfl
  funext y
  exact key y

/-- An index of the first output's array is in point t's block iff each coordinate is in the block's range. -/
theorem mem_blk1_3 (t : Fin cfg1.N) (i : S4096x256.Idx) :
    i ∈ ((cfg1.win 3).blk t).view.set ↔ ∀ a : Fin 2, win1_3.index t a * S512x256.size a ≤ (i a).val ∧ (i a).val < win1_3.index t a * S512x256.size a + S512x256.size a := by
  show i ∈ ((View.whole main_call0_v1_0).slice (win1_3.rect t)).set ↔ _
  rw [View.set_slice_whole, Rect.mem_set_unit]
  exact Iff.rfl

theorem mem_blk1_4 (t : Fin cfg1.N) (i : S4096x256.Idx) :
    i ∈ ((cfg1.win 4).blk t).view.set ↔ ∀ a : Fin 2, win1_4.index t a * S512x256.size a ≤ (i a).val ∧ (i a).val < win1_4.index t a * S512x256.size a + S512x256.size a := by
  show i ∈ ((View.whole main_call0_v1_1).slice (win1_4.rect t)).set ↔ _
  rw [View.set_slice_whole, Rect.mem_set_unit]
  exact Iff.rfl

/-- Every row of the array is in the block of the point that is the row divided by 512. -/
theorem covered1_3 (i : S4096x256.Idx) : ∃ t : Fin cfg1.N, (cfg1.win 3).flush t = true ∧ i ∈ ((cfg1.win 3).blk t).view.set := by
  have hN : cfg1.N = 8 := N_1
  have h0 : (i 0).val < 4096 := (i 0).isLt
  have h1 : (i 1).val < 256 := (i 1).isLt
  obtain ⟨t, ht⟩ : ∃ t : Fin cfg1.N, t.val = (i 0).val / 512 := ⟨⟨(i 0).val / 512, by rw [hN]; omega⟩, rfl⟩
  refine ⟨t, flush1_3 t, ?_⟩
  rw [mem_blk1_3]
  obtain ⟨-, -, -, -, -, -, e0, e1, -⟩ := idx_facts1 t
  intro a
  match a with
  | ⟨0, _⟩ => show win1_3.index t (0 : Fin 2) * 512 ≤ (i 0).val ∧ (i 0).val < win1_3.index t (0 : Fin 2) * 512 + 512; rw [e0, ht]; omega
  | ⟨1, _⟩ => show win1_3.index t (1 : Fin 2) * 256 ≤ (i 1).val ∧ (i 1).val < win1_3.index t (1 : Fin 2) * 256 + 256; rw [e1]; omega

theorem covered1_4 (i : S4096x256.Idx) : ∃ t : Fin cfg1.N, (cfg1.win 4).flush t = true ∧ i ∈ ((cfg1.win 4).blk t).view.set := by
  have hN : cfg1.N = 8 := N_1
  have h0 : (i 0).val < 4096 := (i 0).isLt
  have h1 : (i 1).val < 256 := (i 1).isLt
  obtain ⟨t, ht⟩ : ∃ t : Fin cfg1.N, t.val = (i 0).val / 512 := ⟨⟨(i 0).val / 512, by rw [hN]; omega⟩, rfl⟩
  refine ⟨t, flush1_4 t, ?_⟩
  rw [mem_blk1_4]
  obtain ⟨-, -, -, -, -, -, -, -, e0, e1⟩ := idx_facts1 t
  intro a
  match a with
  | ⟨0, _⟩ => show win1_4.index t (0 : Fin 2) * 512 ≤ (i 0).val ∧ (i 0).val < win1_4.index t (0 : Fin 2) * 512 + 512; rw [e0, ht]; omega
  | ⟨1, _⟩ => show win1_4.index t (1 : Fin 2) * 256 ≤ (i 1).val ∧ (i 1).val < win1_4.index t (1 : Fin 2) * 256 + 256; rw [e1]; omega

/-- The first output's array after the region: the first half of hs, whole. -/
theorem final1_3 (c : Dev nD) : (dat1 V c).arrAt 3 cfg1.N = G1_3 V c :=
  (dat1 V c).arrAt_eq_of_cover 3 (G1_3 V c) (fun t _ => flushed1_3_eq V c t) covered1_3

/-- The second output's array after the region: the second half, whole. -/
theorem final1_4 (c : Dev nD) : (dat1 V c).arrAt 4 cfg1.N = G1_4 V c :=
  (dat1 V c).arrAt_eq_of_cover 4 (G1_4 V c) (fun t _ => flushed1_4_eq V c t) covered1_4

/-- Index by index: after region 1 the first output holds, at row i and column q, dinv (i, 0) * ∑ k, x (i, k) * W1 (k, q). -/
theorem final1_hi (c : Dev nD) (i : Fin 4096) (q : Fin 256) :
    ((dat1 V c).arrAt 3 cfg1.N : S4096x256.Idx → EReal) (ix2 i q)
      = hi1 (V c main_call0_v0_1) (V c main_arg0) (V c main_arg2) i q :=
  congrFun (final1_3 V c) (ix2 i q)

/-- and the second output that same product minus itself. -/
theorem final1_lo (c : Dev nD) (i : Fin 4096) (q : Fin 256) :
    ((dat1 V c).arrAt 4 cfg1.N : S4096x256.Idx → EReal) (ix2 i q)
      = lo1 (V c main_call0_v0_1) (V c main_arg0) (V c main_arg2) i q :=
  congrFun (final1_4 V c) (ix2 i q)

end Cert.KernelIdeal.Hand

end
-- ==== Proof.Pay2.lean ====
/-
  The third launch's arithmetic read at an index, at the ideal values: the hidden layer
  `h1 (p, c) = max (dinv (p, 0) * (∑ k, A (p, k) * hi (k, c) + ∑ k, A (p, k) * lo (k, c)) + b1 (0, c)) 0`, the scaled
  second product `h2s (p, q) = dinv (p, 0) * ∑ c, h1 (p, c) * W2p (c, q)`, stored once as it is (the high part: a
  change of format is the identity on extended reals) and once as `h2s - h2s` (the low part).
-/
import proofs.«167793_g47029891891200_fold_wed_c4_674_5_alg».proof.Proof.Gen.KernelIdeal.Skeleton
import proofs.«167793_g47029891891200_fold_wed_c4_674_5_alg».proof.Proof.LibIx2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.LibIx2

/-! ## The body's value in two pieces: the hidden layer, the scaled product -/

/-- The hidden layer as the body computes it. -/
def hiddenVec (A : FVec Ideal S512x4096 .bf16) (hi lo : FVec Ideal S4096x256 .bf16) (d : FVec Ideal S512x1 .f32)
    (b1 : FVec Ideal S1x256 .f32) : FVec Ideal S512x256 .f32 :=
  maximumf
    (addf
      (mulf (broadcastTo S512x256 (shapeCast S512x1 d Gen.shapeCasts_S512x1_S512x1) Gen.broadcasts_S512x1_S512x256)
        (addf
          (matmul dot_S512x4096_S4096x256_S512x256_1_0_0_1_n_n none (shapeCast S512x4096 A Gen.shapeCasts_S512x4096_S512x4096)
            (shapeCast S4096x256 hi Gen.shapeCasts_S4096x256_S4096x256) (constant S512x256 .f32 0x00000000#32))
          (matmul dot_S512x4096_S4096x256_S512x256_1_0_0_1_n_n none (shapeCast S512x4096 A Gen.shapeCasts_S512x4096_S512x4096)
            (shapeCast S4096x256 lo Gen.shapeCasts_S4096x256_S4096x256) (constant S512x256 .f32 0x00000000#32))))
      (broadcastTo S512x256 (shapeCast S1x256 b1 Gen.shapeCasts_S1x256_S1x256) Gen.broadcasts_S1x256_S512x256))
    (broadcast S512x256 (Scalar.ofBits (F := Ideal) .f32 0x00000000#32))

/-- The scaled second product, from the hidden layer. -/
def scaledOutVec (hv : FVec Ideal S512x256 .f32) (d : FVec Ideal S512x1 .f32) (W : FVec Ideal S256x128 .f32) :
    FVec Ideal S512x128 .f32 :=
  mulf (broadcastTo S512x128 (shapeCast S512x1 d Gen.shapeCasts_S512x1_S512x1) Gen.broadcasts_S512x1_S512x128)
    (matmul dot_S512x256_S256x128_S512x128_1_0_0_1_n_n none hv (shapeCast S256x128 W Gen.shapeCasts_S256x128_S256x128)
      (constant S512x128 .f32 0x00000000#32))

/-- The payload is these two composed. -/
theorem k2_pay1_eq (A : FVec Ideal S512x4096 .bf16) (hi lo : FVec Ideal S4096x256 .bf16) (d : FVec Ideal S512x1 .f32)
    (b1 : FVec Ideal S1x256 .f32) (W : FVec Ideal S256x128 .f32) :
    Gen.k2_pay1 (F := Ideal) A hi lo d b1 W = scaledOutVec (hiddenVec A hi lo d b1) d W := by
  unfold Gen.k2_pay1 scaledOutVec hiddenVec
  rfl

/-! ## The same as extended-real arithmetic -/

/-- The hidden layer at `(p, c)`. -/
def hidden (A : FVec Ideal S512x4096 .bf16) (hi lo : FVec Ideal S4096x256 .bf16) (d : FVec Ideal S512x1 .f32)
    (b1 : FVec Ideal S1x256 .f32) (p : Fin 512) (c : Fin 256) : EReal :=
  max
    (d (ix2 p (0 : Fin 1))
        * ((∑ k : Fin 4096, A (ix2 p k) * hi (ix2 k c)) + ∑ k : Fin 4096, A (ix2 p k) * lo (ix2 k c))
      + b1 (ix2 (0 : Fin 1) c))
    0

theorem hiddenVec_apply (A : FVec Ideal S512x4096 .bf16) (hi lo : FVec Ideal S4096x256 .bf16) (d : FVec Ideal S512x1 .f32)
    (b1 : FVec Ideal S1x256 .f32) (p : Fin 512) (c : Fin 256) :
    hiddenVec A hi lo d b1 (ix2 p c) = hidden A hi lo d b1 p c := by
  unfold hiddenVec hidden
  rw [maximumf_apply, addf_apply, mulf_apply, addf_apply]
  simp only [shapeCast_self]
  refine congrArg₂ max (congrArg₂ (· + ·) (congrArg₂ (· * ·) (broadcastTo_a1_ab_apply d _ p c) (congrArg₂ (· + ·) ?_ ?_))
    (broadcastTo_1b_ab_apply b1 _ p c)) Ideal.ofBits_zero_f32
  · exact matmul_zero_ix2_apply dot_S512x4096_S4096x256_S512x256_1_0_0_1_n_n rfl rfl rfl rfl rfl rfl rfl rfl none A hi p c
  · exact matmul_zero_ix2_apply dot_S512x4096_S4096x256_S512x256_1_0_0_1_n_n rfl rfl rfl rfl rfl rfl rfl rfl none A lo p c

theorem scaledOutVec_apply (hv : FVec Ideal S512x256 .f32) (d : FVec Ideal S512x1 .f32) (W : FVec Ideal S256x128 .f32)
    (p : Fin 512) (q : Fin 128) :
    scaledOutVec hv d W (ix2 p q) = d (ix2 p (0 : Fin 1)) * ∑ c : Fin 256, hv (ix2 p c) * W (ix2 c q) := by
  unfold scaledOutVec
  rw [mulf_apply]
  simp only [shapeCast_self]
  refine congrArg₂ (· * ·) (broadcastTo_a1_ab_apply d _ p q) ?_
  exact matmul_zero_ix2_apply dot_S512x256_S256x128_S512x128_1_0_0_1_n_n rfl rfl rfl rfl rfl rfl rfl rfl none hv W p q

/-- The scaled second product at `(p, q)`. -/
theorem k2_pay1_apply (A : FVec Ideal S512x4096 .bf16) (hi lo : FVec Ideal S4096x256 .bf16) (d : FVec Ideal S512x1 .f32)
    (b1 : FVec Ideal S1x256 .f32) (W : FVec Ideal S256x128 .f32) (p : Fin 512) (q : Fin 128) :
    Gen.k2_pay1 (F := Ideal) A hi lo d b1 W (ix2 p q)
      = d (ix2 p (0 : Fin 1)) * ∑ c : Fin 256, hidden A hi lo d b1 p c * W (ix2 c q) := by
  rw [k2_pay1_eq, scaledOutVec_apply]
  refine congrArg (d (ix2 p (0 : Fin 1)) * ·) (Finset.sum_congr rfl fun c _ => ?_)
  rw [hiddenVec_apply]

/-- The high part stored is the scaled second product. -/
theorem k2_pay2_apply (A : FVec Ideal S512x4096 .bf16) (hi lo : FVec Ideal S4096x256 .bf16) (d : FVec Ideal S512x1 .f32)
    (b1 : FVec Ideal S1x256 .f32) (W : FVec Ideal S256x128 .f32) (p : Fin 512) (q : Fin 128) :
    Gen.k2_pay2 (F := Ideal) A hi lo d b1 W (ix2 p q)
      = d (ix2 p (0 : Fin 1)) * ∑ c : Fin 256, hidden A hi lo d b1 p c * W (ix2 c q) := by
  unfold Gen.k2_pay2
  rw [truncf_apply]
  exact k2_pay1_apply A hi lo d b1 W p q

/-- The low part stored is the scaled second product minus itself. -/
theorem k2_pay3_apply (A : FVec Ideal S512x4096 .bf16) (hi lo : FVec Ideal S4096x256 .bf16) (d : FVec Ideal S512x1 .f32)
    (b1 : FVec Ideal S1x256 .f32) (W : FVec Ideal S256x128 .f32) (p : Fin 512) (q : Fin 128) :
    Gen.k2_pay3 (F := Ideal) A hi lo d b1 W (ix2 p q)
      = d (ix2 p (0 : Fin 1)) * (∑ c : Fin 256, hidden A hi lo d b1 p c * W (ix2 c q))
        - d (ix2 p (0 : Fin 1)) * ∑ c : Fin 256, hidden A hi lo d b1 p c * W (ix2 c q) := by
  unfold Gen.k2_pay3
  rw [truncf_apply, subf_apply, k2_pay1_apply]

end Cert.KernelIdeal.Pay

end
-- ==== Proof.Final2.lean ====
import proofs.«167793_g47029891891200_fold_wed_c4_674_5_alg».proof.Proof.Region2
import proofs.«167793_g47029891891200_fold_wed_c4_674_5_alg».proof.Proof.Pay2
import Idealize.ShloMosaic.Lib.Pipeline.Value
import Idealize.ShloMosaic.Lib.ValueIdx
import Idealize.ShloMosaic.Lib.Tactic

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- what each buffer of the TensorCore holds when the region is entered, at the ideal values
variable (V : (c : Dev nD) → (b : Ref sig .tc) → Buf (Elt Ideal) ((c : Thread nD τ).loc b))

/-! # Region 2, from blocks to arrays: what the two output arrays hold after the region, index by index

Point t of the 8 writes rows 512 t .. 512 t + 511 of each output; the blocks of A and dinv are the same rows of their
arrays, and the two halves of the first layer, the bias row and the padded weights are whole. So each output array is
one function of the arrays the region finds, and the 8 blocks cover it. -/

/-- The zero offsets of a whole-block access, as a constant function. -/
theorem hz2 : (![0, 0] : Fin 2 → Nat) = fun _ => 0 := funext fun a => by fin_cases a <;> rfl

/-- The block index maps over the 8 points: a window over rows is at row block t, column block 0; a window whose block
    is its whole array is at block (0, 0) at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row p of window 0's block at point t is row 512 t + p of its array. -/
theorem iblk2_0_apply (c : Dev nD) (t : Fin cfg2.N) (p : Fin 512) (k : Fin 4096) (i : Fin 4096) (hi : i.val = 512 * t.val + p.val) :
    (iblk2 V c 0 t : Vec Ideal S512x4096 .bf16) (ix2 p k) = (V c main_call0_v0_0 : S4096x4096.Idx → EReal) (ix2 i k) := by
  obtain ⟨e0_0, e0_1, e1_0, e1_1, e2_0, e2_1, e3_0, e3_1, e4_0, e4_1, e5_0, e5_1, e6_0, e6_1, e7_0, e7_1⟩ := idx_facts2 t
  unfold iblk2
  rw [View.read_apply]
  show V c main_call0_v0_0 _ = V c main_call0_v0_0 _
  congr 1
  funext a; apply Fin.ext
  match a with
  | ⟨0, _⟩ => show win2_0.index t (0 : Fin 2) * 512 + 1 * p.val = i.val; rw [e0_0, hi]; omega
  | ⟨1, _⟩ => show win2_0.index t (1 : Fin 2) * 4096 + 1 * k.val = k.val; rw [e0_1]; omega

/-- Window 1's block at every point is its whole array. -/
theorem iblk2_1_apply (c : Dev nD) (t : Fin cfg2.N) (k : Fin 4096) (q : Fin 256) :
    (iblk2 V c 1 t : Vec Ideal S4096x256 .bf16) (ix2 k q) = (V c main_call0_v1_0 : S4096x256.Idx → EReal) (ix2 k q) := by
  obtain ⟨e0_0, e0_1, e1_0, e1_1, e2_0, e2_1, e3_0, e3_1, e4_0, e4_1, e5_0, e5_1, e6_0, e6_1, e7_0, e7_1⟩ := idx_facts2 t
  unfold iblk2
  rw [View.read_apply]
  show V c main_call0_v1_0 _ = V c main_call0_v1_0 _
  congr 1
  funext a; apply Fin.ext
  match a with
  | ⟨0, _⟩ => show win2_1.index t (0 : Fin 2) * 4096 + 1 * k.val = k.val; rw [e1_0]; omega
  | ⟨1, _⟩ => show win2_1.index t (1 : Fin 2) * 256 + 1 * q.val = q.val; rw [e1_1]; omega

/-- Window 2's block at every point is its whole array. -/
theorem iblk2_2_apply (c : Dev nD) (t : Fin cfg2.N) (k : Fin 4096) (q : Fin 256) :
    (iblk2 V c 2 t : Vec Ideal S4096x256 .bf16) (ix2 k q) = (V c main_call0_v1_1 : S4096x256.Idx → EReal) (ix2 k q) := by
  obtain ⟨e0_0, e0_1, e1_0, e1_1, e2_0, e2_1, e3_0, e3_1, e4_0, e4_1, e5_0, e5_1, e6_0, e6_1, e7_0, e7_1⟩ := idx_facts2 t
  unfold iblk2
  rw [View.read_apply]
  show V c main_call0_v1_1 _ = V c main_call0_v1_1 _
  congr 1
  funext a; apply Fin.ext
  match a with
  | ⟨0, _⟩ => show win2_2.index t (0 : Fin 2) * 4096 + 1 * k.val = k.val; rw [e2_0]; omega
  | ⟨1, _⟩ => show win2_2.index t (1 : Fin 2) * 256 + 1 * q.val = q.val; rw [e2_1]; omega

/-- Row p of window 3's block at point t is row 512 t + p of its array. -/
theorem iblk2_3_apply (c : Dev nD) (t : Fin cfg2.N) (p : Fin 512) (k : Fin 1) (i : Fin 4096) (hi : i.val = 512 * t.val + p.val) :
    (iblk2 V c 3 t : Vec Ideal S512x1 .f32) (ix2 p k) = (V c main_call0_v0_1 : S4096x1.Idx → EReal) (ix2 i k) := by
  obtain ⟨e0_0, e0_1, e1_0, e1_1, e2_0, e2_1, e3_0, e3_1, e4_0, e4_1, e5_0, e5_1, e6_0, e6_1, e7_0, e7_1⟩ := idx_facts2 t
  unfold iblk2
  rw [View.read_apply]
  show V c main_call0_v0_1 _ = V c main_call0_v0_1 _
  congr 1
  funext a; apply Fin.ext
  match a with
  | ⟨0, _⟩ => show win2_3.index t (0 : Fin 2) * 512 + 1 * p.val = i.val; rw [e3_0, hi]; omega
  | ⟨1, _⟩ => show win2_3.index t (1 : Fin 2) * 1 + 1 * k.val = k.val; rw [e3_1]; omega

/-- Window 4's block at every point is its whole array. -/
theorem iblk2_4_apply (c : Dev nD) (t : Fin cfg2.N) (k : Fin 1) (q : Fin 256) :
    (iblk2 V c 4 t : Vec Ideal S1x256 .f32) (ix2 k q) = (V c main_call0_v10 : S1x256.Idx → EReal) (ix2 k q) := by
  obtain ⟨e0_0, e0_1, e1_0, e1_1, e2_0, e2_1, e3_0, e3_1, e4_0, e4_1, e5_0, e5_1, e6_0, e6_1, e7_0, e7_1⟩ := idx_facts2 t
  unfold iblk2
  rw [View.read_apply]
  show V c main_call0_v10 _ = V c main_call0_v10 _
  congr 1
  funext a; apply Fin.ext
  match a with
  | ⟨0, _⟩ => show win2_4.index t (0 : Fin 2) * 1 + 1 * k.val = k.val; rw [e4_0]; omega
  | ⟨1, _⟩ => show win2_4.index t (1 : Fin 2) * 256 + 1 * q.val = q.val; rw [e4_1]; omega

/-- Window 5's block at every point is its whole array. -/
theorem iblk2_5_apply (c : Dev nD) (t : Fin cfg2.N) (k : Fin 256) (q : Fin 128) :
    (iblk2 V c 5 t : Vec Ideal S256x128 .f32) (ix2 k q) = (V c main_call0_v4 : S256x128.Idx → EReal) (ix2 k q) := by
  obtain ⟨e0_0, e0_1, e1_0, e1_1, e2_0, e2_1, e3_0, e3_1, e4_0, e4_1, e5_0, e5_1, e6_0, e6_1, e7_0, e7_1⟩ := idx_facts2 t
  unfold iblk2
  rw [View.read_apply]
  show V c main_call0_v4 _ = V c main_call0_v4 _
  congr 1
  funext a; apply Fin.ext
  match a with
  | ⟨0, _⟩ => show win2_5.index t (0 : Fin 2) * 256 + 1 * k.val = k.val; rw [e5_0]; omega
  | ⟨1, _⟩ => show win2_5.index t (1 : Fin 2) * 128 + 1 * q.val = q.val; rw [e5_1]; omega

/-- Where element (p, q) of output window 6's block at point t sits in its array: row 512 t + p, column q. -/
theorem emb2_6 (t : Fin cfg2.N) (p : Fin 512) (q : Fin 128) (i : Fin 4096) (hi : i.val = 512 * t.val + p.val) :
    (((cfg2.win 6).blk t).view.emb (ix2 p q) : S4096x128.Idx) = ix2 i q := by
  obtain ⟨e0_0, e0_1, e1_0, e1_1, e2_0, e2_1, e3_0, e3_1, e4_0, e4_1, e5_0, e5_1, e6_0, e6_1, e7_0, e7_1⟩ := idx_facts2 t
  funext a; apply Fin.ext
  match a with
  | ⟨0, _⟩ => show win2_6.index t (0 : Fin 2) * 512 + 1 * p.val = i.val; rw [e6_0, hi]; omega
  | ⟨1, _⟩ => show win2_6.index t (1 : Fin 2) * 128 + 1 * q.val = q.val; rw [e6_1]; omega

/-- Where element (p, q) of output window 7's block at point t sits in its array: row 512 t + p, column q. -/
theorem emb2_7 (t : Fin cfg2.N) (p : Fin 512) (q : Fin 128) (i : Fin 4096) (hi : i.val = 512 * t.val + p.val) :
    (((cfg2.win 7).blk t).view.emb (ix2 p q) : S4096x128.Idx) = ix2 i q := by
  obtain ⟨e0_0, e0_1, e1_0, e1_1, e2_0, e2_1, e3_0, e3_1, e4_0, e4_1, e5_0, e5_1, e6_0, e6_1, e7_0, e7_1⟩ := idx_facts2 t
  funext a; apply Fin.ext
  match a with
  | ⟨0, _⟩ => show win2_7.index t (0 : Fin 2) * 512 + 1 * p.val = i.val; rw [e7_0, hi]; omega
  | ⟨1, _⟩ => show win2_7.index t (1 : Fin 2) * 128 + 1 * q.val = q.val; rw [e7_1]; omega

/-! ## The two output arrays as functions of the arrays the region finds -/

/-- The hidden layer at row i, column m, of the 0/1 matrix A, the two halves hi, lo, the column d and the bias row:
    h1 (i, m) = max (d (i, 0) * (∑ k, A (i, k) * hi (k, m) + ∑ k, A (i, k) * lo (k, m)) + b1 (0, m)) 0. -/
def hidden2 (A : S4096x4096.Idx → EReal) (hi lo : S4096x256.Idx → EReal) (d : S4096x1.Idx → EReal) (b1 : S1x256.Idx → EReal) (i : Fin 4096) (m : Fin 256) : EReal :=
  max
    (d (ix2 i (0 : Fin 1))
        * ((∑ k : Fin 4096, A (ix2 i k) * hi (ix2 k m)) + ∑ k : Fin 4096, A (ix2 i k) * lo (ix2 k m))
      + b1 (ix2 (0 : Fin 1) m))
    0

/-- The first half at row i, column q: h2s (i, q) = d (i, 0) * ∑ m, h1 (i, m) * W (m, q). -/
def hi2 (A : S4096x4096.Idx → EReal) (hi lo : S4096x256.Idx → EReal) (d : S4096x1.Idx → EReal) (b1 : S1x256.Idx → EReal) (W : S256x128.Idx → EReal) (i : Fin 4096) (q : Fin 128) : EReal :=
  d (ix2 i (0 : Fin 1)) * ∑ m : Fin 256, hidden2 A hi lo d b1 i m * W (ix2 m q)

/-- The second half: h2s minus itself. -/
def lo2 (A : S4096x4096.Idx → EReal) (hi lo : S4096x256.Idx → EReal) (d : S4096x1.Idx → EReal) (b1 : S1x256.Idx → EReal) (W : S256x128.Idx → EReal) (i : Fin 4096) (q : Fin 128) : EReal :=
  d (ix2 i (0 : Fin 1)) * (∑ m : Fin 256, hidden2 A hi lo d b1 i m * W (ix2 m q))
    - d (ix2 i (0 : Fin 1)) * ∑ m : Fin 256, hidden2 A hi lo d b1 i m * W (ix2 m q)

/-- The two halves as whole arrays, of A, the two halves of the first layer, dinv, the bias row and the padded
    weights as the region finds them. -/
def G2_6 (c : Dev nD) : S4096x128.Idx → EReal := fun j => hi2 (V c main_call0_v0_0) (V c main_call0_v1_0) (V c main_call0_v1_1) (V c main_call0_v0_1) (V c main_call0_v10) (V c main_call0_v4) (j 0) (j 1)
def G2_7 (c : Dev nD) : S4096x128.Idx → EReal := fun j => lo2 (V c main_call0_v0_0) (V c main_call0_v1_0) (V c main_call0_v1_1) (V c main_call0_v0_1) (V c main_call0_v10) (V c main_call0_v4) (j 0) (j 1)

/-- The hidden layer of a block's row p is the hidden layer of the array's row 512 t + p. -/
theorem hidden_blk2 (c : Dev nD) (t : Fin cfg2.N) (p : Fin 512) (m : Fin 256) (i : Fin 4096) (hi : i.val = 512 * t.val + p.val) :
    Pay.hidden (iblk2 V c 0 t) (iblk2 V c 1 t) (iblk2 V c 2 t) (iblk2 V c 3 t) (iblk2 V c 4 t) p m = hidden2 (V c main_call0_v0_0) (V c main_call0_v1_0) (V c main_call0_v1_1) (V c main_call0_v0_1) (V c main_call0_v10) i m := by
  unfold Pay.hidden hidden2
  rw [iblk2_3_apply V c t p 0 i hi, iblk2_4_apply V c t 0 m]
  simp only [iblk2_0_apply V c t p _ i hi, iblk2_1_apply V c t, iblk2_2_apply V c t]

/-- What the first output's block holds after the body at point t, element by element. -/
theorem out2_6_apply (c : Dev nD) (t : Fin cfg2.N) (p : Fin 512) (q : Fin 128) (i : Fin 4096) (hi : i.val = 512 * t.val + p.val) :
    out2_6 (F := Ideal) (iblk2 V c 0 t) (iblk2 V c 1 t) (iblk2 V c 2 t) (iblk2 V c 3 t) (iblk2 V c 4 t) (iblk2 V c 5 t) (ix2 p q) = hi2 (V c main_call0_v0_0) (V c main_call0_v1_0) (V c main_call0_v1_1) (V c main_call0_v0_1) (V c main_call0_v10) (V c main_call0_v4) i q := by
  unfold out2_6
  rw [View.canon_unit_zero hz2]
  simp only [View.ld_unit_zero (S := S512x4096) hz2, View.ld_unit_zero (S := S4096x256) hz2, View.ld_unit_zero (S := S512x1) hz2, View.ld_unit_zero (S := S1x256) hz2, View.ld_unit_zero (S := S256x128) hz2]
  refine (Pay.k2_pay2_apply _ _ _ _ _ _ p q).trans ?_
  unfold hi2
  rw [iblk2_3_apply V c t p 0 i hi]
  simp only [hidden_blk2 V c t p _ i hi, iblk2_5_apply V c t]

theorem out2_7_apply (c : Dev nD) (t : Fin cfg2.N) (p : Fin 512) (q : Fin 128) (i : Fin 4096) (hi : i.val = 512 * t.val + p.val) :
    out2_7 (F := Ideal) (iblk2 V c 0 t) (iblk2 V c 1 t) (iblk2 V c 2 t) (iblk2 V c 3 t) (iblk2 V c 4 t) (iblk2 V c 5 t) (ix2 p q) = lo2 (V c main_call0_v0_0) (V c main_call0_v1_0) (V c main_call0_v1_1) (V c main_call0_v0_1) (V c main_call0_v10) (V c main_call0_v4) i q := by
  unfold out2_7
  rw [View.canon_unit_zero hz2]
  simp only [View.ld_unit_zero (S := S512x4096) hz2, View.ld_unit_zero (S := S4096x256) hz2, View.ld_unit_zero (S := S512x1) hz2, View.ld_unit_zero (S := S1x256) hz2, View.ld_unit_zero (S := S256x128) hz2]
  refine (Pay.k2_pay3_apply _ _ _ _ _ _ p q).trans ?_
  unfold lo2
  rw [iblk2_3_apply V c t p 0 i hi]
  simp only [hidden_blk2 V c t p _ i hi, iblk2_5_apply V c t]

/-! ## From the blocks to the arrays -/

/-- What point t writes back to output window 6's array is block t of G2_6: nothing of the block is cut, and its
    element (p, q) is the array's element (512 t + p, q). -/
theorem flushed2_6_eq (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]
  have hN : cfg2.N = 8 := N_2
  have key : ∀ y : S512x128.Idx, out2_6 (F := Ideal) (iblk2 V c 0 t) (iblk2 V c 1 t) (iblk2 V c 2 t) (iblk2 V c 3 t) (iblk2 V c 4 t) (iblk2 V c 5 t) y
      = G2_6 V c (((cfg2.win 6).blk t).view.emb y) := by
    intro y
    obtain ⟨p, q, rfl⟩ : ∃ (p : Fin 512) (q : Fin 128), y = ix2 p q := ⟨y 0, y 1, eq_ix2 y⟩
    have hi : 512 * t.val + p.val < 4096 := by have := t.isLt; omega
    rw [emb2_6 t p q ⟨_, hi⟩ rfl]
    exact out2_6_apply V c t p q ⟨_, hi⟩ rfl
  funext y
  exact key y

/-- An index of the array is in point t's block iff each coordinate is in the block's range. -/
theorem mem_blk2_6 (t : Fin cfg2.N) (i : S4096x128.Idx) :
    i ∈ ((cfg2.win 6).blk t).view.set ↔ ∀ a : Fin 2, win2_6.index t a * S512x128.size a ≤ (i a).val ∧ (i a).val < win2_6.index t a * S512x128.size a + S512x128.size a := by
  show i ∈ ((View.whole main_call0_v11_0).slice (win2_6.rect t)).set ↔ _
  rw [View.set_slice_whole, Rect.mem_set_unit]
  exact Iff.rfl

/-- Every row of the array is in the block of the point that is the row divided by 512. -/
theorem covered2_6 (i : S4096x128.Idx) : ∃ t : Fin cfg2.N, (cfg2.win 6).flush t = true ∧ i ∈ ((cfg2.win 6).blk t).view.set := by
  have hN : cfg2.N = 8 := N_2
  have h0 : (i 0).val < 4096 := (i 0).isLt
  have h1 : (i 1).val < 128 := (i 1).isLt
  obtain ⟨t, ht⟩ : ∃ t : Fin cfg2.N, t.val = (i 0).val / 512 := ⟨⟨(i 0).val / 512, by rw [hN]; omega⟩, rfl⟩
  refine ⟨t, flush2_6 t, ?_⟩
  rw [mem_blk2_6]
  obtain ⟨e0_0, e0_1, e1_0, e1_1, e2_0, e2_1, e3_0, e3_1, e4_0, e4_1, e5_0, e5_1, e6_0, e6_1, e7_0, e7_1⟩ := idx_facts2 t
  intro a
  match a with
  | ⟨0, _⟩ => show win2_6.index t (0 : Fin 2) * 512 ≤ (i 0).val ∧ (i 0).val < win2_6.index t (0 : Fin 2) * 512 + 512; rw [e6_0, ht]; omega
  | ⟨1, _⟩ => show win2_6.index t (1 : Fin 2) * 128 ≤ (i 1).val ∧ (i 1).val < win2_6.index t (1 : Fin 2) * 128 + 128; rw [e6_1]; omega

/-- The first output's array after region 2: the first half of h2s, whole. -/
theorem final2_6 (c : Dev nD) : (dat2 V c).arrAt 6 cfg2.N = G2_6 V c :=
  (dat2 V c).arrAt_eq_of_cover 6 (G2_6 V c) (fun t _ => flushed2_6_eq V c t) covered2_6

/-- What point t writes back to output window 7's array is block t of G2_7: nothing of the block is cut, and its
    element (p, q) is the array's element (512 t + p, q). -/
theorem flushed2_7_eq (c : Dev nD) (t : Fin cfg2.N) :
    (dat2 V c).flushed 7 t = ((cfg2.win 7).blk t).view.read (Elt Ideal) (G2_7 V c) := by
  show (cfg2.win 7).cut (grid2.coords t) ((dat2 V c).after 7 t) = _
  rw [after2_7]
  have hN : cfg2.N = 8 := N_2
  have key : ∀ y : S512x128.Idx, out2_7 (F := Ideal) (iblk2 V c 0 t) (iblk2 V c 1 t) (iblk2 V c 2 t) (iblk2 V c 3 t) (iblk2 V c 4 t) (iblk2 V c 5 t) y
      = G2_7 V c (((cfg2.win 7).blk t).view.emb y) := by
    intro y
    obtain ⟨p, q, rfl⟩ : ∃ (p : Fin 512) (q : Fin 128), y = ix2 p q := ⟨y 0, y 1, eq_ix2 y⟩
    have hi : 512 * t.val + p.val < 4096 := by have := t.isLt; omega
    rw [emb2_7 t p q ⟨_, hi⟩ rfl]
    exact out2_7_apply V c t p q ⟨_, hi⟩ rfl
  funext y
  exact key y

/-- An index of the array is in point t's block iff each coordinate is in the block's range. -/
theorem mem_blk2_7 (t : Fin cfg2.N) (i : S4096x128.Idx) :
    i ∈ ((cfg2.win 7).blk t).view.set ↔ ∀ a : Fin 2, win2_7.index t a * S512x128.size a ≤ (i a).val ∧ (i a).val < win2_7.index t a * S512x128.size a + S512x128.size a := by
  show i ∈ ((View.whole main_call0_v11_1).slice (win2_7.rect t)).set ↔ _
  rw [View.set_slice_whole, Rect.mem_set_unit]
  exact Iff.rfl

/-- Every row of the array is in the block of the point that is the row divided by 512. -/
theorem covered2_7 (i : S4096x128.Idx) : ∃ t : Fin cfg2.N, (cfg2.win 7).flush t = true ∧ i ∈ ((cfg2.win 7).blk t).view.set := by
  have hN : cfg2.N = 8 := N_2
  have h0 : (i 0).val < 4096 := (i 0).isLt
  have h1 : (i 1).val < 128 := (i 1).isLt
  obtain ⟨t, ht⟩ : ∃ t : Fin cfg2.N, t.val = (i 0).val / 512 := ⟨⟨(i 0).val / 512, by rw [hN]; omega⟩, rfl⟩
  refine ⟨t, flush2_7 t, ?_⟩
  rw [mem_blk2_7]
  obtain ⟨e0_0, e0_1, e1_0, e1_1, e2_0, e2_1, e3_0, e3_1, e4_0, e4_1, e5_0, e5_1, e6_0, e6_1, e7_0, e7_1⟩ := idx_facts2 t
  intro a
  match a with
  | ⟨0, _⟩ => show win2_7.index t (0 : Fin 2) * 512 ≤ (i 0).val ∧ (i 0).val < win2_7.index t (0 : Fin 2) * 512 + 512; rw [e7_0, ht]; omega
  | ⟨1, _⟩ => show win2_7.index t (1 : Fin 2) * 128 ≤ (i 1).val ∧ (i 1).val < win2_7.index t (1 : Fin 2) * 128 + 128; rw [e7_1]; omega

/-- The second output's array after region 2: the second half, whole. -/
theorem final2_7 (c : Dev nD) : (dat2 V c).arrAt 7 cfg2.N = G2_7 V c :=
  (dat2 V c).arrAt_eq_of_cover 7 (G2_7 V c) (fun t _ => flushed2_7_eq V c t) covered2_7

/-- Index by index: after region 2 the first output holds, at row i and column q, dinv (i, 0) * ∑ m, h1 (i, m) * W2p (m, q), -/
theorem final2_hi (c : Dev nD) (i : Fin 4096) (q : Fin 128) :
    ((dat2 V c).arrAt 6 cfg2.N : S4096x128.Idx → EReal) (ix2 i q) = hi2 (V c main_call0_v0_0) (V c main_call0_v1_0) (V c main_call0_v1_1) (V c main_call0_v0_1) (V c main_call0_v10) (V c main_call0_v4) i q :=
  congrFun (final2_6 V c) (ix2 i q)

/-- and the second output that same product minus itself. -/
theorem final2_lo (c : Dev nD) (i : Fin 4096) (q : Fin 128) :
    ((dat2 V c).arrAt 7 cfg2.N : S4096x128.Idx → EReal) (ix2 i q) = lo2 (V c main_call0_v0_0) (V c main_call0_v1_0) (V c main_call0_v1_1) (V c main_call0_v0_1) (V c main_call0_v10) (V c main_call0_v4) i q :=
  congrFun (final2_7 V c) (ix2 i q)

end Cert.KernelIdeal.Hand

end
-- ==== Proof.Pay3.lean ====
/-
  The fourth launch's arithmetic read at an index, at the ideal values: the logits
  `z (p, q) = dinv (p, 0) * (∑ k, A (p, k) * hi (k, q) + ∑ k, A (p, k) * lo (k, q)) + b2p (0, q)`, and the one value
  stored, `z (p, q) - (m p + log (s p))`, with `m p` the maximum and `s p` the sum of `exp (z - m)` over the lanes of
  row `p` masked by "the lane is below two" (the masked lanes count as `-∞` in the maximum and as zero in the sum).
-/
import proofs.«167793_g47029891891200_fold_wed_c4_674_5_alg».proof.Proof.Gen.KernelIdeal.Skeleton
import proofs.«167793_g47029891891200_fold_wed_c4_674_5_alg».proof.Proof.LibIx2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.LibIx2

/-! ## The lane mask -/

/-- "The lane is below two", decided on the 128 lanes. -/
theorem lane_slt_two : ∀ q : Fin 128, IntOp.cmpi .slt (BitVec.ofNat 32 q.val) 2#32 = if q.val < 2 then 1#1 else 0#1 := by
  decide

/-- The mask the body builds from the lane iota. -/
abbrev laneMask : IVec S512x128 1 :=
  cmpi .slt (iota .tc S512x128 32 [1] Gen.iota_S512x128_d1_w32) (broadcast S512x128 2#32)

theorem laneMask_apply (p : Fin 512) (q : Fin 128) : laneMask (ix2 p q) = if q.val < 2 then 1#1 else 0#1 := by
  show IntOp.cmpi .slt (iota .tc S512x128 32 [1] Gen.iota_S512x128_d1_w32 (ix2 p q)) 2#32 = _
  rw [iota_single_apply .tc S512x128 32 1 Gen.iota_S512x128_d1_w32 (ix2 p q)]
  exact lane_slt_two q

/-- A select on the mask is the `if` on the lane. -/
theorem select_laneMask_apply {α : Type} (a b : S512x128.Idx → α) (p : Fin 512) (q : Fin 128) :
    select laneMask a b (ix2 p q) = if q.val < 2 then a (ix2 p q) else b (ix2 p q) := by
  rw [select_apply, laneMask_apply]
  by_cases h : q.val < 2
  · rw [if_pos h, if_pos h]; exact select_one _ _
  · rw [if_neg h, if_neg h]; exact select_zero _ _

/-! ## The body's value in three pieces: the logits, the row statistics, the store -/

/-- The logits as the body computes them. -/
def logitsVec (A : FVec Ideal S512x4096 .bf16) (hi lo : FVec Ideal S4096x128 .bf16) (d : FVec Ideal S512x1 .f32)
    (bias : FVec Ideal S1x128 .f32) : FVec Ideal S512x128 .f32 :=
  addf
    (mulf (broadcastTo S512x128 (shapeCast S512x1 d Gen.shapeCasts_S512x1_S512x1) Gen.broadcasts_S512x1_S512x128)
      (addf
        (matmul dot_S512x4096_S4096x128_S512x128_1_0_0_1_n_n none (shapeCast S512x4096 A Gen.shapeCasts_S512x4096_S512x4096)
          (shapeCast S4096x128 hi Gen.shapeCasts_S4096x128_S4096x128) (constant S512x128 .f32 0x00000000#32))
        (matmul dot_S512x4096_S4096x128_S512x128_1_0_0_1_n_n none (shapeCast S512x4096 A Gen.shapeCasts_S512x4096_S512x4096)
          (shapeCast S4096x128 lo Gen.shapeCasts_S4096x128_S4096x128) (constant S512x128 .f32 0x00000000#32))))
    (broadcastTo S512x128 (shapeCast S1x128 bias Gen.shapeCasts_S1x128_S1x128) Gen.broadcasts_S1x128_S512x128)

/-- The masked row maximum of a [512, 128] vector, as a column. -/
def rowMaxVec (zv : FVec Ideal S512x128 .f32) : FVec Ideal S512x1 .f32 :=
  shapeCast S512x1
    (multiReduction .maximumf [1] S512 (select laneMask zv (broadcast S512x128 (Scalar.ofBits (F := Ideal) .f32 0xFF800000#32)))
      0xFF800000#32 Gen.reduces_S512x128_S512 (.inl rfl) rfl)
    Gen.shapeCasts_S512_S512x1

/-- The masked row sum of `exp (z - m)`, as a column. -/
def rowSumExpVec (zv : FVec Ideal S512x128 .f32) : FVec Ideal S512x1 .f32 :=
  shapeCast S512x1
    (multiReduction .add [1] S512
      (select laneMask (exp (subf zv (broadcastTo S512x128 (rowMaxVec zv) Gen.broadcasts_S512x1_S512x128)))
        (broadcast S512x128 (Scalar.ofBits (F := Ideal) .f32 0x00000000#32)))
      0x00000000#32 Gen.reduces_S512x128_S512 (.inl rfl) rfl)
    Gen.shapeCasts_S512_S512x1

/-- What is stored, from the logits. -/
def logSoftmaxVec (zv : FVec Ideal S512x128 .f32) : FVec Ideal S512x128 .f32 :=
  subf zv (broadcastTo S512x128 (addf (rowMaxVec zv) (log (rowSumExpVec zv))) Gen.broadcasts_S512x1_S512x128)

/-- The payload is these three composed. -/
theorem k3_pay1_eq (A : FVec Ideal S512x4096 .bf16) (hi lo : FVec Ideal S4096x128 .bf16) (d : FVec Ideal S512x1 .f32)
    (bias : FVec Ideal S1x128 .f32) :
    Gen.k3_pay1 (F := Ideal) A hi lo d bias = logSoftmaxVec (logitsVec A hi lo d bias) := by
  unfold Gen.k3_pay1 logSoftmaxVec rowSumExpVec rowMaxVec logitsVec
  rfl

/-! ## The same as extended-real arithmetic -/

/-- The logit at `(p, q)`. -/
def logit (A : FVec Ideal S512x4096 .bf16) (hi lo : FVec Ideal S4096x128 .bf16) (d : FVec Ideal S512x1 .f32)
    (bias : FVec Ideal S1x128 .f32) (p : Fin 512) (q : Fin 128) : EReal :=
  d (ix2 p (0 : Fin 1))
      * ((∑ k : Fin 4096, A (ix2 p k) * hi (ix2 k q)) + ∑ k : Fin 4096, A (ix2 p k) * lo (ix2 k q))
    + bias (ix2 (0 : Fin 1) q)

theorem logitsVec_apply (A : FVec Ideal S512x4096 .bf16) (hi lo : FVec Ideal S4096x128 .bf16) (d : FVec Ideal S512x1 .f32)
    (bias : FVec Ideal S1x128 .f32) (p : Fin 512) (q : Fin 128) :
    logitsVec A hi lo d bias (ix2 p q) = logit A hi lo d bias p q := by
  unfold logitsVec logit
  rw [addf_apply, mulf_apply, addf_apply]
  simp only [shapeCast_self]
  refine congrArg₂ (· + ·) (congrArg₂ (· * ·) (broadcastTo_a1_ab_apply d _ p q) (congrArg₂ (· + ·) ?_ ?_))
    (broadcastTo_1b_ab_apply bias _ p q)
  · exact matmul_zero_ix2_apply dot_S512x4096_S4096x128_S512x128_1_0_0_1_n_n rfl rfl rfl rfl rfl rfl rfl rfl none A hi p q
  · exact matmul_zero_ix2_apply dot_S512x4096_S4096x128_S512x128_1_0_0_1_n_n rfl rfl rfl rfl rfl rfl rfl rfl none A lo p q

/-- The masked maximum of row `p` of `z`: the fold of `max` from `-∞`'s word over the 128 lanes, a lane at or past two
    counting as that word's value. -/
def rowMax (z : Fin 512 → Fin 128 → EReal) (p : Fin 512) : EReal :=
  (Finset.univ : Finset (Fin 128)).fold max (Ideal.ofBits .f32 0xFF800000#32)
    (fun c => if c.val < 2 then z p c else Ideal.ofBits .f32 0xFF800000#32)

/-- The masked sum of row `p` of `exp (z - m)`: a lane at or past two counts as zero. -/
def rowSumExp (z : Fin 512 → Fin 128 → EReal) (p : Fin 512) : EReal :=
  ∑ c : Fin 128, if c.val < 2 then Ideal.exp (z p c - rowMax z p) else 0

theorem rowMaxVec_apply (zv : FVec Ideal S512x128 .f32) (p : Fin 512) (u : Fin 1) :
    rowMaxVec zv (ix2 p u) = rowMax (fun p q => zv (ix2 p q)) p := by
  unfold rowMaxVec rowMax
  refine (shapeCast_a_a1_apply _ _ p u).trans ?_
  refine (multiReduction_maximumf_lanes_apply _ _ _ _ _ p).trans ?_
  refine congrArg (fun f => (Finset.univ : Finset (Fin 128)).fold max (Ideal.ofBits .f32 0xFF800000#32) f) ?_
  funext c
  exact select_laneMask_apply _ _ p c

theorem rowSumExpVec_apply (zv : FVec Ideal S512x128 .f32) (p : Fin 512) (u : Fin 1) :
    rowSumExpVec zv (ix2 p u) = rowSumExp (fun p q => zv (ix2 p q)) p := by
  unfold rowSumExpVec rowSumExp
  refine (shapeCast_a_a1_apply _ _ p u).trans ?_
  refine (multiReduction_add_lanes_apply _ _ _ _ _ p).trans ?_
  refine Finset.sum_congr rfl fun c _ => ?_
  refine (select_laneMask_apply _ _ p c).trans ?_
  by_cases h : c.val < 2
  · rw [if_pos h, if_pos h]
    show Ideal.exp (zv (ix2 p c) - broadcastTo S512x128 (rowMaxVec zv) Gen.broadcasts_S512x1_S512x128 (ix2 p c)) = _
    rw [broadcastTo_a1_ab_apply (rowMaxVec zv) _ p c, rowMaxVec_apply]
  · rw [if_neg h, if_neg h]
    exact Ideal.ofBits_zero_f32

theorem logSoftmaxVec_apply (zv : FVec Ideal S512x128 .f32) (p : Fin 512) (q : Fin 128) :
    logSoftmaxVec zv (ix2 p q)
      = zv (ix2 p q) - (rowMax (fun p q => zv (ix2 p q)) p + Ideal.log (rowSumExp (fun p q => zv (ix2 p q)) p)) := by
  unfold logSoftmaxVec
  rw [subf_apply, broadcastTo_a1_ab_apply _ _ p q, addf_apply, rowMaxVec_apply]
  show _ - (_ + Ideal.log (rowSumExpVec zv (ix2 p (0 : Fin 1)))) = _
  rw [rowSumExpVec_apply]

/-- THE STORE at `(p, q)`: the logit less the masked log-sum-exp of its row, `z - (m + log s)`. -/
theorem k3_pay1_apply (A : FVec Ideal S512x4096 .bf16) (hi lo : FVec Ideal S4096x128 .bf16) (d : FVec Ideal S512x1 .f32)
    (bias : FVec Ideal S1x128 .f32) (p : Fin 512) (q : Fin 128) :
    Gen.k3_pay1 (F := Ideal) A hi lo d bias (ix2 p q)
      = logit A hi lo d bias p q
        - (rowMax (logit A hi lo d bias) p + Ideal.log (rowSumExp (logit A hi lo d bias) p)) := by
  rw [k3_pay1_eq, logSoftmaxVec_apply]
  have e : (fun p q => logitsVec A hi lo d bias (ix2 p q)) = logit A hi lo d bias :=
    funext fun p => funext fun q => logitsVec_apply A hi lo d bias p q
  rw [e, logitsVec_apply]

/-! ## Only the first two lanes count -/

/-- The word `0xFF800000` is `-∞`. -/
theorem ofBits_neg_inf_f32 : Ideal.ofBits .f32 0xFF800000#32 = ⊥ := by simp [Ideal.ofBits, Ideal.ieee]

/-- Only the first two lanes count: the masked maximum is the maximum of the row's first two entries. -/
theorem rowMax_eq (z : Fin 512 → Fin 128 → EReal) (p : Fin 512) : rowMax z p = max (z p 0) (z p 1) := by
  unfold rowMax
  rw [ofBits_neg_inf_f32]
  show (Finset.univ : Finset (Fin 128)).sup (fun c => if c.val < 2 then z p c else ⊥) = _
  apply le_antisymm
  · refine Finset.sup_le fun c _ => ?_
    by_cases h : c.val < 2
    · rw [if_pos h]
      rcases (show c.val = 0 ∨ c.val = 1 by omega) with h0 | h1
      · obtain rfl : c = 0 := Fin.ext h0
        exact le_max_left _ _
      · obtain rfl : c = 1 := Fin.ext h1
        exact le_max_right _ _
    · rw [if_neg h]; exact bot_le
  · refine max_le ?_ ?_
    · have := Finset.le_sup (f := fun c : Fin 128 => if c.val < 2 then z p c else ⊥) (Finset.mem_univ (0 : Fin 128))
      rwa [if_pos (by decide)] at this
    · have := Finset.le_sup (f := fun c : Fin 128 => if c.val < 2 then z p c else ⊥) (Finset.mem_univ (1 : Fin 128))
      rwa [if_pos (by decide)] at this

/-- Only the first two lanes count: the masked sum is the sum of the row's first two terms. -/
theorem rowSumExp_eq (z : Fin 512 → Fin 128 → EReal) (p : Fin 512) :
    rowSumExp z p = Ideal.exp (z p 0 - rowMax z p) + Ideal.exp (z p 1 - rowMax z p) := by
  unfold rowSumExp
  have h2 : ∀ c : Fin 128, c ≠ 0 ∧ c ≠ 1 → (if c.val < 2 then Ideal.exp (z p c - rowMax z p) else 0) = 0 := fun c hc =>
    if_neg fun h => by
      rcases (show c.val = 0 ∨ c.val = 1 by omega) with h0 | h1
      · exact hc.1 (Fin.ext h0)
      · exact hc.2 (Fin.ext h1)
  rw [Fintype.sum_eq_add (0 : Fin 128) 1 (by decide) h2, if_pos (by decide), if_pos (by decide)]

end Cert.KernelIdeal.Pay

end
-- ==== Proof.Final3.lean ====
import proofs.«167793_g47029891891200_fold_wed_c4_674_5_alg».proof.Proof.Region3
import proofs.«167793_g47029891891200_fold_wed_c4_674_5_alg».proof.Proof.Pay3
import Idealize.ShloMosaic.Lib.Pipeline.Value
import Idealize.ShloMosaic.Lib.ValueIdx
import Idealize.ShloMosaic.Lib.Tactic

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- what each buffer of the TensorCore holds when the region is entered, at the ideal values
variable (V : (c : Dev nD) → (b : Ref sig .tc) → Buf (Elt Ideal) ((c : Thread nD τ).loc b))

/-! # Region 3, from blocks to arrays: what the output array holds after the region, index by index

Point t of the 8 writes rows 512 t .. 512 t + 511 of the output; the blocks of A and dinv are the same rows of their
arrays, and hi, lo and the bias row are whole. The row statistics of a block's row are those of the array's row. So
the output array is one function of the arrays the region finds, and the 8 blocks cover it. -/

/-- The zero offsets of a whole-block access, as a constant function. -/
theorem hz3 : (![0, 0] : Fin 2 → Nat) = fun _ => 0 := funext fun a => by fin_cases a <;> rfl

/-- The block index maps over the 8 points: a window over rows is at row block t, column block 0; a window whose block
    is its whole array is at block (0, 0) at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of window 0's block at point t is row 512 t + p of its array. -/
theorem iblk3_0_apply (c : Dev nD) (t : Fin cfg3.N) (p : Fin 512) (k : Fin 4096) (i : Fin 4096) (hi : i.val = 512 * t.val + p.val) :
    (iblk3 V c 0 t : Vec Ideal S512x4096 .bf16) (ix2 p k) = (V c main_call0_v0_0 : S4096x4096.Idx → EReal) (ix2 i k) := by
  obtain ⟨e0_0, e0_1, e1_0, e1_1, e2_0, e2_1, e3_0, e3_1, e4_0, e4_1, e5_0, e5_1⟩ := idx_facts3 t
  unfold iblk3
  rw [View.read_apply]
  show V c main_call0_v0_0 _ = V c main_call0_v0_0 _
  congr 1
  funext a; apply Fin.ext
  match a with
  | ⟨0, _⟩ => show win3_0.index t (0 : Fin 2) * 512 + 1 * p.val = i.val; rw [e0_0, hi]; omega
  | ⟨1, _⟩ => show win3_0.index t (1 : Fin 2) * 4096 + 1 * k.val = k.val; rw [e0_1]; omega

/-- Window 1's block at every point is its whole array. -/
theorem iblk3_1_apply (c : Dev nD) (t : Fin cfg3.N) (k : Fin 4096) (q : Fin 128) :
    (iblk3 V c 1 t : Vec Ideal S4096x128 .bf16) (ix2 k q) = (V c main_call0_v11_0 : S4096x128.Idx → EReal) (ix2 k q) := by
  obtain ⟨e0_0, e0_1, e1_0, e1_1, e2_0, e2_1, e3_0, e3_1, e4_0, e4_1, e5_0, e5_1⟩ := idx_facts3 t
  unfold iblk3
  rw [View.read_apply]
  show V c main_call0_v11_0 _ = V c main_call0_v11_0 _
  congr 1
  funext a; apply Fin.ext
  match a with
  | ⟨0, _⟩ => show win3_1.index t (0 : Fin 2) * 4096 + 1 * k.val = k.val; rw [e1_0]; omega
  | ⟨1, _⟩ => show win3_1.index t (1 : Fin 2) * 128 + 1 * q.val = q.val; rw [e1_1]; omega

/-- Window 2's block at every point is its whole array. -/
theorem iblk3_2_apply (c : Dev nD) (t : Fin cfg3.N) (k : Fin 4096) (q : Fin 128) :
    (iblk3 V c 2 t : Vec Ideal S4096x128 .bf16) (ix2 k q) = (V c main_call0_v11_1 : S4096x128.Idx → EReal) (ix2 k q) := by
  obtain ⟨e0_0, e0_1, e1_0, e1_1, e2_0, e2_1, e3_0, e3_1, e4_0, e4_1, e5_0, e5_1⟩ := idx_facts3 t
  unfold iblk3
  rw [View.read_apply]
  show V c main_call0_v11_1 _ = V c main_call0_v11_1 _
  congr 1
  funext a; apply Fin.ext
  match a with
  | ⟨0, _⟩ => show win3_2.index t (0 : Fin 2) * 4096 + 1 * k.val = k.val; rw [e2_0]; omega
  | ⟨1, _⟩ => show win3_2.index t (1 : Fin 2) * 128 + 1 * q.val = q.val; rw [e2_1]; omega

/-- Row p of window 3's block at point t is row 512 t + p of its array. -/
theorem iblk3_3_apply (c : Dev nD) (t : Fin cfg3.N) (p : Fin 512) (k : Fin 1) (i : Fin 4096) (hi : i.val = 512 * t.val + p.val) :
    (iblk3 V c 3 t : Vec Ideal S512x1 .f32) (ix2 p k) = (V c main_call0_v0_1 : S4096x1.Idx → EReal) (ix2 i k) := by
  obtain ⟨e0_0, e0_1, e1_0, e1_1, e2_0, e2_1, e3_0, e3_1, e4_0, e4_1, e5_0, e5_1⟩ := idx_facts3 t
  unfold iblk3
  rw [View.read_apply]
  show V c main_call0_v0_1 _ = V c main_call0_v0_1 _
  congr 1
  funext a; apply Fin.ext
  match a with
  | ⟨0, _⟩ => show win3_3.index t (0 : Fin 2) * 512 + 1 * p.val = i.val; rw [e3_0, hi]; omega
  | ⟨1, _⟩ => show win3_3.index t (1 : Fin 2) * 1 + 1 * k.val = k.val; rw [e3_1]; omega

/-- Window 4's block at every point is its whole array. -/
theorem iblk3_4_apply (c : Dev nD) (t : Fin cfg3.N) (k : Fin 1) (q : Fin 128) :
    (iblk3 V c 4 t : Vec Ideal S1x128 .f32) (ix2 k q) = (V c main_call0_v9 : S1x128.Idx → EReal) (ix2 k q) := by
  obtain ⟨e0_0, e0_1, e1_0, e1_1, e2_0, e2_1, e3_0, e3_1, e4_0, e4_1, e5_0, e5_1⟩ := idx_facts3 t
  unfold iblk3
  rw [View.read_apply]
  show V c main_call0_v9 _ = V c main_call0_v9 _
  congr 1
  funext a; apply Fin.ext
  match a with
  | ⟨0, _⟩ => show win3_4.index t (0 : Fin 2) * 1 + 1 * k.val = k.val; rw [e4_0]; omega
  | ⟨1, _⟩ => show win3_4.index t (1 : Fin 2) * 128 + 1 * q.val = q.val; rw [e4_1]; omega

/-- Where element (p, q) of output window 5's block at point t sits in its array: row 512 t + p, column q. -/
theorem emb3_5 (t : Fin cfg3.N) (p : Fin 512) (q : Fin 128) (i : Fin 4096) (hi : i.val = 512 * t.val + p.val) :
    (((cfg3.win 5).blk t).view.emb (ix2 p q) : S4096x128.Idx) = ix2 i q := by
  obtain ⟨e0_0, e0_1, e1_0, e1_1, e2_0, e2_1, e3_0, e3_1, e4_0, e4_1, e5_0, e5_1⟩ := idx_facts3 t
  funext a; apply Fin.ext
  match a with
  | ⟨0, _⟩ => show win3_5.index t (0 : Fin 2) * 512 + 1 * p.val = i.val; rw [e5_0, hi]; omega
  | ⟨1, _⟩ => show win3_5.index t (1 : Fin 2) * 128 + 1 * q.val = q.val; rw [e5_1]; omega

/-! ## The output array as a function of the arrays the region finds -/

/-- The logit at row i, column q, of the 0/1 matrix A, the two halves hi, lo, the column d and the bias row:
    z (i, q) = d (i, 0) * (∑ k, A (i, k) * hi (k, q) + ∑ k, A (i, k) * lo (k, q)) + bias (0, q). -/
def logit3 (A : S4096x4096.Idx → EReal) (hi lo : S4096x128.Idx → EReal) (d : S4096x1.Idx → EReal) (bias : S1x128.Idx → EReal) (i : Fin 4096) (q : Fin 128) : EReal :=
  d (ix2 i (0 : Fin 1))
      * ((∑ k : Fin 4096, A (ix2 i k) * hi (ix2 k q)) + ∑ k : Fin 4096, A (ix2 i k) * lo (ix2 k q))
    + bias (ix2 (0 : Fin 1) q)

/-- The masked maximum of row i of z: the fold of max from the word of -∞ over the 128 lanes, a lane at or past two
    counting as that word's value. -/
def rowMax3 (z : Fin 4096 → Fin 128 → EReal) (i : Fin 4096) : EReal :=
  (Finset.univ : Finset (Fin 128)).fold max (Ideal.ofBits .f32 0xFF800000#32)
    (fun c => if c.val < 2 then z i c else Ideal.ofBits .f32 0xFF800000#32)

/-- The masked sum of row i of exp (z - m): a lane at or past two counts as zero. -/
def rowSumExp3 (z : Fin 4096 → Fin 128 → EReal) (i : Fin 4096) : EReal :=
  ∑ c : Fin 128, if c.val < 2 then Ideal.exp (z i c - rowMax3 z i) else 0

/-- What the region stores at row i, column q: z - (m + log s). -/
def lsm3 (A : S4096x4096.Idx → EReal) (hi lo : S4096x128.Idx → EReal) (d : S4096x1.Idx → EReal) (bias : S1x128.Idx → EReal) (i : Fin 4096) (q : Fin 128) : EReal :=
  logit3 A hi lo d bias i q - (rowMax3 (logit3 A hi lo d bias) i + Ideal.log (rowSumExp3 (logit3 A hi lo d bias) i))

/-- As a whole array, of A, the two halves, dinv and the padded bias as the region finds them. -/
def G3_5 (c : Dev nD) : S4096x128.Idx → EReal := fun j => lsm3 (V c main_call0_v0_0) (V c main_call0_v11_0) (V c main_call0_v11_1) (V c main_call0_v0_1) (V c main_call0_v9) (j 0) (j 1)

/-- The logit of a block's row p is the logit of the array's row 512 t + p. -/
theorem logit_blk3 (c : Dev nD) (t : Fin cfg3.N) (p : Fin 512) (q : Fin 128) (i : Fin 4096) (hi : i.val = 512 * t.val + p.val) :
    Pay.logit (iblk3 V c 0 t) (iblk3 V c 1 t) (iblk3 V c 2 t) (iblk3 V c 3 t) (iblk3 V c 4 t) p q = logit3 (V c main_call0_v0_0) (V c main_call0_v11_0) (V c main_call0_v11_1) (V c main_call0_v0_1) (V c main_call0_v9) i q := by
  unfold Pay.logit logit3
  rw [iblk3_3_apply V c t p 0 i hi, iblk3_4_apply V c t 0 q]
  simp only [iblk3_0_apply V c t p _ i hi, iblk3_1_apply V c t, iblk3_2_apply V c t]

/-- The row statistics read one row only: equal rows have equal masked maxima, -/
theorem rowMax_blk3 (z : Fin 512 → Fin 128 → EReal) (z' : Fin 4096 → Fin 128 → EReal) (p : Fin 512) (i : Fin 4096)
    (h : ∀ c, z p c = z' i c) : Pay.rowMax z p = rowMax3 z' i := by
  unfold Pay.rowMax rowMax3
  simp only [h]

/-- and equal masked sums. -/
theorem rowSumExp_blk3 (z : Fin 512 → Fin 128 → EReal) (z' : Fin 4096 → Fin 128 → EReal) (p : Fin 512) (i : Fin 4096)
    (h : ∀ c, z p c = z' i c) : Pay.rowSumExp z p = rowSumExp3 z' i := by
  unfold Pay.rowSumExp rowSumExp3
  rw [rowMax_blk3 z z' p i h]
  simp only [h]

/-- What the output's block holds after the body at point t, element by element. -/
theorem out3_5_apply (c : Dev nD) (t : Fin cfg3.N) (p : Fin 512) (q : Fin 128) (i : Fin 4096) (hi : i.val = 512 * t.val + p.val) :
    out3_5 (F := Ideal) (iblk3 V c 0 t) (iblk3 V c 1 t) (iblk3 V c 2 t) (iblk3 V c 3 t) (iblk3 V c 4 t) (ix2 p q) = lsm3 (V c main_call0_v0_0) (V c main_call0_v11_0) (V c main_call0_v11_1) (V c main_call0_v0_1) (V c main_call0_v9) i q := by
  unfold out3_5
  rw [View.canon_unit_zero hz3]
  simp only [View.ld_unit_zero (S := S512x4096) hz3, View.ld_unit_zero (S := S4096x128) hz3, View.ld_unit_zero (S := S512x1) hz3, View.ld_unit_zero (S := S1x128) hz3]
  refine (Pay.k3_pay1_apply _ _ _ _ _ p q).trans ?_
  unfold lsm3
  have hl : ∀ c', Pay.logit (iblk3 V c 0 t) (iblk3 V c 1 t) (iblk3 V c 2 t) (iblk3 V c 3 t) (iblk3 V c 4 t) p c' = logit3 (V c main_call0_v0_0) (V c main_call0_v11_0) (V c main_call0_v11_1) (V c main_call0_v0_1) (V c main_call0_v9) i c' := fun c' => logit_blk3 V c t p c' i hi
  rw [rowMax_blk3 _ _ p i hl, rowSumExp_blk3 _ _ p i hl, hl q]

/-! ## From the blocks to the arrays -/

/-- What point t writes back to output window 5's array is block t of G3_5: nothing of the block is cut, and its
    element (p, q) is the array's element (512 t + p, q). -/
theorem flushed3_5_eq (c : Dev nD) (t : Fin cfg3.N) :
    (dat3 V c).flushed 5 t = ((cfg3.win 5).blk t).view.read (Elt Ideal) (G3_5 V c) := by
  show (cfg3.win 5).cut (grid3.coords t) ((dat3 V c).after 5 t) = _
  rw [after3_5]
  have hN : cfg3.N = 8 := N_3
  have key : ∀ y : S512x128.Idx, out3_5 (F := Ideal) (iblk3 V c 0 t) (iblk3 V c 1 t) (iblk3 V c 2 t) (iblk3 V c 3 t) (iblk3 V c 4 t) y
      = G3_5 V c (((cfg3.win 5).blk t).view.emb y) := by
    intro y
    obtain ⟨p, q, rfl⟩ : ∃ (p : Fin 512) (q : Fin 128), y = ix2 p q := ⟨y 0, y 1, eq_ix2 y⟩
    have hi : 512 * t.val + p.val < 4096 := by have := t.isLt; omega
    rw [emb3_5 t p q ⟨_, hi⟩ rfl]
    exact out3_5_apply V c t p q ⟨_, hi⟩ rfl
  funext y
  exact key y

/-- An index of the array is in point t's block iff each coordinate is in the block's range. -/
theorem mem_blk3_5 (t : Fin cfg3.N) (i : S4096x128.Idx) :
    i ∈ ((cfg3.win 5).blk t).view.set ↔ ∀ a : Fin 2, win3_5.index t a * S512x128.size a ≤ (i a).val ∧ (i a).val < win3_5.index t a * S512x128.size a + S512x128.size a := by
  show i ∈ ((View.whole main_call0_v12).slice (win3_5.rect t)).set ↔ _
  rw [View.set_slice_whole, Rect.mem_set_unit]
  exact Iff.rfl

/-- Every row of the array is in the block of the point that is the row divided by 512. -/
theorem covered3_5 (i : S4096x128.Idx) : ∃ t : Fin cfg3.N, (cfg3.win 5).flush t = true ∧ i ∈ ((cfg3.win 5).blk t).view.set := by
  have hN : cfg3.N = 8 := N_3
  have h0 : (i 0).val < 4096 := (i 0).isLt
  have h1 : (i 1).val < 128 := (i 1).isLt
  obtain ⟨t, ht⟩ : ∃ t : Fin cfg3.N, t.val = (i 0).val / 512 := ⟨⟨(i 0).val / 512, by rw [hN]; omega⟩, rfl⟩
  refine ⟨t, flush3_5 t, ?_⟩
  rw [mem_blk3_5]
  obtain ⟨e0_0, e0_1, e1_0, e1_1, e2_0, e2_1, e3_0, e3_1, e4_0, e4_1, e5_0, e5_1⟩ := idx_facts3 t
  intro a
  match a with
  | ⟨0, _⟩ => show win3_5.index t (0 : Fin 2) * 512 ≤ (i 0).val ∧ (i 0).val < win3_5.index t (0 : Fin 2) * 512 + 512; rw [e5_0, ht]; omega
  | ⟨1, _⟩ => show win3_5.index t (1 : Fin 2) * 128 ≤ (i 1).val ∧ (i 1).val < win3_5.index t (1 : Fin 2) * 128 + 128; rw [e5_1]; omega

/-- The output array after region 3: z - (m + log s), whole. -/
theorem final3_5 (c : Dev nD) : (dat3 V c).arrAt 5 cfg3.N = G3_5 V c :=
  (dat3 V c).arrAt_eq_of_cover 5 (G3_5 V c) (fun t _ => flushed3_5_eq V c t) covered3_5

/-- Index by index: after region 3 the output holds, at row i and column q, the logit less the masked log-sum-exp of
    its row. -/
theorem final3 (c : Dev nD) (i : Fin 4096) (q : Fin 128) :
    ((dat3 V c).arrAt 5 cfg3.N : S4096x128.Idx → EReal) (ix2 i q) = lsm3 (V c main_call0_v0_0) (V c main_call0_v11_0) (V c main_call0_v11_1) (V c main_call0_v0_1) (V c main_call0_v9) i q :=
  congrFun (final3_5 V c) (ix2 i q)

end Cert.KernelIdeal.Hand

end
-- ==== Proof.LibScatter.lean ====
/-
  A host `stablehlo.scatter` whose body returns the update (`x.at[…].set(u)`), read at an index. The scatter is the
  left fold, over the update indices in row-major order, of "replace the element at this update's result index"; an
  operand index that exactly one update index lands on holds that update's element, one that none lands on keeps the
  operand's. With every start index zero an update index lands at its window coordinates.
-/
import Idealize.ShloMosaic.PureOps.ShapeOps
import Idealize.ShloMosaic.Lib.ValueIdx

noncomputable section

namespace Cert.LibScatter

open Idealize.ShloMosaic

variable {α : Type} {s si u : Shape} {w : Nat}

/-- One step of the scatter's fold: update number `n` replaces the element at its result index, if it has one. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

/-- The scatter is the fold of `step`. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update lands elsewhere leaves the element at `i`. -/
theorem step_miss (d : ScatterDims s si u) (f : α → α → α) (idx : IVec si w) (upd : u.Idx → α) (r : s.Idx → α)
    (n : Fin u.numel) (i : s.Idx) (h : d.resultIdx? (u.rowMajor.symm n) idx ≠ some i) : step d f idx upd r n i = r i := by
  unfold step
  generalize d.resultIdx? (u.rowMajor.symm n) idx = o at h
  cases o with
  | none => rfl
  | some i0 =>
    show (if i = i0 then _ else r i) = r i
    rw [if_neg]
    intro e
    exact h (by rw [e])

/-- A step whose update lands on `i` and whose body returns the update puts the update's element there. -/
theorem step_hit (d : ScatterDims s si u) (idx : IVec si w) (upd : u.Idx → α) (r : s.Idx → α)
    (n : Fin u.numel) (i : s.Idx) (h : d.resultIdx? (u.rowMajor.symm n) idx = some i) :
    step d (fun _ b => b) idx upd r n i = upd (u.rowMajor.symm n) := by
  unfold step
  rw [h]
  show (if i = i then _ else r i) = _
  rw [if_pos rfl]

/-- Steps none of which lands on `i` leave the element at `i`. -/
theorem foldl_step_miss (d : ScatterDims s si u) (f : α → α → α) (idx : IVec si w) (upd : u.Idx → α) (i : s.Idx) :
    ∀ (L : List (Fin u.numel)) (r : s.Idx → α), (∀ n ∈ L, d.resultIdx? (u.rowMajor.symm n) idx ≠ some i) →
      L.foldl (step d f idx upd) r i = r i
  | [], _, _ => rfl
  | n :: L, r, h => by
    rw [List.foldl_cons, foldl_step_miss d f idx upd i L _ fun m hm => h m (List.mem_cons_of_mem _ hm)]
    exact step_miss d f idx upd r n i (h n List.mem_cons_self)

/-- Steps exactly one of which, number `n0`, lands on `i` leave update `n0`'s element there. -/
theorem foldl_step_hit (d : ScatterDims s si u) (idx : IVec si w) (upd : u.Idx → α) (i : s.Idx) (n0 : Fin u.numel)
    (h0 : d.resultIdx? (u.rowMajor.symm n0) idx = some i) :
    ∀ (L : List (Fin u.numel)) (r : s.Idx → α), L.Nodup → n0 ∈ L →
      (∀ n ∈ L, d.resultIdx? (u.rowMajor.symm n) idx = some i → n = n0) →
      L.foldl (step d (fun _ b => b) idx upd) r i = upd (u.rowMajor.symm n0)
  | [], _, _, hm, _ => absurd hm List.not_mem_nil
  | n :: L, r, hnd, hm, huniq => by
    rw [List.foldl_cons]
    by_cases hn : n = n0
    · subst hn
      have hmiss : ∀ m ∈ L, d.resultIdx? (u.rowMajor.symm m) idx ≠ some i := fun m hmL hres => by
        have e := huniq m (List.mem_cons_of_mem _ hmL) hres
        subst e
        exact (List.nodup_cons.mp hnd).1 hmL
      rw [foldl_step_miss d _ idx upd i L _ hmiss]
      exact step_hit d idx upd r n i h0
    · have hm' : n0 ∈ L := (List.mem_cons.mp hm).resolve_left fun e => hn e.symm
      exact foldl_step_hit d idx upd i n0 h0 L _ (List.nodup_cons.mp hnd).2 hm'
        fun m hmL => huniq m (List.mem_cons_of_mem _ hmL)

/-- An operand index no update index lands on keeps the operand's element. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  rw [scatter_eq_foldl]
  exact foldl_step_miss d f idx upd i _ x fun n _ => h _

/-- An operand index exactly one update index `j` lands on holds, after a scatter whose body returns the update, the
    update's element at `j`. -/
theorem scatter_set_apply_of_hit (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  rw [scatter_eq_foldl]
  have e : u.rowMajor.symm (u.rowMajor j) = j := u.rowMajor.symm_apply_apply j
  have h := foldl_step_hit d idx upd i (u.rowMajor j) (by rw [e]; exact hj) (List.finRange u.numel) x
    (List.nodup_finRange _) (List.mem_finRange _) fun n _ hn => by
      have := huniq _ hn
      exact (Equiv.symm_apply_eq _).mp this
  rw [h, e]

/-! ## Where an update index lands when every start index is zero -/

/-- With every word of the scatter indices zero, every window starts at zero. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-- Then update index `j` lands at its window coordinates, which are inside the operand. -/
theorem resultIdx?_of_zero (d : ScatterDims s si u) (j : u.Idx) (idx : IVec si w) (hidx : ∀ k, idx k = 0#w)
    (i : s.Idx) (hi : ∀ a, (i a).val = d.window j a) : d.resultIdx? j idx = some i := by
  unfold ScatterDims.resultIdx?
  have hc : ∀ a, 0 ≤ d.start j idx a + d.window j a ∧ d.start j idx a + d.window j a < s.size a := fun a => by
    rw [start_eq_zero d j idx hidx a, ← hi a]
    have := (i a).isLt
    omega
  rw [dif_pos hc]
  congr 1
  funext a
  refine Fin.ext ?_
  show (d.start j idx a + d.window j a).toNat = (i a).val
  rw [start_eq_zero d j idx hidx a, hi a]
  omega

end Cert.LibScatter

end
-- ==== Proof.HostVals.lean ====
/-
  What the host operations between the launches leave, read at an index, over an arbitrary valuation `W` of the
  buffers before them: between the second and third launches `W2` zero-padded from [256, 2] to [256, 128] by a
  scatter into zeros, `b2` zero-padded to a [1, 128] row by a scatter, and `b1` reshaped to a [1, 256] row; after the
  fourth launch the first two columns of its [4096, 128] output.
-/
import proofs.«167793_g47029891891200_fold_wed_c4_674_5_alg».proof.Proof.Gen.KernelIdeal.Launch
import proofs.«167793_g47029891891200_fold_wed_c4_674_5_alg».proof.Proof.LibScatter
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostVals

open Idealize.ShloMosaic Idealize.ShloMosaic.ValueIdx Cert.LibScatter

/-! ## The operands the two scatters are given -/

/-- The [256, 128] array of zeros `W2` is scattered into. -/
abbrev zeros256x128 : S256x128.Idx → EReal :=
  broadcastInDim S256x128 ![] Gen.bcast_S_S256x128 (constant (F := Ideal) S_ .f32 0x00000000#32)
/-- The [1, 128] row of zeros `b2` is scattered into. -/
abbrev zeros1x128 : S1x128.Idx → EReal :=
  broadcastInDim S1x128 ![] Gen.bcast_S_S1x128 (constant (F := Ideal) S_ .f32 0x00000000#32)
/-- The one-word start index `[0]`. -/
abbrev start1 : IVec S1 32 := broadcastInDim S1 ![] Gen.bcast_S_S1 (constantI S_ 32 0#32)
/-- The two-word start index `[0, 0]`. -/
abbrev start2 : IVec S2 32 := concatenate S2 0 [⟨S1, start1⟩, ⟨S1, start1⟩] Gen.concatenates_S1_S1_S2_d0

/-- Both words of `[0, 0]` are zero. -/
theorem start2_zero (k : S2.Idx) : start2 k = 0#32 := by
  obtain ⟨e, rfl⟩ : ∃ e : Fin 2, k = ix1 e := ⟨k 0, eq_ix1 k⟩
  rcases (show e.val = 0 ∨ e.val = 1 by omega) with h | h
  · exact (concatenate_pair_apply_left (t := S2) (s₁ := S1) (s₂ := S1) (0 : Fin S2.rank) start1 start1
      Gen.concatenates_S1_S1_S2_d0 (ix1 e) rfl (ix1 (0 : Fin 1)) (fun b => by
        match b with
        | ⟨0, _⟩ => show (0 : ℕ) = e.val; omega)).trans rfl
  · exact (concatenate_pair_apply_right (t := S2) (s₁ := S1) (s₂ := S1) (0 : Fin S2.rank) start1 start1
      Gen.concatenates_S1_S1_S2_d0 (ix1 e) rfl rfl (ix1 (0 : Fin 1)) (fun b hb => by
        match b with
        | ⟨0, _⟩ => exact absurd rfl hb) (by show 0 + 1 = e.val; omega)).trans rfl

/-! ## Where the two scatters' update indices land -/

/-- The window coordinates of `W2`'s update `j` are `j`'s own. -/
theorem window_w2_0 (j : S256x2.Idx) : scatter_S256x128_S1_S256x2_01_n_1_0.window j (0 : Fin 2) = (j 0).val := by
  unfold ScatterDims.window
  rw [dif_pos (by decide)]
  rfl
theorem window_w2_1 (j : S256x2.Idx) : scatter_S256x128_S1_S256x2_01_n_1_0.window j (1 : Fin 2) = (j 1).val := by
  unfold ScatterDims.window
  rw [dif_pos (by decide)]
  rfl

/-- Update `(k, c)` of `W2` lands at `(k, c)` of the padded array. -/
theorem lands_w2 (k : Fin 256) (c : Fin 2) :
    scatter_S256x128_S1_S256x2_01_n_1_0.resultIdx? (ix2 k c) start1 = some (ix2 k (⟨c.val, by omega⟩ : Fin 128)) :=
  resultIdx?_of_zero _ _ start1 (fun _ => rfl) _ fun a => by
    match a with
    | ⟨0, _⟩ => exact (window_w2_0 (ix2 k c)).symm
    | ⟨1, _⟩ => exact (window_w2_1 (ix2 k c)).symm

/-- The window coordinates of `b2`'s update `j`: zero on the inserted row axis, `j`'s own on the lanes. -/
theorem window_b2_0 (j : S2.Idx) : scatter_S1x128_S2_S2_0_0_01_0.window j (0 : Fin 2) = 0 := by
  unfold ScatterDims.window
  rw [dif_neg (by decide)]
theorem window_b2_1 (j : S2.Idx) : scatter_S1x128_S2_S2_0_0_01_0.window j (1 : Fin 2) = (j 0).val := by
  unfold ScatterDims.window
  rw [dif_pos (by decide)]
  rfl

/-- Update `c` of `b2` lands at `(0, c)` of the padded row. -/
theorem lands_b2 (c : Fin 2) :
    scatter_S1x128_S2_S2_0_0_01_0.resultIdx? (ix1 c) start2 = some (ix2 (0 : Fin 1) (⟨c.val, by omega⟩ : Fin 128)) :=
  resultIdx?_of_zero _ _ start2 start2_zero _ fun a => by
    match a with
    | ⟨0, _⟩ => exact (window_b2_0 (ix1 c)).symm
    | ⟨1, _⟩ => exact (window_b2_1 (ix1 c)).symm

/-! ## The buffers after the fourteen operations between the second and third launches -/

variable (W : Valuation τ sig (Elt Ideal))

/-- The padded `W2` is the scatter of `W2` at `[0]` into zeros. -/
theorem w2p_eq :
    (StableHlo.after (Gen.hostOps2 (F := Ideal)) W (Proc.devRef .tc main_call0_v4) : S256x128.Idx → EReal)
      = Host.scatter scatter_S256x128_S1_S256x2_01_n_1_0 (fun _ b => b) zeros256x128 start1
          (W (Proc.devRef .tc main_arg4) : S256x2.Idx → EReal) := by
  after_results
  simp only [cast_eq]

/-- The padded `W2` at `(k, c)`: `W2 (k, c)` in the first two columns, zero in the other 126. -/
theorem w2p_apply (k : Fin 256) (c : Fin 128) :
    (StableHlo.after (Gen.hostOps2 (F := Ideal)) W (Proc.devRef .tc main_call0_v4) : S256x128.Idx → EReal) (ix2 k c)
      = (if h : c.val < 2 then (W (Proc.devRef .tc main_arg4) : S256x2.Idx → EReal) (ix2 k (⟨c.val, h⟩ : Fin 2)) else 0 : EReal) := by
  rw [w2p_eq]
  by_cases h : c.val < 2
  · rw [dif_pos h]
    refine scatter_set_apply_of_hit _ _ start1 _ (ix2 k c) (ix2 k (⟨c.val, h⟩ : Fin 2)) (lands_w2 k ⟨c.val, h⟩) ?_
    intro j' hj'
    obtain ⟨k', c', rfl⟩ : ∃ (k' : Fin 256) (c' : Fin 2), j' = ix2 k' c' := ⟨j' 0, j' 1, eq_ix2 j'⟩
    rw [lands_w2] at hj'
    have e := Option.some.inj hj'
    have e0 : k'.val = k.val := congrArg Fin.val (congrFun e 0)
    have e1 : c'.val = c.val := congrArg Fin.val (congrFun e 1)
    obtain rfl : k' = k := Fin.ext e0
    obtain rfl : c' = ⟨c.val, h⟩ := Fin.ext e1
    rfl
  · rw [dif_neg h]
    refine (scatter_apply_of_miss _ _ _ start1 _ (ix2 k c) ?_).trans Ideal.ofBits_zero_f32
    intro j' hj'
    obtain ⟨k', c', rfl⟩ : ∃ (k' : Fin 256) (c' : Fin 2), j' = ix2 k' c' := ⟨j' 0, j' 1, eq_ix2 j'⟩
    rw [lands_w2] at hj'
    have e1 : c'.val = c.val := congrArg Fin.val (congrFun (Option.some.inj hj') 1)
    omega

/-- The padded `b2` is the scatter of `b2` at `[0, 0]` into a row of zeros. -/
theorem b2p_eq :
    (StableHlo.after (Gen.hostOps2 (F := Ideal)) W (Proc.devRef .tc main_call0_v9) : S1x128.Idx → EReal)
      = Host.scatter scatter_S1x128_S2_S2_0_0_01_0 (fun _ b => b) zeros1x128 start2
          (W (Proc.devRef .tc main_arg5) : S2.Idx → EReal) := by
  after_results
  simp only [cast_eq]

/-- The padded `b2` at `(u, c)`: `b2 c` in the first two columns, zero in the other 126. -/
theorem b2p_apply (u : Fin 1) (c : Fin 128) :
    (StableHlo.after (Gen.hostOps2 (F := Ideal)) W (Proc.devRef .tc main_call0_v9) : S1x128.Idx → EReal) (ix2 u c)
      = (if h : c.val < 2 then (W (Proc.devRef .tc main_arg5) : S2.Idx → EReal) (ix1 (⟨c.val, h⟩ : Fin 2)) else 0 : EReal) := by
  rw [b2p_eq]
  obtain rfl : u = 0 := Subsingleton.elim _ _
  by_cases h : c.val < 2
  · rw [dif_pos h]
    refine scatter_set_apply_of_hit _ _ start2 _ (ix2 (0 : Fin 1) c) (ix1 (⟨c.val, h⟩ : Fin 2)) (lands_b2 ⟨c.val, h⟩) ?_
    intro j' hj'
    obtain ⟨c', rfl⟩ : ∃ c' : Fin 2, j' = ix1 c' := ⟨j' 0, eq_ix1 j'⟩
    rw [lands_b2] at hj'
    have e1 : c'.val = c.val := congrArg Fin.val (congrFun (Option.some.inj hj') 1)
    obtain rfl : c' = ⟨c.val, h⟩ := Fin.ext e1
    rfl
  · rw [dif_neg h]
    refine (scatter_apply_of_miss _ _ _ start2 _ (ix2 (0 : Fin 1) c) ?_).trans Ideal.ofBits_zero_f32
    intro j' hj'
    obtain ⟨c', rfl⟩ : ∃ c' : Fin 2, j' = ix1 c' := ⟨j' 0, eq_ix1 j'⟩
    rw [lands_b2] at hj'
    have e1 : c'.val = c.val := congrArg Fin.val (congrFun (Option.some.inj hj') 1)
    omega

/-- `b1` as a row is `b1` reshaped. -/
theorem b1r_eq :
    (StableHlo.after (Gen.hostOps2 (F := Ideal)) W (Proc.devRef .tc main_call0_v10) : S1x256.Idx → EReal)
      = shapeCast S1x256 (W (Proc.devRef .tc main_arg3) : S256.Idx → EReal) Gen.shapeCasts_S256_S1x256 := by
  after_results
  simp only [cast_eq]
  rfl

/-- `b1` as a row at `(u, c)` is `b1 c`. -/
theorem b1r_apply (u : Fin 1) (c : Fin 256) :
    (StableHlo.after (Gen.hostOps2 (F := Ideal)) W (Proc.devRef .tc main_call0_v10) : S1x256.Idx → EReal) (ix2 u c)
      = (W (Proc.devRef .tc main_arg3) : S256.Idx → EReal) (ix1 c) := by
  rw [b1r_eq]
  exact shapeCast_a_1a_apply _ _ u c

/-! ## The result after the fourth launch -/

/-- The result is the first two columns of the fourth launch's output. -/
theorem out_eq :
    (StableHlo.after (Gen.hostOps4 (F := Ideal)) W (Proc.devRef .tc main_v0) : S4096x2.Idx → EReal)
      = extractStridedSlice S4096x2 ![0, 0] (W (Proc.devRef .tc main_call0_v12) : S4096x128.Idx → EReal)
          Gen.slices_S4096x128_S4096x2_0_0 := by
  after_results
  simp only [cast_eq]

/-- The result at `(i, c)` is the fourth launch's output at `(i, c)`. -/
theorem out_apply (i : Fin 4096) (c : Fin 2) :
    (StableHlo.after (Gen.hostOps4 (F := Ideal)) W (Proc.devRef .tc main_v0) : S4096x2.Idx → EReal) (ix2 i c)
      = (W (Proc.devRef .tc main_call0_v12) : S4096x128.Idx → EReal) (ix2 i (⟨c.val, by omega⟩ : Fin 128)) := by
  rw [out_eq]
  exact slice2_axis1_apply 0 _ _ i c _ (by show c.val = 0 + c.val; omega)

end Cert.KernelIdeal.HostVals

end
-- ==== Proof.LibReal.lean ====
import Idealize.ShloMosaic.PureOps.Ideal

/-!
# Extended reals that are real numbers

The extended reals are not a ring: subtraction does not cancel and a factor does not move across a sum at the
infinities. For values that are real numbers everything is as on `ℝ`. This file has the predicate "is a real number", its
closure under the operations a small network uses, and the few identities that hold for such values only: `v - v = 0`,
the inverse square root as the power `-1/2`, and `z - (m + log s) = (z - m) - log s`. It also reads a maximum and a
sum over 128 entries of which only the first two are kept.
-/

noncomputable section

namespace Cert.LibReal

open Idealize.ShloMosaic
open scoped BigOperators

/-- The extended real `v` is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem coe_max (a b : ℝ) : ((max a b : ℝ) : EReal) = max (a : EReal) (b : EReal) :=
  EReal.coe_strictMono.monotone.map_max

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type*} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- A real number minus itself is zero (false at the infinities). -/
theorem IsReal.sub_self {a : EReal} (ha : IsReal a) : a - a = 0 := by
  obtain ⟨x, rfl⟩ := ha
  rw [← EReal.coe_sub, _root_.sub_self, EReal.coe_zero]

/-- The exponential of a real number is a real number. -/
theorem IsReal.exp {a : EReal} (ha : IsReal a) : IsReal (Ideal.exp a) := by
  obtain ⟨x, rfl⟩ := ha; exact ⟨Real.exp x, rfl⟩

/-- On a positive real the inverse square root is the power `-1/2`. -/
theorem rsqrt_eq_pow {t : ℝ} (ht : 0 < t) :
    Ideal.rsqrt (t : EReal) = Ideal.pow (t : EReal) ((-1 / 2 : ℝ) : EReal) := by
  show (if t < 0 then ⊥ else if t = 0 then ⊤ else (((Real.sqrt t)⁻¹ : ℝ) : EReal)) = ((Real.rpow t (-1 / 2) : ℝ) : EReal)
  rw [if_neg (not_lt.mpr ht.le), if_neg ht.ne']
  congr 1
  show (Real.sqrt t)⁻¹ = t ^ (-1 / 2 : ℝ)
  rw [Real.sqrt_eq_rpow, show (-1 / 2 : ℝ) = -(1 / 2) by norm_num, Real.rpow_neg ht.le]

/-- The inverse square root of a real number clipped below at one, as the power `-1/2`, with the clip's operands in
    either order. -/
theorem rsqrt_max_one {d : EReal} (hd : IsReal d) :
    Ideal.rsqrt (max d 1) = Ideal.pow (max 1 d) ((-1 / 2 : ℝ) : EReal) := by
  obtain ⟨r, rfl⟩ := hd
  have h1 : max (r : EReal) 1 = ((Max.max r 1 : ℝ) : EReal) := by rw [coe_max, EReal.coe_one]
  rw [max_comm (1 : EReal), h1]
  exact rsqrt_eq_pow (lt_of_lt_of_le one_pos (le_max_right _ _))

/-- A real number clipped below at one, to a real power, is a real number. -/
theorem isReal_pow_max_one {d : EReal} (hd : IsReal d) (y : ℝ) : IsReal (Ideal.pow (max 1 d) (y : EReal)) := by
  obtain ⟨r, rfl⟩ := hd
  have h1 : max 1 (r : EReal) = ((Max.max 1 r : ℝ) : EReal) := by rw [coe_max, EReal.coe_one]
  rw [h1]
  exact ⟨Real.rpow (Max.max 1 r) y, rfl⟩

/-- For real numbers `z`, `m` and a positive real `s`: `z - (m + log s) = (z - m) - log s`. -/
theorem sub_add_log {z m s : EReal} (hz : IsReal z) (hm : IsReal m) (hs : IsReal s) (hpos : 0 < s) :
    z - (m + Ideal.log s) = (z - m) - Ideal.log s := by
  obtain ⟨a, rfl⟩ := hz; obtain ⟨b, rfl⟩ := hm; obtain ⟨c, rfl⟩ := hs
  have hc : 0 < c := EReal.coe_pos.mp hpos
  have hl : Ideal.log (c : EReal) = ((Real.log c : ℝ) : EReal) := by
    show (if c ≤ 0 then ⊥ else ((Real.log c : ℝ) : EReal)) = _
    rw [if_neg (not_le.mpr hc)]
  rw [hl, ← EReal.coe_add, ← EReal.coe_sub, ← EReal.coe_sub, ← EReal.coe_sub]
  congr 1; ring

/-- A sum of exponentials of real numbers over a nonempty index set is positive. -/
theorem sum_exp_pos {ι : Type*} (s : Finset ι) (hs : s.Nonempty) (f : ι → EReal) (h : ∀ k ∈ s, IsReal (f k)) :
    0 < ∑ k ∈ s, Ideal.exp (f k) := by
  classical
  have hr : ∀ k ∈ s, ∃ r : ℝ, f k = (r : EReal) := h
  choose! g hg using hr
  have e : ∑ k ∈ s, Ideal.exp (f k) = ((∑ k ∈ s, Real.exp (g k) : ℝ) : EReal) := by
    have : ∀ (t : Finset ι), ((∑ k ∈ t, Real.exp (g k) : ℝ) : EReal) = ∑ k ∈ t, ((Real.exp (g k) : ℝ) : EReal) := by
      intro t
      induction t using Finset.induction_on with
      | empty => simp
      | insert a t ha ih => rw [Finset.sum_insert ha, Finset.sum_insert ha, EReal.coe_add, ih]
    rw [this]
    exact Finset.sum_congr rfl fun k hk => by rw [hg k hk]; rfl
  rw [e]
  exact EReal.coe_pos.mpr (Finset.sum_pos (fun k _ => Real.exp_pos _) hs)

/-! ## 128 entries of which the first two are kept -/

/-- A maximum from `-∞` over 128 entries, all but the first two replaced by `-∞`: the larger of the first two. -/
theorem fold_max_first_two (g : Fin 128 → EReal) :
    (Finset.univ : Finset (Fin 128)).fold max ⊥ (fun c => if c.val < 2 then g c else ⊥)
      = max (g ⟨0, by norm_num⟩) (g ⟨1, by norm_num⟩) := by
  apply le_antisymm
  · refine (Finset.fold_max_le _).mpr ⟨bot_le, fun c _ => ?_⟩
    by_cases h : c.val < 2
    · rw [if_pos h]
      have h01 : c.val = 0 ∨ c.val = 1 := by omega
      rcases h01 with h0 | h1
      · have : c = ⟨0, by norm_num⟩ := Fin.ext h0
        rw [this]; exact le_max_left _ _
      · have : c = ⟨1, by norm_num⟩ := Fin.ext h1
        rw [this]; exact le_max_right _ _
    · rw [if_neg h]; exact bot_le
  · refine max_le ?_ ?_
    · refine (Finset.le_fold_max _).mpr (Or.inr ⟨⟨0, by norm_num⟩, Finset.mem_univ _, ?_⟩)
      rw [if_pos (by norm_num)]
    · refine (Finset.le_fold_max _).mpr (Or.inr ⟨⟨1, by norm_num⟩, Finset.mem_univ _, ?_⟩)
      rw [if_pos (by norm_num)]

/-- A sum over 128 entries, all but the first two replaced by zero: the sum of the first two. -/
theorem sum_first_two (g : Fin 128 → EReal) :
    ∑ c : Fin 128, (if c.val < 2 then g c else 0) = g ⟨0, by norm_num⟩ + g ⟨1, by norm_num⟩ := by
  rw [Finset.sum_eq_add_of_mem (⟨0, by norm_num⟩ : Fin 128) ⟨1, by norm_num⟩ (Finset.mem_univ _) (Finset.mem_univ _)
    (by intro h; exact absurd (congrArg Fin.val h) (by norm_num))
    (fun c _ hc => if_neg fun h => by
      have h01 : c.val = 0 ∨ c.val = 1 := by omega
      rcases h01 with h0 | h1
      · exact hc.1 (Fin.ext h0)
      · exact hc.2 (Fin.ext h1))]
  rw [if_pos (by norm_num), if_pos (by norm_num)]

end Cert.LibReal

end
-- ==== Proof.Law.lean ====
import proofs.«167793_g47029891891200_fold_wed_c4_674_5_alg».proof.Proof.Spec
import proofs.«167793_g47029891891200_fold_wed_c4_674_5_alg».proof.Proof.LibIdeal
import proofs.«167793_g47029891891200_fold_wed_c4_674_5_alg».proof.Proof.LibReal
import Idealize.ShloMosaic.Lib.IdealHost

/-!
# The same network in a second arrangement

`K` computes the network of `Cert.Spec.G` arranged differently: the clip of the degree has its operands in the other
order and the scaling is an inverse square root; each scaled operand `v` of an aggregation is passed as the pair
`v`, `v - v` and aggregated twice; the second layer runs over 128 columns of which only the first two carry data
(the weights and bias are zero beyond them), the row maximum and the sum of exponentials being taken over the 128
columns with the other 126 replaced by `-∞` and `0`; and the result is `z - (m + log s)`.

For inputs that are real numbers the two agree (`K_eq_G`): every intermediate value is then a real number, so
`v - v = 0` and the second aggregation adds `∑ A · 0 = 0`; on a real `t ≥ 1` the inverse square root is `t ^ (-1/2)`;
and for real `z`, `m` and a positive real `s`, `z - (m + log s) = (z - m) - log s`. None of these holds at the infinities.
-/

noncomputable section

namespace Cert.Spec

open Idealize.ShloMosaic Cert.LibIdeal Cert.LibReal
open scoped BigOperators

/-! ## The arrangement -/

/-- The symmetrized pattern, its `1` written as the single-precision constant. -/
def AK (adj : Fin 4096 → Fin 4096 → EReal) (i j : Fin 4096) : EReal :=
  if adj i j ≠ 0 ∨ adj j i ≠ 0 then Ideal.ofBits .f32 0x3F800000#32 else 0

/-- The inverse square root of the degree clipped below at one. -/
def dinvK (adj : Fin 4096 → Fin 4096 → EReal) (i : Fin 4096) : EReal :=
  Ideal.rsqrt (max (∑ j : Fin 4096, AK adj i j) (Ideal.ofBits .f32 0x3F800000#32))

/-- The scaled first-layer operand. -/
def hsHi (x : Fin 4096 → Fin 512 → EReal) (adj : Fin 4096 → Fin 4096 → EReal) (W1 : Fin 512 → Fin 256 → EReal) (i : Fin 4096) (q : Fin 256) : EReal :=
  dinvK adj i * ∑ k : Fin 512, x i k * W1 k q

/-- The scaled first-layer operand minus itself. -/
def hsLo (x : Fin 4096 → Fin 512 → EReal) (adj : Fin 4096 → Fin 4096 → EReal) (W1 : Fin 512 → Fin 256 → EReal) (i : Fin 4096) (q : Fin 256) : EReal :=
  dinvK adj i * (∑ k : Fin 512, x i k * W1 k q) - dinvK adj i * ∑ k : Fin 512, x i k * W1 k q

/-- The hidden layer, aggregated from the pair. -/
def hidden (x : Fin 4096 → Fin 512 → EReal) (adj : Fin 4096 → Fin 4096 → EReal) (W1 : Fin 512 → Fin 256 → EReal) (b1 : Fin 256 → EReal) (i : Fin 4096) (c : Fin 256) : EReal :=
  max (dinvK adj i * ((∑ k : Fin 4096, AK adj i k * hsHi x adj W1 k c) + ∑ k : Fin 4096, AK adj i k * hsLo x adj W1 k c) + b1 c) 0

/-- The second layer's weights padded with zero columns to 128. -/
def W2p (W2 : Fin 256 → Fin 2 → EReal) (c : Fin 256) (q : Fin 128) : EReal :=
  if h : q.val < 2 then W2 c ⟨q.val, h⟩ else 0

/-- The second layer's bias padded with zeros to 128. -/
def b2p (b2 : Fin 2 → EReal) (q : Fin 128) : EReal :=
  if h : q.val < 2 then b2 ⟨q.val, h⟩ else 0

/-- The scaled second-layer operand, over the 128 columns. -/
def h2Hi (x : Fin 4096 → Fin 512 → EReal) (adj : Fin 4096 → Fin 4096 → EReal) (W1 : Fin 512 → Fin 256 → EReal) (b1 : Fin 256 → EReal) (W2 : Fin 256 → Fin 2 → EReal) (i : Fin 4096) (q : Fin 128) : EReal :=
  dinvK adj i * ∑ c : Fin 256, hidden x adj W1 b1 i c * W2p W2 c q

/-- The scaled second-layer operand minus itself. -/
def h2Lo (x : Fin 4096 → Fin 512 → EReal) (adj : Fin 4096 → Fin 4096 → EReal) (W1 : Fin 512 → Fin 256 → EReal) (b1 : Fin 256 → EReal) (W2 : Fin 256 → Fin 2 → EReal) (i : Fin 4096) (q : Fin 128) : EReal :=
  dinvK adj i * (∑ c : Fin 256, hidden x adj W1 b1 i c * W2p W2 c q) - dinvK adj i * ∑ c : Fin 256, hidden x adj W1 b1 i c * W2p W2 c q

/-- The logits over the 128 columns. -/
def logit (x : Fin 4096 → Fin 512 → EReal) (adj : Fin 4096 → Fin 4096 → EReal) (W1 : Fin 512 → Fin 256 → EReal) (b1 : Fin 256 → EReal) (W2 : Fin 256 → Fin 2 → EReal) (b2 : Fin 2 → EReal) (i : Fin 4096) (q : Fin 128) : EReal :=
  dinvK adj i * ((∑ k : Fin 4096, AK adj i k * h2Hi x adj W1 b1 W2 k q) + ∑ k : Fin 4096, AK adj i k * h2Lo x adj W1 b1 W2 k q) + b2p b2 q

/-- The row maximum over 128 columns, all but the first two replaced by `-∞`. -/
def rowMaxK (z : Fin 4096 → Fin 128 → EReal) (i : Fin 4096) : EReal :=
  (Finset.univ : Finset (Fin 128)).fold max (Ideal.ofBits .f32 0xFF800000#32) (fun c => if c.val < 2 then z i c else Ideal.ofBits .f32 0xFF800000#32)

/-- The sum over 128 columns of the exponentials of the shifted entries, all but the first two replaced by `0`. -/
def rowSumExp (z : Fin 4096 → Fin 128 → EReal) (i : Fin 4096) : EReal :=
  ∑ c : Fin 128, if c.val < 2 then Ideal.exp (z i c - rowMaxK z i) else 0

/-- `z - (m + log s)` over the 128 columns. -/
def outK (x : Fin 4096 → Fin 512 → EReal) (adj : Fin 4096 → Fin 4096 → EReal) (W1 : Fin 512 → Fin 256 → EReal) (b1 : Fin 256 → EReal) (W2 : Fin 256 → Fin 2 → EReal) (b2 : Fin 2 → EReal) (i : Fin 4096) (q : Fin 128) : EReal :=
  logit x adj W1 b1 W2 b2 i q - (rowMaxK (logit x adj W1 b1 W2 b2) i + Ideal.log (rowSumExp (logit x adj W1 b1 W2 b2) i))

/-- The first two of the 128 columns. -/
def K (x : Fin 4096 → Fin 512 → EReal) (adj : Fin 4096 → Fin 4096 → EReal) (W1 : Fin 512 → Fin 256 → EReal) (b1 : Fin 256 → EReal) (W2 : Fin 256 → Fin 2 → EReal) (b2 : Fin 2 → EReal) : Fin 4096 → Fin 2 → EReal :=
  fun i c => outK x adj W1 b1 W2 b2 i ⟨c.val, by omega⟩

/-! ## The two arrangements agree on real inputs -/

section Agree

variable (x : Fin 4096 → Fin 512 → EReal) (adj : Fin 4096 → Fin 4096 → EReal) (W1 : Fin 512 → Fin 256 → EReal) (b1 : Fin 256 → EReal) (W2 : Fin 256 → Fin 2 → EReal) (b2 : Fin 2 → EReal)

theorem AK_eq (i j : Fin 4096) : AK adj i j = adjSym adj i j := by
  unfold AK adjSym; rw [Ideal.ofBits_one_f32]

theorem isReal_adjSym (i j : Fin 4096) : IsReal (adjSym adj i j) := by
  unfold adjSym; split_ifs; exacts [isReal_one, isReal_zero]

theorem isReal_deg (i : Fin 4096) : IsReal (deg adj i) :=
  IsReal.sum _ _ fun j _ => isReal_adjSym adj i j

theorem dinvK_eq (i : Fin 4096) : dinvK adj i = dinv adj i := by
  unfold dinvK dinv
  rw [Ideal.ofBits_one_f32, show (∑ j : Fin 4096, AK adj i j) = deg adj i from Finset.sum_congr rfl fun j _ => AK_eq adj i j]
  exact rsqrt_max_one (isReal_deg adj i)

theorem isReal_dinv (i : Fin 4096) : IsReal (dinv adj i) := isReal_pow_max_one (isReal_deg adj i) _

variable (hx : ∀ i k, ∃ r : ℝ, x i k = r) (hW1 : ∀ k q, ∃ r : ℝ, W1 k q = r) (hb1 : ∀ q, ∃ r : ℝ, b1 q = r)
  (hW2 : ∀ q c, ∃ r : ℝ, W2 q c = r) (hb2 : ∀ c, ∃ r : ℝ, b2 c = r)

include hx hW1 in
theorem isReal_xw (i : Fin 4096) (q : Fin 256) : IsReal (xw x W1 i q) :=
  IsReal.sum _ _ fun k _ => IsReal.mul (hx i k) (hW1 k q)

theorem hsHi_eq (i : Fin 4096) (q : Fin 256) : hsHi x adj W1 i q = dinv adj i * xw x W1 i q := by
  unfold hsHi xw; rw [dinvK_eq]

include hx hW1 in
theorem hsLo_eq (i : Fin 4096) (q : Fin 256) : hsLo x adj W1 i q = 0 := by
  unfold hsLo
  exact ((isReal_dinv adj i |>.mul (isReal_xw x W1 hx hW1 i q)) |> fun h => by rw [dinvK_eq]; exact h.sub_self)

include hx hW1 in
theorem hidden_eq (i : Fin 4096) (c : Fin 256) : hidden x adj W1 b1 i c = hid x adj W1 b1 i c := by
  unfold hidden hid
  rw [dinvK_eq]
  have e1 : (∑ k : Fin 4096, AK adj i k * hsHi x adj W1 k c) = ∑ j : Fin 4096, adjSym adj i j * (dinv adj j * xw x W1 j c) :=
    Finset.sum_congr rfl fun k _ => by rw [AK_eq, hsHi_eq]
  have e2 : (∑ k : Fin 4096, AK adj i k * hsLo x adj W1 k c) = 0 :=
    Finset.sum_eq_zero fun k _ => by rw [hsLo_eq x adj W1 hx hW1, mul_zero]
  rw [e1, e2, add_zero]

include hx hW1 hb1 in
theorem isReal_hid (i : Fin 4096) (q : Fin 256) : IsReal (hid x adj W1 b1 i q) := by
  unfold hid
  exact (((isReal_dinv adj i).mul (IsReal.sum _ _ fun j _ =>
    (isReal_adjSym adj i j).mul ((isReal_dinv adj j).mul (isReal_xw x W1 hx hW1 j q)))).add (hb1 q)).max isReal_zero

include hW2 in
theorem isReal_W2p (c : Fin 256) (q : Fin 128) : IsReal (W2p W2 c q) := by
  unfold W2p; split_ifs; exacts [hW2 _ _, isReal_zero]

include hx hW1 hb1 hW2 in
theorem isReal_h2 (i : Fin 4096) (q : Fin 128) :
    IsReal (dinv adj i * ∑ c : Fin 256, hid x adj W1 b1 i c * W2p W2 c q) :=
  (isReal_dinv adj i).mul (IsReal.sum _ _ fun c _ => (isReal_hid x adj W1 b1 hx hW1 hb1 i c).mul (isReal_W2p W2 hW2 c q))

include hx hW1 in
theorem h2Hi_eq (i : Fin 4096) (q : Fin 128) :
    h2Hi x adj W1 b1 W2 i q = dinv adj i * ∑ c : Fin 256, hid x adj W1 b1 i c * W2p W2 c q := by
  unfold h2Hi
  rw [dinvK_eq]
  exact congrArg (dinv adj i * ·) (Finset.sum_congr rfl fun c _ => by rw [hidden_eq x adj W1 b1 hx hW1])

include hx hW1 hb1 hW2 in
theorem h2Lo_eq (i : Fin 4096) (q : Fin 128) : h2Lo x adj W1 b1 W2 i q = 0 := by
  have e := h2Hi_eq x adj W1 b1 W2 hx hW1 i q
  unfold h2Hi at e
  unfold h2Lo
  rw [e]
  exact (isReal_h2 x adj W1 b1 W2 hx hW1 hb1 hW2 i q).sub_self

/-- On the first two columns the padded product is `H W2`. -/
theorem sum_W2p (i : Fin 4096) (c : Fin 2) :
    (∑ q : Fin 256, hid x adj W1 b1 i q * W2p W2 q ⟨c.val, by omega⟩) = hw x adj W1 b1 W2 i c := by
  unfold hw
  refine Finset.sum_congr rfl fun q _ => ?_
  unfold W2p
  rw [dif_pos (show (⟨c.val, by omega⟩ : Fin 128).val < 2 from c.isLt)]

include hx hW1 hb1 hW2 in
/-- On the first two columns the 128-column logits are the logits. -/
theorem logit_eq (i : Fin 4096) (c : Fin 2) :
    logit x adj W1 b1 W2 b2 i ⟨c.val, by omega⟩ = logits x adj W1 b1 W2 b2 i c := by
  unfold logit logits
  rw [dinvK_eq]
  have e1 : (∑ k : Fin 4096, AK adj i k * h2Hi x adj W1 b1 W2 k ⟨c.val, by omega⟩)
      = ∑ j : Fin 4096, adjSym adj i j * (dinv adj j * hw x adj W1 b1 W2 j c) :=
    Finset.sum_congr rfl fun k _ => by rw [AK_eq, h2Hi_eq x adj W1 b1 W2 hx hW1, sum_W2p]
  have e2 : (∑ k : Fin 4096, AK adj i k * h2Lo x adj W1 b1 W2 k ⟨c.val, by omega⟩) = 0 :=
    Finset.sum_eq_zero fun k _ => by rw [h2Lo_eq x adj W1 b1 W2 hx hW1 hb1 hW2, mul_zero]
  have e3 : b2p b2 ⟨c.val, by omega⟩ = b2 c := by
    unfold b2p; rw [dif_pos (show (⟨c.val, by omega⟩ : Fin 128).val < 2 from c.isLt)]
  rw [e1, e2, add_zero, e3]

include hx hW1 hb1 hW2 hb2 in
theorem isReal_logits (i : Fin 4096) (c : Fin 2) : IsReal (logits x adj W1 b1 W2 b2 i c) := by
  unfold logits
  refine ((isReal_dinv adj i).mul (IsReal.sum _ _ fun j _ => (isReal_adjSym adj i j).mul ((isReal_dinv adj j).mul ?_))).add (hb2 c)
  unfold hw
  exact IsReal.sum _ _ fun q _ => (isReal_hid x adj W1 b1 hx hW1 hb1 j q).mul (hW2 q c)

include hx hW1 hb1 hW2 in
/-- The row maximum over the 128 columns is the larger of the two logits. -/
theorem rowMaxK_eq (i : Fin 4096) :
    rowMaxK (logit x adj W1 b1 W2 b2) i = rowMax (logits x adj W1 b1 W2 b2) i := by
  unfold rowMaxK rowMax
  rw [ofBits_neg_inf_f32, fold_max_first_two]
  have h0 := logit_eq x adj W1 b1 W2 b2 hx hW1 hb1 hW2 i 0
  have h1 := logit_eq x adj W1 b1 W2 b2 hx hW1 hb1 hW2 i 1
  exact congrArg₂ max h0 h1

include hx hW1 hb1 hW2 in
/-- The sum of exponentials over the 128 columns is the sum over the two. -/
theorem rowSumExp_eq (i : Fin 4096) :
    rowSumExp (logit x adj W1 b1 W2 b2) i
      = ∑ c' : Fin 2, Ideal.exp (logits x adj W1 b1 W2 b2 i c' - rowMax (logits x adj W1 b1 W2 b2) i) := by
  unfold rowSumExp
  rw [sum_first_two, Fin.sum_univ_two, rowMaxK_eq x adj W1 b1 W2 b2 hx hW1 hb1 hW2]
  have h0 := logit_eq x adj W1 b1 W2 b2 hx hW1 hb1 hW2 i 0
  have h1 := logit_eq x adj W1 b1 W2 b2 hx hW1 hb1 hW2 i 1
  exact congrArg₂ (· + ·) (congrArg (fun v => Ideal.exp (v - _)) h0) (congrArg (fun v => Ideal.exp (v - _)) h1)

include hx hW1 hb1 hW2 hb2 in
/-- For inputs that are all real numbers the two arrangements compute the same function. -/
theorem K_eq_G : K x adj W1 b1 W2 b2 = G x adj W1 b1 W2 b2 := by
  funext i c
  show outK x adj W1 b1 W2 b2 i ⟨c.val, by omega⟩ = logSoftmax (logits x adj W1 b1 W2 b2) i c
  unfold outK logSoftmax
  rw [rowMaxK_eq x adj W1 b1 W2 b2 hx hW1 hb1 hW2, rowSumExp_eq x adj W1 b1 W2 b2 hx hW1 hb1 hW2,
    logit_eq x adj W1 b1 W2 b2 hx hW1 hb1 hW2]
  have hz := isReal_logits x adj W1 b1 W2 b2 hx hW1 hb1 hW2 hb2
  have hm : IsReal (rowMax (logits x adj W1 b1 W2 b2) i) := (hz i 0).max (hz i 1)
  have hsr : IsReal (∑ c' : Fin 2, Ideal.exp (logits x adj W1 b1 W2 b2 i c' - rowMax (logits x adj W1 b1 W2 b2) i)) :=
    IsReal.sum _ _ fun c' _ => ((hz i c').sub hm).exp
  have hpos : 0 < ∑ c' : Fin 2, Ideal.exp (logits x adj W1 b1 W2 b2 i c' - rowMax (logits x adj W1 b1 W2 b2) i) :=
    sum_exp_pos _ Finset.univ_nonempty _ fun c' _ => (hz i c').sub hm
  exact sub_add_log (hz i c) hm hsr hpos

end Agree

end Cert.Spec

end
-- ==== Proof.KValue.lean ====
/-
  The idealized kernel's result, index by index, as a function of the launch contents of its six arguments.

  Reading the last boundary backwards: the host slices the first two of the 128 columns call 3 wrote; call 3 wrote the
  masked log-softmax of its logits, which aggregate the pair call 2 wrote; call 2 wrote the scaled second-layer operand
  of the hidden layer, which aggregates the pair call 1 wrote; call 1 wrote the scaled first product; every call scales
  by the column call 0 wrote and aggregates over the 0/1 matrix call 0 wrote. Each array reaches its reader as its
  writer left it. The stages are exactly the kernel's arrangement `Cert.Spec.K`; on real inputs that is `Cert.Spec.G`.
-/
import proofs.«167793_g47029891891200_fold_wed_c4_674_5_alg».proof.Proof.ValWalk
import proofs.«167793_g47029891891200_fold_wed_c4_674_5_alg».proof.Proof.Frames
import proofs.«167793_g47029891891200_fold_wed_c4_674_5_alg».proof.Proof.R0Value
import proofs.«167793_g47029891891200_fold_wed_c4_674_5_alg».proof.Proof.Final1
import proofs.«167793_g47029891891200_fold_wed_c4_674_5_alg».proof.Proof.Final2
import proofs.«167793_g47029891891200_fold_wed_c4_674_5_alg».proof.Proof.Final3
import proofs.«167793_g47029891891200_fold_wed_c4_674_5_alg».proof.Proof.HostVals
import proofs.«167793_g47029891891200_fold_wed_c4_674_5_alg».proof.Proof.Law
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

variable (m : (ℓ : Loc nD τ sig) → Buf (Elt Ideal) ℓ) (c : Dev nD)

/-! ## The launch contents, curried -/
abbrev xC : Fin 4096 → Fin 512 → EReal := fun i k => (V0 m c main_arg0 : S4096x512.Idx → EReal) (ix2 i k)
abbrev adjC : Fin 4096 → Fin 4096 → EReal := fun i j => (V0 m c main_arg1 : S4096x4096.Idx → EReal) (ix2 i j)
abbrev W1C : Fin 512 → Fin 256 → EReal := fun k q => (V0 m c main_arg2 : S512x256.Idx → EReal) (ix2 k q)
abbrev b1C : Fin 256 → EReal := fun q => (V0 m c main_arg3 : S256.Idx → EReal) (ix1 q)
abbrev W2C : Fin 256 → Fin 2 → EReal := fun q c' => (V0 m c main_arg4 : S256x2.Idx → EReal) (ix2 q c')
abbrev b2C : Fin 2 → EReal := fun c' => (V0 m c main_arg5 : S2.Idx → EReal) (ix1 c')

/-! ## Call 0's two arrays -/
theorem v0_0_fun : (V1 m c main_call0_v0_0 : S4096x4096.Idx → EReal) = fun j => Cert.Spec.AK (adjC m c) (j 0) (j 1) := by
  funext j
  obtain ⟨i, k, rfl⟩ : ∃ (i : Fin 4096) (k : Fin 4096), j = ix2 i k := ⟨j 0, j 1, eq_ix2 j⟩
  rw [W1_v0_0]
  exact (final0_A (V0 m) c i k).trans rfl
theorem v0_1_fun : (V1 m c main_call0_v0_1 : S4096x1.Idx → EReal) = fun j => Cert.Spec.dinvK (adjC m c) (j 0) := by
  funext j
  obtain ⟨i, u, rfl⟩ : ∃ (i : Fin 4096) (u : Fin 1), j = ix2 i u := ⟨j 0, j 1, eq_ix2 j⟩
  rw [W1_v0_1]
  exact (final0_dinv (V0 m) c i u).trans rfl

/-! ## Call 1's pair -/
theorem v1_0_fun : ((dat1 (V1 m) c).arrAt 3 cfg1.N : S4096x256.Idx → EReal)
    = fun j => Cert.Spec.hsHi (xC m c) (adjC m c) (W1C m c) (j 0) (j 1) := by
  funext j
  obtain ⟨i, q, rfl⟩ : ∃ (i : Fin 4096) (q : Fin 256), j = ix2 i q := ⟨j 0, j 1, eq_ix2 j⟩
  rw [final1_hi]; unfold hi1 Cert.Spec.hsHi
  rw [v0_1_fun, V1_arg0, V1_arg2]
  rfl
theorem v1_1_fun : ((dat1 (V1 m) c).arrAt 4 cfg1.N : S4096x256.Idx → EReal)
    = fun j => Cert.Spec.hsLo (xC m c) (adjC m c) (W1C m c) (j 0) (j 1) := by
  funext j
  obtain ⟨i, q, rfl⟩ : ∃ (i : Fin 4096) (q : Fin 256), j = ix2 i q := ⟨j 0, j 1, eq_ix2 j⟩
  rw [final1_lo]; unfold lo1 Cert.Spec.hsLo
  rw [v0_1_fun, V1_arg0, V1_arg2]
  rfl

/-! ## What the host stretch hands call 2 and call 3 -/
theorem v10_fun : (V3 m c main_call0_v10 : S1x256.Idx → EReal) = fun j => b1C m c (j 1) := by
  funext j
  obtain ⟨u, q, rfl⟩ : ∃ (u : Fin 1) (q : Fin 256), j = ix2 u q := ⟨j 0, j 1, eq_ix2 j⟩
  refine (Cert.KernelIdeal.HostVals.b1r_apply (W2 m c) u q).trans ?_
  rw [W2_arg3]
  rfl
theorem v4_fun : (V3 m c main_call0_v4 : S256x128.Idx → EReal) = fun j => Cert.Spec.W2p (W2C m c) (j 0) (j 1) := by
  funext j
  obtain ⟨k, q, rfl⟩ : ∃ (k : Fin 256) (q : Fin 128), j = ix2 k q := ⟨j 0, j 1, eq_ix2 j⟩
  refine (Cert.KernelIdeal.HostVals.w2p_apply (W2 m c) k q).trans ?_
  rw [W2_arg4]
  rfl
theorem v9_fun : (V4 m c main_call0_v9 : S1x128.Idx → EReal) = fun j => Cert.Spec.b2p (b2C m c) (j 1) := by
  funext j
  obtain ⟨u, q, rfl⟩ : ∃ (u : Fin 1) (q : Fin 128), j = ix2 u q := ⟨j 0, j 1, eq_ix2 j⟩
  rw [V4_v9]
  refine (Cert.KernelIdeal.HostVals.b2p_apply (W2 m c) u q).trans ?_
  rw [W2_arg5]
  rfl

/-! ## Call 2's pair -/
theorem hidden2_fun :
    hidden2 (V3 m c main_call0_v0_0) (V3 m c main_call0_v1_0) (V3 m c main_call0_v1_1) (V3 m c main_call0_v0_1) (V3 m c main_call0_v10)
      = Cert.Spec.hidden (xC m c) (adjC m c) (W1C m c) (b1C m c) := by
  funext i c'
  unfold hidden2 Cert.Spec.hidden
  rw [V3_v1_0, V3_v1_1, v1_0_fun, v1_1_fun, V3_v0_0, V3_v0_1, v0_0_fun, v0_1_fun, v10_fun]
  rfl
theorem v11_0_fun : ((dat2 (V3 m) c).arrAt 6 cfg2.N : S4096x128.Idx → EReal)
    = fun j => Cert.Spec.h2Hi (xC m c) (adjC m c) (W1C m c) (b1C m c) (W2C m c) (j 0) (j 1) := by
  funext j
  obtain ⟨i, q, rfl⟩ : ∃ (i : Fin 4096) (q : Fin 128), j = ix2 i q := ⟨j 0, j 1, eq_ix2 j⟩
  rw [final2_hi]; unfold hi2 Cert.Spec.h2Hi
  rw [hidden2_fun, V3_v0_1, v0_1_fun, v4_fun]
  rfl
theorem v11_1_fun : ((dat2 (V3 m) c).arrAt 7 cfg2.N : S4096x128.Idx → EReal)
    = fun j => Cert.Spec.h2Lo (xC m c) (adjC m c) (W1C m c) (b1C m c) (W2C m c) (j 0) (j 1) := by
  funext j
  obtain ⟨i, q, rfl⟩ : ∃ (i : Fin 4096) (q : Fin 128), j = ix2 i q := ⟨j 0, j 1, eq_ix2 j⟩
  rw [final2_lo]; unfold lo2 Cert.Spec.h2Lo
  rw [hidden2_fun, V3_v0_1, v0_1_fun, v4_fun]
  rfl

/-! ## Call 3's array -/
theorem logit3_fun :
    logit3 (V4 m c main_call0_v0_0) (V4 m c main_call0_v11_0) (V4 m c main_call0_v11_1) (V4 m c main_call0_v0_1) (V4 m c main_call0_v9)
      = Cert.Spec.logit (xC m c) (adjC m c) (W1C m c) (b1C m c) (W2C m c) (b2C m c) := by
  funext i q
  unfold logit3 Cert.Spec.logit
  rw [V4_v11_0, V4_v11_1, v11_0_fun, v11_1_fun, V4_v0_0, V4_v0_1, v0_0_fun, v0_1_fun, v9_fun]
  rfl
theorem v12_apply (i : Fin 4096) (q : Fin 128) :
    ((dat3 (V4 m) c).arrAt 5 cfg3.N : S4096x128.Idx → EReal) (ix2 i q)
      = Cert.Spec.outK (xC m c) (adjC m c) (W1C m c) (b1C m c) (W2C m c) (b2C m c) i q := by
  rw [final3]; unfold lsm3
  rw [logit3_fun]
  rfl

/-! ## The result -/
theorem result_apply (i : Fin 4096) (c' : Fin 2) :
    (W6 m c (Proc.devRef .tc main_v0) : S4096x2.Idx → EReal) (ix2 i c')
      = Cert.Spec.K (xC m c) (adjC m c) (W1C m c) (b1C m c) (W2C m c) (b2C m c) i c' := by
  refine (Cert.KernelIdeal.HostVals.out_apply (W5 m c) i c').trans ?_
  rw [W5_v12, v12_apply]
  rfl

/-- On real inputs the result array is the specification's. -/
theorem kernel_value
    (h0 : ∀ j, Cert.LibReal.IsReal ((V0 m c main_arg0 : S4096x512.Idx → EReal) j))
    (h2 : ∀ j, Cert.LibReal.IsReal ((V0 m c main_arg2 : S512x256.Idx → EReal) j)) (h3 : ∀ j, Cert.LibReal.IsReal ((V0 m c main_arg3 : S256.Idx → EReal) j))
    (h4 : ∀ j, Cert.LibReal.IsReal ((V0 m c main_arg4 : S256x2.Idx → EReal) j)) (h5 : ∀ j, Cert.LibReal.IsReal ((V0 m c main_arg5 : S2.Idx → EReal) j)) :
    (W6 m c (Proc.devRef .tc main_v0) : S4096x2.Idx → EReal)
      = Cert.Spec.GV (V0 m c main_arg0) (V0 m c main_arg1) (V0 m c main_arg2) (V0 m c main_arg3) (V0 m c main_arg4) (V0 m c main_arg5) := by
  funext j
  obtain ⟨i, c', rfl⟩ : ∃ (i : Fin 4096) (c' : Fin 2), j = ix2 i c' := ⟨j 0, j 1, eq_ix2 j⟩
  rw [result_apply, Cert.Spec.GV_ix2]
  exact congrFun (congrFun (Cert.Spec.K_eq_G (xC m c) (adjC m c) (W1C m c) (b1C m c) (W2C m c) (b2C m c)
    (fun i k => h0 _) (fun k q => h2 _) (fun q => h3 _) (fun q c' => h4 _) (fun c' => h5 _)) i) c'

end Cert.KernelIdeal.Hand

end
-- ==== Proof.Finite.lean ====
/-
  From the precondition to real entries. The precondition is the conjunction, over the six arguments, of
  "every entry's absolute value is below plus infinity in the order"; on the extended reals an element whose absolute
  value max x (-x) is below the top element is a real number.
-/
import proofs.«167793_g47029891891200_fold_wed_c4_674_5_alg».proof.Pre_finite_inputs
import Idealize.ShloMosaic.Lib.ReduceAll
import Idealize.ShloMosaic.Lib.ValueIdx
import Idealize.ShloMosaic.Lib.Affine
import Idealize.ShloMosaic.PureOps.Ideal

noncomputable section

namespace Cert.Finite

open Idealize.ShloMosaic Cert.Pre_finite_inputs

/-- A shape of rank zero has one index. -/
instance : Subsingleton S_.Idx := ⟨fun a b => funext fun d => d.elim0⟩

/-- The word of plus infinity is the top element. -/
theorem inf_word : Ideal.ofBits .f32 0x7F800000#32 = (⊤ : EReal) := by simp [Ideal.ofBits, Ideal.ieee]

/-- An extended real whose absolute value lies below the top element is a real. -/
theorem real_of_abs_lt_top (x : EReal) (h : max x (-x) < ⊤) : ∃ r : ℝ, x = r := by
  induction x using EReal.rec with
  | bot => exact absurd h (by simp)
  | coe r => exact ⟨r, rfl⟩
  | top => exact absurd h (by simp)

/-- The comparison the precondition makes at one entry. -/
theorem real_of_cmp (x : EReal) (h : Ideal.cmp .olt (max x (-x)) (Ideal.ofBits .f32 0x7F800000#32) = 1#1) : ∃ r : ℝ, x = r := by
  rw [inf_word] at h
  refine real_of_abs_lt_top x ?_
  simp only [Ideal.cmp] at h
  cases hd : decide (max x (-x) < ⊤) with
  | true => exact of_decide_eq_true hd
  | false => rw [hd] at h; exact absurd h (by decide)

variable [Cert.Pre_finite_inputs.Facts]

/-- Under the precondition every entry of every argument is a real. -/
theorem reals_of_fn (a0 : FVec Ideal S4096x512 .f32) (a1 : FVec Ideal S4096x4096 .f32) (a2 : FVec Ideal S512x256 .f32)
    (a3 : FVec Ideal S256 .f32) (a4 : FVec Ideal S256x2 .f32) (a5 : FVec Ideal S2 .f32)
    (h : Cert.Pre_finite_inputs.fn (F := Ideal) a0 a1 a2 a3 a4 a5 = fun _ => 1#1) :
    (∀ i, ∃ r : ℝ, a0 i = r) ∧ (∀ i, ∃ r : ℝ, a1 i = r) ∧ (∀ i, ∃ r : ℝ, a2 i = r)
      ∧ (∀ i, ∃ r : ℝ, a3 i = r) ∧ (∀ i, ∃ r : ℝ, a4 i = r) ∧ (∀ i, ∃ r : ℝ, a5 i = r) := by
  have h0 := congrFun h ValueIdx.ix0
  dsimp only [Cert.Pre_finite_inputs.fn, Cert.Pre_finite_inputs.fn_part1, andi] at h0
  obtain ⟨h01234, e5⟩ := IntOp.andi_eq_one.mp h0
  obtain ⟨h0123, e4⟩ := IntOp.andi_eq_one.mp h01234
  obtain ⟨h012, e3⟩ := IntOp.andi_eq_one.mp h0123
  obtain ⟨h01, e2⟩ := IntOp.andi_eq_one.mp h012
  obtain ⟨e0, e1⟩ := IntOp.andi_eq_one.mp h01
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i), fun i => real_of_cmp _ (Host.reduce_andi_all _ _ _ _ _ e3 i),
    fun i => real_of_cmp _ (Host.reduce_andi_all _ _ _ _ _ e4 i), fun i => real_of_cmp _ (Host.reduce_andi_all _ _ _ _ _ e5 i)⟩

end Cert.Finite

end
-- ==== Proof.Algebraic.lean ====
/-
  The two idealized programs, run from memories that agree on the six arguments, end with the same result.

  The kernel's run ends with every buffer at the last boundary's contents; its result buffer there is, on real inputs,
  the specification's array of the launch contents (the precondition makes every input entry real). The reference's run
  ends with its result at the same specification of ITS launch contents, which are the kernel's by hypothesis.
-/
import proofs.«167793_g47029891891200_fold_wed_c4_674_5_alg».proof.Defs
import proofs.«167793_g47029891891200_fold_wed_c4_674_5_alg».proof.Proof.Gen.KernelIdeal
import proofs.«167793_g47029891891200_fold_wed_c4_674_5_alg».proof.Proof.Gen.ReferenceIdeal
import proofs.«167793_g47029891891200_fold_wed_c4_674_5_alg».proof.Proof.Gen.Pre_finite_inputs
import proofs.«167793_g47029891891200_fold_wed_c4_674_5_alg».proof.Proof.KValue
import proofs.«167793_g47029891891200_fold_wed_c4_674_5_alg».proof.Proof.Finite
import proofs.«167793_g47029891891200_fold_wed_c4_674_5_alg».proof.Proof.RefValue

set_option maxRecDepth 16384

noncomputable section

namespace Cert.Proof

open Idealize.ShloMosaic Idealize.ShloMosaic.TcCoe Idealize.SL.Sem

/-- The idealized kernel's run, with its result named: the specification's array of the launch contents. -/
theorem kernel_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = Cert.Spec.GV (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))
            (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  refine (θ_run (Cert.KernelIdeal.defs (F := Ideal)) _ _).mono (fun r h c => ?_) (Cert.KernelIdeal.Hand.run_all (F := Ideal) m ρ)
  obtain ⟨r0, _, r2, r3, r4, r5⟩ := Cert.Finite.reals_of_fn _ _ _ _ _ _ (hpre c)
  exact ⟨(h c _ (Cert.KernelIdeal.Hand.mem_uc Cert.KernelIdeal.main_v0 (by decide))).trans (Cert.KernelIdeal.Hand.kernel_value m c r0 r2 r3 r4 r5),
    (h c _ (Cert.KernelIdeal.Hand.mem_uc Cert.KernelIdeal.main_arg0 (by decide))).trans (Cert.KernelIdeal.Hand.W6_main_arg0 m c),
    (h c _ (Cert.KernelIdeal.Hand.mem_uc Cert.KernelIdeal.main_arg1 (by decide))).trans (Cert.KernelIdeal.Hand.W6_main_arg1 m c),
    (h c _ (Cert.KernelIdeal.Hand.mem_uc Cert.KernelIdeal.main_arg2 (by decide))).trans (Cert.KernelIdeal.Hand.W6_main_arg2 m c),
    (h c _ (Cert.KernelIdeal.Hand.mem_uc Cert.KernelIdeal.main_arg3 (by decide))).trans (Cert.KernelIdeal.Hand.W6_main_arg3 m c),
    (h c _ (Cert.KernelIdeal.Hand.mem_uc Cert.KernelIdeal.main_arg4 (by decide))).trans (Cert.KernelIdeal.Hand.W6_main_arg4 m c),
    (h c _ (Cert.KernelIdeal.Hand.mem_uc Cert.KernelIdeal.main_arg5 (by decide))).trans (Cert.KernelIdeal.Hand.W6_main_arg5 m c)⟩

theorem algebraic : Cert.algebraic_KernelIdeal_ReferenceIdeal := by
  intro m ρ m' ρ' hpre hagree
  refine ⟨_, kernel_run m ρ hpre, ?_⟩
  refine (θ_run (Cert.ReferenceIdeal.defs (F := Ideal)) _ _).mono (fun r h c => ?_) (Cert.ReferenceIdeal.RefValue.run_G m' ρ')
  obtain ⟨a0, a1, a2, a3, a4, a5⟩ := hagree c
  refine ⟨(h c).1.trans ?_, (h c).2⟩
  rw [a0, a1, a2, a3, a4, a5]

end Cert.Proof

end
-- ==== Proof.lean ====
/-
  The kernel is a two-layer graph convolution in four pallas calls; the reference is the same network in plain array
  operations. The claim has five parts.

  The three frames. Each program runs to the end from any memory, faults nowhere and leaves its six arguments as
  launched. For the kernel, at the word level and idealized alike, this is the run of its six items in order (four calls,
  two stretches of host operations) with the contents of every buffer named at each boundary: no host operation writes
  an argument and a call's write-backs touch only its output windows' arrays. The first call reads the adjacency through
  two windows (block (i, j) and block (j, i)), so it holds that array at two half shares; it carries the partial row
  degrees in a scratch column across the column blocks and stores the inverse square roots only at the last one. The
  reference has no call: its frame is its run with the result dropped.

  The idealization's two rewrites are the removal of a round trip through the narrower float format, which is the
  identity on the extended reals.

  The two idealized programs compute one function of finite inputs: the hi/lo pair of each aggregated operand is
  (v, v - v) = (v, 0) for real v, so the two products per layer are one; the reciprocal square root of a degree at least
  one is its power -1/2; padding the second layer to 128 columns with zeros and masking them in the row maximum and the
  row sum leaves the two real columns; and z - (m + log s) = (z - m) - log s for reals.
-/
import proofs.«167793_g47029891891200_fold_wed_c4_674_5_alg».proof.Defs
import proofs.«167793_g47029891891200_fold_wed_c4_674_5_alg».proof.Proof.Gen.Kernel
import proofs.«167793_g47029891891200_fold_wed_c4_674_5_alg».proof.Proof.Gen.KernelIdeal
import proofs.«167793_g47029891891200_fold_wed_c4_674_5_alg».proof.Proof.Gen.ReferenceIdeal
import proofs.«167793_g47029891891200_fold_wed_c4_674_5_alg».proof.Proof.Gen.Pre_finite_inputs
import proofs.«167793_g47029891891200_fold_wed_c4_674_5_alg».proof.Proof.KFrames
import proofs.«167793_g47029891891200_fold_wed_c4_674_5_alg».proof.Proof.Frames
import proofs.«167793_g47029891891200_fold_wed_c4_674_5_alg».proof.Proof.RefValue
import proofs.«167793_g47029891891200_fold_wed_c4_674_5_alg».proof.Proof.Algebraic

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := Cert.ReferenceIdeal.RefValue.frame_ri

/-- Rounding to the narrower format and widening back is the identity on the extended reals, at both sites. -/
theorem preserves : Cert.preserves_Kernel_KernelIdeal :=
  ⟨IdealRules.truncf_extf.statement _ .f32 .bf16, IdealRules.truncf_extf.statement _ .f32 .bf16⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
